-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  reducesTo_S_S_d : S_.ReducesTo [] S_

variable [Facts]

def fn {F : FTy → Type} [FloatOps F] (main_arg0 : FVec F S8192x8192 .f32) (main_arg1 : IVec S_ 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_c_0 : IVec S_ 32 := constantI S_ 32 3#32
  let main_v4 : IVec S_ 1 := cmpi .sge main_arg1 main_c_0
  let main_c_1 : IVec S_ 32 := constantI S_ 32 3#32
  let main_v5 : IVec S_ 1 := cmpi .sle main_arg1 main_c_1
  let main_v6 : IVec S_ 1 := andi main_v4 main_v5
  let main_c_2 : IVec S_ 1 := constantI S_ 1 1#1
  let main_v7 : IVec S_ 1 := (fun x v => Host.reduce IntOp.andi x v reducesTo_S_S_d h_S_) main_v6 main_c_2
  let main_v8 : IVec S_ 1 := andi main_v3 main_v7
  main_v8
-- ==== Kernel.lean ====
abbrev S8192x8192 : Shape := ⟨2, ![8192, 8192]⟩
abbrev S_ : Shape := ⟨0, ![]⟩
abbrev S256x8192 : Shape := ⟨2, ![256, 8192]⟩
abbrev S16 : Shape := ⟨1, ![16]⟩
abbrev S2x128x128 : Shape := ⟨3, ![2, 128, 128]⟩
abbrev S1x128x128 : Shape := ⟨3, ![1, 128, 128]⟩
abbrev S128x128 : Shape := ⟨2, ![128, 128]⟩

abbrev nBuf : Table → Nat
  | .hbm => 6
  | .local .tc .vmem => 4
  | .local .scVector .vmem => 2
  | _ => 0

abbrev bufTy : (tb : Table) → Fin (nBuf tb) → BufTy
  | .hbm, ⟨0, _⟩ => ⟨S8192x8192, .f32⟩
  | .hbm, ⟨1, _⟩ => ⟨S_, .i32⟩
  | .hbm, ⟨2, _⟩ => ⟨S8192x8192, .f32⟩
  | .hbm, ⟨3, _⟩ => ⟨S_, .f32⟩
  | .hbm, ⟨4, _⟩ => ⟨S16, .f32⟩
  | .hbm, ⟨5, _⟩ => ⟨S8192x8192, .f32⟩
  | .local .tc .vmem, ⟨0, _⟩ => ⟨S256x8192, .f32⟩
  | .local .tc .vmem, ⟨1, _⟩ => ⟨S256x8192, .f32⟩
  | .local .tc .vmem, ⟨2, _⟩ => ⟨S256x8192, .f32⟩
  | .local .tc .vmem, ⟨3, _⟩ => ⟨S256x8192, .f32⟩
  | .local .scVector .vmem, ⟨0, _⟩ => ⟨S16, .f32⟩
  | .local .scVector .vmem, ⟨1, _⟩ => ⟨S2x128x128, .f32⟩
  | _, _ => ⟨S8192x8192, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => true
  | ⟨1, _⟩ => true
  | ⟨2, _⟩ => true
  | ⟨3, _⟩ => true
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v2_scv : Ref sig .scVector := ⟨.hbm, 4, rfl⟩
abbrev main_v3_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  ![v3.toNat, v3.toNat]

def k1_chk1 (v34 : IVec S16 32) : Prop :=
  (∀ a x, ((![v34, v34] : Fin 2 → IVec S16 32) a x).toNat < S128x128.size a)
instance k1_chk1.dec : ∀ (v34 : IVec S16 32), Decidable (k1_chk1 v34) := fun v34 => decidable_of_iff' _ (Iff.of_eq (k1_chk1.eq_1 v34))
theorem k1_idx1_inb : ∀ (v34 : IVec S16 32) (k1_hw1 : k1_chk1 v34), ∀ a x, ((![v34, v34] : Fin 2 → IVec S16 32) a x).toNat < S128x128.size a := fun v34 k1_hw1 => k1_hw1

def k1_chk2 (v38 : IVec S16 32) : Prop :=
  (∀ a x, ((![v38, v38] : Fin 2 → IVec S16 32) a x).toNat < S128x128.size a)
instance k1_chk2.dec : ∀ (v38 : IVec S16 32), Decidable (k1_chk2 v38) := fun v38 => decidable_of_iff' _ (Iff.of_eq (k1_chk2.eq_1 v38))
theorem k1_idx2_inb : ∀ (v38 : IVec S16 32) (k1_hw2 : k1_chk2 v38), ∀ a x, ((![v38, v38] : Fin 2 → IVec S16 32) a x).toNat < S128x128.size a := fun v38 k1_hw2 => k1_hw2

def k1_chk3 (v42 : IVec S16 32) : Prop :=
  (∀ a x, ((![v42, v42] : Fin 2 → IVec S16 32) a x).toNat < S128x128.size a)
instance k1_chk3.dec : ∀ (v42 : IVec S16 32), Decidable (k1_chk3 v42) := fun v42 => decidable_of_iff' _ (Iff.of_eq (k1_chk3.eq_1 v42))
theorem k1_idx3_inb : ∀ (v42 : IVec S16 32) (k1_hw3 : k1_chk3 v42), ∀ a x, ((![v42, v42] : Fin 2 → IVec S16 32) a x).toNat < S128x128.size a := fun v42 k1_hw3 => k1_hw3

def k1_chk4 (v46 : IVec S16 32) : Prop :=
  (∀ a x, ((![v46, v46] : Fin 2 → IVec S16 32) a x).toNat < S128x128.size a)
instance k1_chk4.dec : ∀ (v46 : IVec S16 32), Decidable (k1_chk4 v46) := fun v46 => decidable_of_iff' _ (Iff.of_eq (k1_chk4.eq_1 v46))
theorem k1_idx4_inb : ∀ (v46 : IVec S16 32) (k1_hw4 : k1_chk4 v46), ∀ a x, ((![v46, v46] : Fin 2 → IVec S16 32) a x).toNat < S128x128.size a := fun v46 k1_hw4 => k1_hw4

def k1_chk5 (v50 : IVec S16 32) : Prop :=
  (∀ a x, ((![v50, v50] : Fin 2 → IVec S16 32) a x).toNat < S128x128.size a)
instance k1_chk5.dec : ∀ (v50 : IVec S16 32), Decidable (k1_chk5 v50) := fun v50 => decidable_of_iff' _ (Iff.of_eq (k1_chk5.eq_1 v50))
theorem k1_idx5_inb : ∀ (v50 : IVec S16 32) (k1_hw5 : k1_chk5 v50), ∀ a x, ((![v50, v50] : Fin 2 → IVec S16 32) a x).toNat < S128x128.size a := fun v50 k1_hw5 => k1_hw5

def k1_chk6 (v54 : IVec S16 32) : Prop :=
  (∀ a x, ((![v54, v54] : Fin 2 → IVec S16 32) a x).toNat < S128x128.size a)
instance k1_chk6.dec : ∀ (v54 : IVec S16 32), Decidable (k1_chk6 v54) := fun v54 => decidable_of_iff' _ (Iff.of_eq (k1_chk6.eq_1 v54))
theorem k1_idx6_inb : ∀ (v54 : IVec S16 32) (k1_hw6 : k1_chk6 v54), ∀ a x, ((![v54, v54] : Fin 2 → IVec S16 32) a x).toNat < S128x128.size a := fun v54 k1_hw6 => k1_hw6

def k1_chk7 (v58 : IVec S16 32) : Prop :=
  (∀ a x, ((![v58, v58] : Fin 2 → IVec S16 32) a x).toNat < S128x128.size a)
instance k1_chk7.dec : ∀ (v58 : IVec S16 32), Decidable (k1_chk7 v58) := fun v58 => decidable_of_iff' _ (Iff.of_eq (k1_chk7.eq_1 v58))
theorem k1_idx7_inb : ∀ (v58 : IVec S16 32) (k1_hw7 : k1_chk7 v58), ∀ a x, ((![v58, v58] : Fin 2 → IVec S16 32) a x).toNat < S128x128.size a := fun v58 k1_hw7 => k1_hw7

def k1_chk8 (v62 : IVec S16 32) : Prop :=
  (∀ a x, ((![v62, v62] : Fin 2 → IVec S16 32) a x).toNat < S128x128.size a)
instance k1_chk8.dec : ∀ (v62 : IVec S16 32), Decidable (k1_chk8 v62) := fun v62 => decidable_of_iff' _ (Iff.of_eq (k1_chk8.eq_1 v62))
theorem k1_idx8_inb : ∀ (v62 : IVec S16 32) (k1_hw8 : k1_chk8 v62), ∀ a x, ((![v62, v62] : Fin 2 → IVec S16 32) a x).toNat < S128x128.size a := fun v62 k1_hw8 => k1_hw8

def k1_chk9 (v66 : IVec S16 32) : Prop :=
  (∀ a x, ((![v66, v66] : Fin 2 → IVec S16 32) a x).toNat < S128x128.size a)
instance k1_chk9.dec : ∀ (v66 : IVec S16 32), Decidable (k1_chk9 v66) := fun v66 => decidable_of_iff' _ (Iff.of_eq (k1_chk9.eq_1 v66))
theorem k1_idx9_inb : ∀ (v66 : IVec S16 32) (k1_hw9 : k1_chk9 v66), ∀ a x, ((![v66, v66] : Fin 2 → IVec S16 32) a x).toNat < S128x128.size a := fun v66 k1_hw9 => k1_hw9

def k1_chk10 (v70 : IVec S16 32) : Prop :=
  (∀ a x, ((![v70, v70] : Fin 2 → IVec S16 32) a x).toNat < S128x128.size a)
instance k1_chk10.dec : ∀ (v70 : IVec S16 32), Decidable (k1_chk10 v70) := fun v70 => decidable_of_iff' _ (Iff.of_eq (k1_chk10.eq_1 v70))
theorem k1_idx10_inb : ∀ (v70 : IVec S16 32) (k1_hw10 : k1_chk10 v70), ∀ a x, ((![v70, v70] : Fin 2 → IVec S16 32) a x).toNat < S128x128.size a := fun v70 k1_hw10 => k1_hw10

def k1_chk11 (v74 : IVec S16 32) : Prop :=
  (∀ a x, ((![v74, v74] : Fin 2 → IVec S16 32) a x).toNat < S128x128.size a)
instance k1_chk11.dec : ∀ (v74 : IVec S16 32), Decidable (k1_chk11 v74) := fun v74 => decidable_of_iff' _ (Iff.of_eq (k1_chk11.eq_1 v74))
theorem k1_idx11_inb : ∀ (v74 : IVec S16 32) (k1_hw11 : k1_chk11 v74), ∀ a x, ((![v74, v74] : Fin 2 → IVec S16 32) a x).toNat < S128x128.size a := fun v74 k1_hw11 => k1_hw11

def k1_chk12 (v78 : IVec S16 32) : Prop :=
  (∀ a x, ((![v78, v78] : Fin 2 → IVec S16 32) a x).toNat < S128x128.size a)
instance k1_chk12.dec : ∀ (v78 : IVec S16 32), Decidable (k1_chk12 v78) := fun v78 => decidable_of_iff' _ (Iff.of_eq (k1_chk12.eq_1 v78))
theorem k1_idx12_inb : ∀ (v78 : IVec S16 32) (k1_hw12 : k1_chk12 v78), ∀ a x, ((![v78, v78] : Fin 2 → IVec S16 32) a x).toNat < S128x128.size a := fun v78 k1_hw12 => k1_hw12

def k1_chk13 (v82 : IVec S16 32) : Prop :=
  (∀ a x, ((![v82, v82] : Fin 2 → IVec S16 32) a x).toNat < S128x128.size a)
instance k1_chk13.dec : ∀ (v82 : IVec S16 32), Decidable (k1_chk13 v82) := fun v82 => decidable_of_iff' _ (Iff.of_eq (k1_chk13.eq_1 v82))
theorem k1_idx13_inb : ∀ (v82 : IVec S16 32) (k1_hw13 : k1_chk13 v82), ∀ a x, ((![v82, v82] : Fin 2 → IVec S16 32) a x).toNat < S128x128.size a := fun v82 k1_hw13 => k1_hw13

def k1_chk14 (v86 : IVec S16 32) : Prop :=
  (∀ a x, ((![v86, v86] : Fin 2 → IVec S16 32) a x).toNat < S128x128.size a)
instance k1_chk14.dec : ∀ (v86 : IVec S16 32), Decidable (k1_chk14 v86) := fun v86 => decidable_of_iff' _ (Iff.of_eq (k1_chk14.eq_1 v86))
theorem k1_idx14_inb : ∀ (v86 : IVec S16 32) (k1_hw14 : k1_chk14 v86), ∀ a x, ((![v86, v86] : Fin 2 → IVec S16 32) a x).toNat < S128x128.size a := fun v86 k1_hw14 => k1_hw14

def k1_chk15 (v90 : IVec S16 32) : Prop :=
  (∀ a x, ((![v90, v90] : Fin 2 → IVec S16 32) a x).toNat < S128x128.size a)
instance k1_chk15.dec : ∀ (v90 : IVec S16 32), Decidable (k1_chk15 v90) := fun v90 => decidable_of_iff' _ (Iff.of_eq (k1_chk15.eq_1 v90))
theorem k1_idx15_inb : ∀ (v90 : IVec S16 32) (k1_hw15 : k1_chk15 v90), ∀ a x, ((![v90, v90] : Fin 2 → IVec S16 32) a x).toNat < S128x128.size a := fun v90 k1_hw15 => k1_hw15

def k1_chk16 (v94 : IVec S16 32) : Prop :=
  (∀ a x, ((![v94, v94] : Fin 2 → IVec S16 32) a x).toNat < S128x128.size a)
instance k1_chk16.dec : ∀ (v94 : IVec S16 32), Decidable (k1_chk16 v94) := fun v94 => decidable_of_iff' _ (Iff.of_eq (k1_chk16.eq_1 v94))
theorem k1_idx16_inb : ∀ (v94 : IVec S16 32) (k1_hw16 : k1_chk16 v94), ∀ a x, ((![v94, v94] : Fin 2 → IVec S16 32) a x).toNat < S128x128.size a := fun v94 k1_hw16 => k1_hw16
def k1_off2 (i : grid1.Coords) (c0_i32_78 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v97 : BitVec 32 := Scalar.addi v2 c0_i32_78
  ![v97.toNat, v97.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S256x8192_S256x8192_0_0 : ∀ a, (![0, 0] : Fin 2 → Nat) a + S256x8192.size a ≤ S256x8192.size a
  h_S256x8192 : 0 < S256x8192.numel
  bcast_S_S16 : S_.BroadcastsInDim S16 (![] : Fin 0 → Fin S16.rank)
  inb_S2x128x128_S1x128x128_0_0_0 : ∀ a, (![0, 0, 0] : Fin 3 → Nat) a + S1x128x128.size a ≤ S2x128x128.size a
  squeezes_S1x128x128_S128x128 : S1x128x128.Squeezes S128x128
  inb_S2x128x128_S1x128x128_1_0_0 : ∀ a, (![1, 0, 0] : Fin 3 → Nat) a + S1x128x128.size a ≤ S2x128x128.size a
  inb_S16_S16_0 : ∀ a, (![0] : Fin 1 → Nat) a + S16.size a ≤ S16.size a
  h_S16 : 0 < S16.numel
  iota_S16_d0_w32_scVector : S16.Iotas .scVector 32 [0]
  h_S128x128 : 0 < S128x128.numel
  hcc1_scratch2 : 4 + S_.numel ≤ 6
  hcc1_scoped0 : 5 + S_.numel ≤ 6
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hcore1 : grid1.bound 0 ≤ τ.nSC
  hsub1 : grid1.bound 1 ≤ τ.nSub
  k1_off1_inb : ∀ i : grid1.Coords, ∀ (r : Fin 2), ∀ a, (k1_off1 i (BitVec.ofNat 32 (128 * r.val))) a + S128x128.size a ≤ S8192x8192.size a
  k1_off2_inb : ∀ i : grid1.Coords, ∀ (r : Fin 2), ∀ a, (k1_off2 i (BitVec.ofNat 32 (128 * r.val))) a + S128x128.size a ≤ S8192x8192.size a

variable [Facts₀]

abbrev cc1_scratch2 : DmaSems sig S_ := SemArray.consecutive 4 S_ hcc1_scratch2
abbrev cc1_scoped0 : DmaSems sig S_ := SemArray.consecutive 5 S_ hcc1_scoped0

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S8192x2 : Shape := ⟨2, ![8192, 2]⟩

abbrev nBuf : Space → Nat
  | .hbm => 23
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S_, .i32⟩
  | .hbm, ⟨2, _⟩ => ⟨S8192, .i32⟩
  | .hbm, ⟨3, _⟩ => ⟨S_, .f32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S8192x1, .i32⟩
  | .hbm, ⟨19, _⟩ => ⟨S8192x1, .i32⟩
  | .hbm, ⟨20, _⟩ => ⟨S8192x2, .i32⟩
  | .hbm, ⟨21, _⟩ => ⟨S8192, .f32⟩
  | .hbm, ⟨22, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  scatter_S8192x8192_S8192x2_S8192_n_01_01_1_wf : ScatterDims.WF S8192x8192 S8192x2 S8192 [] [0, 1] [0, 1] 1

variable [Facts₀]

def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf

class Facts : Prop extends Facts₀ where

variable [Facts]
-- ==== Proof.SetupI.lean ====
/-
  The idealized kernel's program as the launch theorem sees it: one SparseCore call of a vector-subcore
  kernel on 2 SparseCores x 16 vector subcores, after one TensorCore pipeline; the resource algebra of
  the proof: the handshakes' rounds, the pipeline's staging cells' rounds, and the local transfers' counters.
-/
import proofs.«201282_g70549132804296_cont_9to1_m_715_22_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«201282_g70549132804296_cont_9to1_m_715_22_alg».proof.Proof.Gen.KernelIdeal
import proofs.«201282_g70549132804296_cont_9to1_m_715_22_alg».proof.Proof.Gen.KernelIdeal.Skeleton
import proofs.«201282_g70549132804296_cont_9to1_m_715_22_alg».proof.Proof.Gen.KernelIdeal.Launch
import proofs.«201282_g70549132804296_cont_9to1_m_715_22_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipeline's staging cells' rounds beside the local transfers' counters. -/
abbrev UK : Type := UR sig nD τ × Counters
abbrev UU : Type := UH × UK

abbrev EH : Emb UH (MT nD τ sig (HIx 1) (Elt F) ℕ UU ℕ) := embL
def EP : Emb (UR sig nD τ) (MT nD τ sig (HIx 1) (Elt F) ℕ UU ℕ) :=
  (Emb.inl : Emb (UR sig nD τ) UK).trans embR

instance EP_landsIn : (EP : Emb (UR sig nD τ) (MT nD τ sig (HIx 1) (Elt F) ℕ UU ℕ)).LandsIn (upEmb : UEmb _ (MT nD τ sig (HIx 1) (Elt F) ℕ UU ℕ)) := by
  unfold EP; infer_instance

end Cert.Proof.KI

end
-- ==== Proof.Spec.lean ====
/-
  What both programs compute: the square array with its main diagonal overwritten by one value.
-/
import Idealize.ShloMosaic.PureOps
import Idealize.ShloMosaic.Lib.ValueIdx

namespace Cert.Proof.Spec

open Idealize.ShloMosaic

/-- The 8192 × 8192 square. -/
abbrev SQ : Shape := ⟨2, ![8192, 8192]⟩

/-- The array `x` with every entry on the main diagonal (row index = column index) replaced by `v`;
    every other entry is `x`'s. -/
def diagSet {α : Type} (x : SQ.Idx → α) (v : α) : SQ.Idx → α :=
  fun i => if (i 0).val = (i 1).val then v else x i

theorem diagSet_diag {α : Type} (x : SQ.Idx → α) (v : α) (i : SQ.Idx) (h : (i 0).val = (i 1).val) :
    diagSet x v i = v := if_pos h

theorem diagSet_off {α : Type} (x : SQ.Idx → α) (v : α) (i : SQ.Idx) (h : (i 0).val ≠ (i 1).val) :
    diagSet x v i = x i := if_neg h

end Cert.Proof.Spec
-- ==== Proof.PayI.lean ====
/-
  What the SparseCore call carries: the fill vector as read shares (one per SparseCore, split again per vector
  subcore) and the result array's 64 diagonal 128 x 128 blocks, two per task; the off-diagonal rest never leaves
  the TensorCore. Going out the blocks hold the copied input, coming back the input with its diagonal overwritten.
-/
import proofs.«201282_g70549132804296_cont_9to1_m_715_22_alg».proof.Proof.SetupI
import proofs.«201282_g70549132804296_cont_9to1_m_715_22_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The two arguments, the fill vector and the result array, as locations of device `d`. -/
abbrev xLoc (d : Dev nD) : Loc nD τ sig := (SparseCore.T d).loc main_arg0
abbrev aLoc (d : Dev nD) : Loc nD τ sig := (SparseCore.T d).loc main_arg1
abbrev fLoc (d : Dev nD) : Loc nD τ sig := (SparseCore.T d).loc main_v2
abbrev yLoc (d : Dev nD) : Loc nD τ sig := (SparseCore.T d).loc main_v3

/-! ## The diagonal blocks -/

/-- Diagonal block `b` of the square: rows and columns `[128 b, 128 b + 128)`. -/
def blkSet (b : ℕ) : Finset S8192x8192.Idx :=
  Finset.univ.filter fun i => 128 * b ≤ (i 0).val ∧ (i 0).val < 128 * b + 128 ∧ 128 * b ≤ (i 1).val ∧ (i 1).val < 128 * b + 128

theorem mem_blkSet (b : ℕ) (i : S8192x8192.Idx) :
    i ∈ blkSet b ↔ 128 * b ≤ (i 0).val ∧ (i 0).val < 128 * b + 128 ∧ 128 * b ≤ (i 1).val ∧ (i 1).val < 128 * b + 128 := by
  unfold blkSet; rw [Finset.mem_filter]; simp only [Finset.mem_univ, true_and]

/-- A unit-stride 128 x 128 rectangle of the result array at offsets `(128 b, 128 b)` is diagonal block `b`. -/
theorem set_unit_blk (b : ℕ) (off : Fin 2 → Nat) (hoff : off = ![128 * b, 128 * b]) (inb : ∀ a, off a + S128x128.size a ≤ S8192x8192.size a) :
    ((View.whole (main_v3_scv : Ref sig .scVector)).slice (Rect.unit (s := S8192x8192) off S128x128.size inb)).set = blkSet b := by
  subst hoff
  rw [View.set_slice_whole]
  ext i
  rw [Rect.mem_set_unit, mem_blkSet]
  constructor
  · intro h
    have h0 := h (0 : Fin 2); have h1 := h (1 : Fin 2)
    exact ⟨h0.1, h0.2, h1.1, h1.2⟩
  · rintro ⟨a0, a1, b0, b1⟩ a
    match a with
    | ⟨0, _⟩ => exact ⟨a0, a1⟩
    | ⟨1, _⟩ => exact ⟨b0, b1⟩

theorem blkSet_disjoint (b b' : ℕ) (h : b ≠ b') : Disjoint (blkSet b) (blkSet b') := by
  rw [Finset.disjoint_left]; intro i hi hi'
  rw [mem_blkSet] at hi hi'; omega

/-- The block of the task on SparseCore `c`, vector subcore `i`, plane `r`. -/
abbrev blkOf (c i r : ℕ) : ℕ := 4 * i + 2 * c + r

/-- Everything off the 64 diagonal blocks. -/
def restSet : Finset S8192x8192.Idx := Finset.univ.filter fun i => (i 0).val / 128 ≠ (i 1).val / 128

theorem mem_restSet (i : S8192x8192.Idx) : i ∈ restSet ↔ (i 0).val / 128 ≠ (i 1).val / 128 := by
  unfold restSet; rw [Finset.mem_filter]; simp only [Finset.mem_univ, true_and]

/-! ## The launch memory's values -/

variable (m : (ℓ : Loc nD τ sig) → Buf (Elt F) ℓ)

section Vals
variable [FloatOps F]

/-- The fill value: the integer argument converted to a float. -/
def fillv (d : Dev nD) : Elt F .f32 := FloatOps.sitofp .f32 (m (aLoc d) (fun a => a.elim0))
/-- The fill vector @main builds: the fill value in each of its sixteen lanes. -/
def ffill (d : Dev nD) : Buf (Elt F) (fLoc d) := fun _ => fillv m d
end Vals

/-- The result array when the SparseCore call starts: the input, copied. -/
def y0 (d : Dev nD) : Buf (Elt F) (yLoc d) := m (xLoc d)
/-- and when it ends: the input with its diagonal at the fill value. -/
def yfin [FloatOps F] (d : Dev nD) : Buf (Elt F) (yLoc d) := Spec.diagSet (y0 m d) (fillv m d)

/-! ## The read shares of the fill vector -/

/-- SparseCore `c`'s share, and its vector subcore `i`'s. -/
abbrev tokC (c : ℕ) : PosShare TreeShare := Transfers.shareTokN fullShare c
abbrev tokT (c i : ℕ) : PosShare TreeShare := Transfers.shareTokN (tokC c) i

/-! ## What the handshakes carry -/

section Pay
variable [FloatOps F]

abbrev blkPts (d : Dev nD) (b : ℕ) (f : Buf (Elt F) (yLoc d)) : sProp 𝕄 := yLoc d ↦[blkSet b]{fullShare} f

/-- The one call: each SparseCore takes its share of the fill vector and its sixteen tasks' two blocks each; each task
    its own share and its two blocks; they come back with the blocks' diagonals overwritten. -/
def P : (K (F := F)).Pay (nD := nD) (Val := Elt F) (Name := ℕ) (U := UU) where
  st := fun q d c => match q with
    | 0 => iprop((fLoc d ↦{tokC c.val} ffill m d)
        ∗ bigSep (Finset.univ : Finset (Fin 16)) fun i => bigSep (Finset.univ : Finset (Fin 2)) fun r => blkPts d (blkOf c.val i.val r.val) (y0 m d))
  dn := fun q d c => match q with
    | 0 => iprop((fLoc d ↦{tokC c.val} ffill m d)
        ∗ bigSep (Finset.univ : Finset (Fin 16)) fun i => bigSep (Finset.univ : Finset (Fin 2)) fun r => blkPts d (blkOf c.val i.val r.val) (yfin m d))
  go := fun q d c i => match q with
    | 0 => iprop((fLoc d ↦{tokT c.val i.val} ffill m d)
        ∗ bigSep (Finset.univ : Finset (Fin 2)) fun r => blkPts d (blkOf c.val i.val r.val) (y0 m d))
  td := fun q d c i => match q with
    | 0 => iprop((fLoc d ↦{tokT c.val i.val} ffill m d)
        ∗ bigSep (Finset.univ : Finset (Fin 2)) fun r => blkPts d (blkOf c.val i.val r.val) (yfin m d))
  x := fun _ _ => iprop(emp)

instance P_storable : (P (F := F) m).IsStorable where
  st q d c := match q with
    | 0 => by unfold P; dsimp only; infer_instance
  dn q d c := match q with
    | 0 => by unfold P; dsimp only; infer_instance
  go q d c i := match q with
    | 0 => by unfold P; dsimp only; infer_instance
  td q d c i := match q with
    | 0 => by unfold P; dsimp only; infer_instance

/-- What @main leaves the claim: both arguments as launched, the result array at the input with its diagonal filled. -/
abbrev FIN (d : Dev nD) : sProp 𝕄 :=
  iprop((xLoc d ↦{fullShare} m (xLoc d)) ∗ (aLoc d ↦{fullShare} m (aLoc d)) ∗ yLoc d ↦{fullShare} yfin m d)

end Pay

end Cert.Proof.KI

end
-- ==== Proof.LibStoreIdxConst.lean ====
/-
  An indexed store of a CONSTANT vector, every lane set, nothing added: each element some lane names holds the
  constant afterwards, every other element keeps its value. (With one value in every lane the order of the
  lanes, which decides between two lanes naming one element, does not matter.)
-/
import Idealize.ShloMosaic.PureOps

namespace Cert.Proof.LibStoreIdxConst

open Idealize.ShloMosaic

variable {F : FTy → Type} [FloatOps F] {s : Shape} {e : EltTy}

/-- The fold of the indexed store over any list of lanes `l`: an element named by a lane of `l` holds `c`,
    any other element holds what `g` held. -/
theorem foldl_const {d : Fin 1 → Nat} (idxs : Fin s.rank → IVec ⟨1, d⟩ 32) (v : Vec F ⟨1, d⟩ e) (mask : IVec ⟨1, d⟩ 1)
    (h : ∀ a x, (idxs a x).toNat < s.size a) (c : Elt F e) (hv : ∀ x, v x = c) (hm : ∀ x, mask x = 1)
    (l : List (Fin (d 0))) (g : Vec F s e) (j : s.Idx) :
    (l.foldl (fun g k =>
      let x := Shape.ofLane k
      if mask x = 1 then
        let i := idxAt idxs h x
        let y := if false then Elt.idxAdd e (g i) (v x) else v x
        fun j => if (∀ a, (j a).val = (i a).val) then y else g j
      else g) g) j
      = if ∃ k ∈ l, ∀ a, (j a).val = (idxs a (Shape.ofLane k)).toNat then c else g j := by
  induction l generalizing g with
  | nil => simp
  | cons k l ih =>
    rw [List.foldl_cons, ih]
    by_cases hl : ∃ k' ∈ l, ∀ a, (j a).val = (idxs a (Shape.ofLane k')).toNat
    · rw [if_pos hl, if_pos]
      obtain ⟨k', hk', hj⟩ := hl
      exact ⟨k', List.mem_cons_of_mem _ hk', hj⟩
    · rw [if_neg hl]
      simp only [hm, if_true, Bool.false_eq_true, if_false, hv]
      by_cases hk : ∀ a, (j a).val = (idxs a (Shape.ofLane k)).toNat
      · rw [if_pos (by intro a; rw [hk a]; rfl), if_pos ⟨k, List.mem_cons_self, hk⟩]
      · rw [if_neg (by intro hh; exact hk fun a => (hh a).trans rfl), if_neg]
        rintro ⟨k', hk', hj⟩
        rcases List.mem_cons.mp hk' with rfl | hk'
        · exact hk hj
        · exact hl ⟨k', hk', hj⟩

/-- The indexed store of a constant vector at an index. -/
theorem storeIdx_const_apply {d : Fin 1 → Nat} (f : Vec F s e) (idxs : Fin s.rank → IVec ⟨1, d⟩ 32) (v : Vec F ⟨1, d⟩ e) (mask : IVec ⟨1, d⟩ 1)
    (h : ∀ a x, (idxs a x).toNat < s.size a) (c : Elt F e) (hv : ∀ x, v x = c) (hm : ∀ x, mask x = 1) (j : s.Idx) :
    storeIdx f idxs v mask false h j
      = if ∃ k : Fin (d 0), ∀ a, (j a).val = (idxs a (Shape.ofLane k)).toNat then c else f j := by
  unfold storeIdx
  rw [foldl_const idxs v mask h c hv hm]
  congr 1
  exact propext ⟨fun ⟨k, _, hk⟩ => ⟨k, hk⟩, fun ⟨k, hk⟩ => ⟨k, List.mem_finRange k, hk⟩⟩

end Cert.Proof.LibStoreIdxConst
-- ==== Proof.ViewsI.lean ====
/-
  What one task leaves in its two diagonal blocks, as pure functions: the two planes of the task's scratch as views
  of one buffer that share no element; the sixteen indexed stores, eight per plane, each writing sixteen consecutive
  diagonal entries of a plane with one value; a plane read back after them is the fetched block with its whole
  diagonal at that value; written back onto the block it was fetched from, the block is the input's with its
  diagonal overwritten.
-/
import proofs.«201282_g70549132804296_cont_9to1_m_715_22_alg».proof.Proof.PayI
import proofs.«201282_g70549132804296_cont_9to1_m_715_22_alg».proof.Proof.LibStoreIdxConst

noncomputable section

namespace Cert.Proof.KI

open Cert.KernelIdeal Cert.KernelIdeal.Gen

open Idealize.ShloMosaic
open Idealize.ShloMosaic.SparseCore (S V T)

variable {F : FTy → Type}

local notation "yW" => (Memref.whole Cert.KernelIdeal.main_v3_scv : Memref Cert.KernelIdeal.sig Kind.scVector Space.hbm Cert.KernelIdeal.S8192x8192 EltTy.f32)
local notation "s0W" => (Memref.whole Cert.KernelIdeal.cc1_scratch0 : Memref Cert.KernelIdeal.sig Kind.scVector Space.vmem Cert.KernelIdeal.S16 EltTy.f32)
local notation "s1W" => (Memref.whole Cert.KernelIdeal.cc1_scratch1 : Memref Cert.KernelIdeal.sig Kind.scVector Space.vmem Cert.KernelIdeal.S2x128x128 EltTy.f32)
local notation "fW" => (Memref.whole Cert.KernelIdeal.main_v2_scv : Memref Cert.KernelIdeal.sig Kind.scVector Space.hbm Cert.KernelIdeal.S16 EltTy.f32)

/-! ## The planes -/

abbrev pl0 : Memref sig .scVector .vmem S128x128 .f32 :=
  ((s1W).slice (Rect.unit (s := S2x128x128) ![0, 0, 0] S1x128x128.size inb_S2x128x128_S1x128x128_0_0_0) (fun _ => rfl)).squeeze S128x128 squeezes_S1x128x128_S128x128
abbrev pl1 : Memref sig .scVector .vmem S128x128 .f32 :=
  ((s1W).slice (Rect.unit (s := S2x128x128) ![1, 0, 0] S1x128x128.size inb_S2x128x128_S1x128x128_1_0_0) (fun _ => rfl)).squeeze S128x128 squeezes_S1x128x128_S128x128

/-- The contents of a task's big scratch. -/
abbrev Scr (F : FTy → Type) : Type := (cc1_scratch1 : Ref sig .scVector).ty.Contents (Elt F)

theorem set_pl0 : pl0.view.set = (Rect.unit (s := S2x128x128) ![0, 0, 0] S1x128x128.size inb_S2x128x128_S1x128x128_0_0_0).set := by
  show (((View.whole (cc1_scratch1 : Ref sig .scVector)).slice _).reshape S128x128 _).set = _
  rw [View.set_reshape, View.set_slice_whole]
theorem set_pl1 : pl1.view.set = (Rect.unit (s := S2x128x128) ![1, 0, 0] S1x128x128.size inb_S2x128x128_S1x128x128_1_0_0).set := by
  show (((View.whole (cc1_scratch1 : Ref sig .scVector)).slice _).reshape S128x128 _).set = _
  rw [View.set_reshape, View.set_slice_whole]

/-- The two planes share no element: they differ on the leading axis. -/
theorem pl_disjoint : Disjoint pl0.view.set pl1.view.set := by
  rw [set_pl0, set_pl1]
  exact Rect.unit_disjoint (0 : Fin 3) (Or.inl (by decide))

/-- An access at the whole rectangle goes through the plane's own elements, -/
theorem access_emb0 (x : S128x128.Idx) : (pl0.access (Rect.whole S128x128)).emb x = pl0.view.emb x := by
  show pl0.view.emb ((Rect.whole S128x128).emb x) = _
  rw [Rect.emb_whole_apply]

theorem access_setOn_univ0 : (pl0.access (Rect.whole S128x128)).setOn Finset.univ = pl0.view.set := by
  show (pl0.view.slice (Rect.whole S128x128)).set = _
  rw [View.set_slice, Rect.set_whole]; rfl

/-- reads what the plane reads, -/
theorem read_access0 (W : Scr F) : (pl0.access (Rect.whole S128x128)).read (Elt F) W = pl0.view.read (Elt F) W := by
  funext x
  rw [View.read_apply, View.read_apply, access_emb0]

theorem readAt_whole0 (W : Scr F) : pl0.view.readAt (Elt F) (LoadRect.whole S128x128) W = pl0.view.read (Elt F) W :=
  read_access0 W

/-- and a full write through it is read back through the plane as written. -/
theorem read_write_access0 (W : Scr F) (w : S128x128.Idx → Elt F .f32) :
    pl0.view.read (Elt F) ((pl0.access (Rect.whole S128x128)).write (Elt F) W w Finset.univ) = w := by
  rw [← read_access0, View.read_write_univ]

/-- An access at the whole rectangle goes through the plane's own elements, -/
theorem access_emb1 (x : S128x128.Idx) : (pl1.access (Rect.whole S128x128)).emb x = pl1.view.emb x := by
  show pl1.view.emb ((Rect.whole S128x128).emb x) = _
  rw [Rect.emb_whole_apply]

theorem access_setOn_univ1 : (pl1.access (Rect.whole S128x128)).setOn Finset.univ = pl1.view.set := by
  show (pl1.view.slice (Rect.whole S128x128)).set = _
  rw [View.set_slice, Rect.set_whole]; rfl

/-- reads what the plane reads, -/
theorem read_access1 (W : Scr F) : (pl1.access (Rect.whole S128x128)).read (Elt F) W = pl1.view.read (Elt F) W := by
  funext x
  rw [View.read_apply, View.read_apply, access_emb1]

theorem readAt_whole1 (W : Scr F) : pl1.view.readAt (Elt F) (LoadRect.whole S128x128) W = pl1.view.read (Elt F) W :=
  read_access1 W

/-- and a full write through it is read back through the plane as written. -/
theorem read_write_access1 (W : Scr F) (w : S128x128.Idx → Elt F .f32) :
    pl1.view.read (Elt F) ((pl1.access (Rect.whole S128x128)).write (Elt F) W w Finset.univ) = w := by
  rw [← read_access1, View.read_write_univ]

/-- A full write through one plane is not seen through the other. -/
theorem read0_write_access1 (W : Scr F) (w : S128x128.Idx → Elt F .f32) :
    pl0.view.read (Elt F) ((pl1.access (Rect.whole S128x128)).write (Elt F) W w Finset.univ) = pl0.view.read (Elt F) W :=
  View.read_congr fun _ hi => View.write_of_not_mem _ _ _ (by
    rw [access_setOn_univ1]; exact Finset.disjoint_left.mp pl_disjoint hi)
theorem read1_write_access0 (W : Scr F) (w : S128x128.Idx → Elt F .f32) :
    pl1.view.read (Elt F) ((pl0.access (Rect.whole S128x128)).write (Elt F) W w Finset.univ) = pl1.view.read (Elt F) W :=
  View.read_congr fun _ hi => View.write_of_not_mem _ _ _ (by
    rw [access_setOn_univ0]; exact Finset.disjoint_right.mp pl_disjoint hi)
theorem read0_write1 (W : Scr F) (w : S128x128.Idx → Elt F .f32) :
    pl0.view.read (Elt F) (pl1.view.write (Elt F) W w Finset.univ) = pl0.view.read (Elt F) W :=
  View.read_congr fun _ hi => View.write_of_not_mem _ _ _ (by
    rw [View.setOn_univ]; exact Finset.disjoint_left.mp pl_disjoint hi)

/-! ## The index vectors -/

/-- Lane `k` names the index `k + off`. -/
abbrev Ioff (off : ℕ) : IVec S16 32 :=
  addi (iota .scVector S16 32 [0] iota_S16_d0_w32_scVector) (broadcast S16 (BitVec.ofNat 32 off))

theorem Ioff_toNat (off : ℕ) (h : off + 16 ≤ 128) (x : S16.Idx) : (Ioff off x).toNat = (x 0).val + off := by
  have hx : (x 0).val < 16 := (x 0).isLt
  show (BitVec.ofNat 32 (0 * S16.size 0 + (x 0).val) + BitVec.ofNat 32 off).toNat = _
  rw [BitVec.toNat_add, BitVec.toNat_ofNat, BitVec.toNat_ofNat]
  show ((0 * 16 + (x 0).val) % 2 ^ 32 + off % 2 ^ 32) % 2 ^ 32 = (x 0).val + off
  omega

theorem Ioff_inb (off : ℕ) (h : off + 16 ≤ 128) : ∀ a x, ((![Ioff off, Ioff off] : Fin 2 → IVec S16 32) a x).toNat < S128x128.size a := by
  intro a x
  have hx : (x 0).val < 16 := (x 0).isLt
  match a with
  | ⟨0, _⟩ => show (Ioff off x).toNat < 128; rw [Ioff_toNat off h]; omega
  | ⟨1, _⟩ => show (Ioff off x).toNat < 128; rw [Ioff_toNat off h]; omega

/-- Which elements a store at `Ioff off` names: the sixteen diagonal entries from `off` on. -/
theorem named_iff (off : ℕ) (h : off + 16 ≤ 128) (x : S128x128.Idx) :
    (∃ k : Fin ((![16] : Fin 1 → Nat) 0), ∀ a, (x a).val = ((![Ioff off, Ioff off] : Fin 2 → IVec S16 32) a (Shape.ofLane k)).toNat)
      ↔ ((x 0).val = (x 1).val ∧ off ≤ (x 0).val ∧ (x 0).val < off + 16) := by
  have hl : ∀ k : Fin ((![16] : Fin 1 → Nat) 0), ((Shape.ofLane k : S16.Idx) 0).val = k.val := fun k => rfl
  constructor
  · rintro ⟨k, hk⟩
    have hk16 : k.val < 16 := k.isLt
    have h0 := hk (0 : Fin 2); have h1 := hk (1 : Fin 2)
    have e0 : (x 0).val = k.val + off := h0.trans ((Ioff_toNat off h _).trans (by rw [hl]))
    have e1 : (x 1).val = k.val + off := h1.trans ((Ioff_toNat off h _).trans (by rw [hl]))
    omega
  · rintro ⟨hd, hlo, hhi⟩
    have hk : (x 0).val - off < 16 := by omega
    refine ⟨⟨(x 0).val - off, hk⟩, fun a => ?_⟩
    have e : (Ioff off (Shape.ofLane (⟨(x 0).val - off, hk⟩ : Fin ((![16] : Fin 1 → Nat) 0)))).toNat = (x 0).val := by
      rw [Ioff_toNat off h, hl]; show (x 0).val - off + off = (x 0).val; omega
    match a with
    | ⟨0, _⟩ => exact e.symm
    | ⟨1, _⟩ => exact (hd.symm.trans e.symm)

section Tower
variable [FloatOps F]

/-- One indexed store of the vector `vv` through plane 0 (plane 1), at the indices `I`. -/
def step0 (vv : Vec F S16 .f32) (I : IVec S16 32) (h : ∀ a x, ((![I, I] : Fin 2 → IVec S16 32) a x).toNat < S128x128.size a) (W : Scr F) : Scr F :=
  View.write (Elt F) (pl0.access (Rect.whole S128x128)) W
    (storeIdx (pl0.view.readAt (Elt F) (LoadRect.whole S128x128) W) ![I, I] vv (fun _ => 1#1) false h) Finset.univ
def step1 (vv : Vec F S16 .f32) (I : IVec S16 32) (h : ∀ a x, ((![I, I] : Fin 2 → IVec S16 32) a x).toNat < S128x128.size a) (W : Scr F) : Scr F :=
  View.write (Elt F) (pl1.access (Rect.whole S128x128)) W
    (storeIdx (pl1.view.readAt (Elt F) (LoadRect.whole S128x128) W) ![I, I] vv (fun _ => 1#1) false h) Finset.univ

theorem read0_step0 (vv) (I) (h) (W : Scr F) :
    pl0.view.read (Elt F) (step0 vv I h W) = storeIdx (pl0.view.read (Elt F) W) ![I, I] vv (fun _ => 1#1) false h := by
  unfold step0; rw [read_write_access0, readAt_whole0]
theorem read1_step0 (vv) (I) (h) (W : Scr F) : pl1.view.read (Elt F) (step0 vv I h W) = pl1.view.read (Elt F) W := by
  unfold step0; rw [read1_write_access0]
theorem read1_step1 (vv) (I) (h) (W : Scr F) :
    pl1.view.read (Elt F) (step1 vv I h W) = storeIdx (pl1.view.read (Elt F) W) ![I, I] vv (fun _ => 1#1) false h := by
  unfold step1; rw [read_write_access1, readAt_whole1]
theorem read0_step1 (vv) (I) (h) (W : Scr F) : pl0.view.read (Elt F) (step1 vv I h W) = pl0.view.read (Elt F) W := by
  unfold step1; rw [read0_write_access1]

/-- The scratch after both fetches, -/
def Winit (f1 : Scr F) (d1 d2 : S128x128.Idx → Elt F .f32) : Scr F :=
  View.write (Elt F) pl1.view (View.write (Elt F) pl0.view f1 d1 Finset.univ) d2 Finset.univ
/-- after the eight stores through plane 0, -/
def W8 (vv : Vec F S16 .f32) (f1 : Scr F) (d1 d2 : S128x128.Idx → Elt F .f32) : Scr F :=
  step0 vv (Ioff 112) (Ioff_inb 112 (by decide)) (step0 vv (Ioff 96) (Ioff_inb 96 (by decide)) (step0 vv (Ioff 80) (Ioff_inb 80 (by decide)) (step0 vv (Ioff 64) (Ioff_inb 64 (by decide)) (step0 vv (Ioff 48) (Ioff_inb 48 (by decide)) (step0 vv (Ioff 32) (Ioff_inb 32 (by decide)) (step0 vv (Ioff 16) (Ioff_inb 16 (by decide)) (step0 vv (Ioff 0) (Ioff_inb 0 (by decide)) (Winit f1 d1 d2))))))))
/-- and after the eight through plane 1. -/
def W16 (vv : Vec F S16 .f32) (f1 : Scr F) (d1 d2 : S128x128.Idx → Elt F .f32) : Scr F :=
  step1 vv (Ioff 112) (Ioff_inb 112 (by decide)) (step1 vv (Ioff 96) (Ioff_inb 96 (by decide)) (step1 vv (Ioff 80) (Ioff_inb 80 (by decide)) (step1 vv (Ioff 64) (Ioff_inb 64 (by decide)) (step1 vv (Ioff 48) (Ioff_inb 48 (by decide)) (step1 vv (Ioff 32) (Ioff_inb 32 (by decide)) (step1 vv (Ioff 16) (Ioff_inb 16 (by decide)) (step1 vv (Ioff 0) (Ioff_inb 0 (by decide)) (W8 vv f1 d1 d2))))))))

/-- One store of a constant vector at an index: the named diagonal stretch at the constant, the rest unchanged. -/
theorem store_apply (p : Vec F S128x128 .f32) (vv : Vec F S16 .f32) (c : Elt F .f32) (hv : ∀ x, vv x = c) (off : ℕ) (h : off + 16 ≤ 128)
    (x : S128x128.Idx) :
    storeIdx p ![Ioff off, Ioff off] vv (fun _ => 1#1) false (Ioff_inb off h) x
      = if ((x 0).val = (x 1).val ∧ off ≤ (x 0).val ∧ (x 0).val < off + 16) then c else p x := by
  refine (LibStoreIdxConst.storeIdx_const_apply p ![Ioff off, Ioff off] vv (fun _ => 1#1) (Ioff_inb off h) c hv (fun _ => rfl) x).trans ?_
  simp only [named_iff off h x]

/-- The eight stores at 0, 16, …, 112 put the constant on the whole diagonal of a plane. -/
theorem stores_apply (p : Vec F S128x128 .f32) (vv : Vec F S16 .f32) (c : Elt F .f32) (hv : ∀ x, vv x = c) (x : S128x128.Idx) :
    storeIdx (storeIdx (storeIdx (storeIdx (storeIdx (storeIdx (storeIdx (storeIdx (p) ![Ioff 0, Ioff 0] vv (fun _ => 1#1) false (Ioff_inb 0 (by decide))) ![Ioff 16, Ioff 16] vv (fun _ => 1#1) false (Ioff_inb 16 (by decide))) ![Ioff 32, Ioff 32] vv (fun _ => 1#1) false (Ioff_inb 32 (by decide))) ![Ioff 48, Ioff 48] vv (fun _ => 1#1) false (Ioff_inb 48 (by decide))) ![Ioff 64, Ioff 64] vv (fun _ => 1#1) false (Ioff_inb 64 (by decide))) ![Ioff 80, Ioff 80] vv (fun _ => 1#1) false (Ioff_inb 80 (by decide))) ![Ioff 96, Ioff 96] vv (fun _ => 1#1) false (Ioff_inb 96 (by decide))) ![Ioff 112, Ioff 112] vv (fun _ => 1#1) false (Ioff_inb 112 (by decide)) x
      = if (x 0).val = (x 1).val then c else p x := by
  have hx : (x 0).val < 128 := (x 0).isLt
  rw [store_apply _ vv c hv 112 (by decide), store_apply _ vv c hv 96 (by decide), store_apply _ vv c hv 80 (by decide),
    store_apply _ vv c hv 64 (by decide), store_apply _ vv c hv 48 (by decide), store_apply _ vv c hv 32 (by decide),
    store_apply _ vv c hv 16 (by decide), store_apply _ vv c hv 0 (by decide)]
  by_cases hd : (x 0).val = (x 1).val
  · rw [if_pos hd]
    have h8 : (x 0).val / 16 < 8 := by omega
    have hq : 16 * ((x 0).val / 16) ≤ (x 0).val ∧ (x 0).val < 16 * ((x 0).val / 16) + 16 := by omega
    generalize (x 0).val / 16 = j at h8 hq
    interval_cases j <;> simp only [hd, true_and] at * <;> (split_ifs <;> first | rfl | omega)
  · rw [if_neg hd]
    simp only [hd, false_and, if_false]

/-- What plane 0 holds after a store through plane 0 (given what it held before), -/
theorem read0_step0' (vv : Vec F S16 .f32) (I) (h) (W : Scr F) (p : Vec F S128x128 .f32) (hp : pl0.view.read (Elt F) W = p) :
    pl0.view.read (Elt F) (step0 vv I h W) = storeIdx p ![I, I] vv (fun _ => 1#1) false h := by
  rw [read0_step0, hp]
theorem read1_step1' (vv : Vec F S16 .f32) (I) (h) (W : Scr F) (p : Vec F S128x128 .f32) (hp : pl1.view.read (Elt F) W = p) :
    pl1.view.read (Elt F) (step1 vv I h W) = storeIdx p ![I, I] vv (fun _ => 1#1) false h := by
  rw [read1_step1, hp]

theorem read0_Winit (f1 : Scr F) (d1 d2 : S128x128.Idx → Elt F .f32) : pl0.view.read (Elt F) (Winit f1 d1 d2) = d1 := by
  unfold Winit; rw [read0_write1, View.read_write_univ]
theorem read1_Winit (f1 : Scr F) (d1 d2 : S128x128.Idx → Elt F .f32) : pl1.view.read (Elt F) (Winit f1 d1 d2) = d2 := by
  unfold Winit; rw [View.read_write_univ]

theorem read0_W8 (vv : Vec F S16 .f32) (f1 : Scr F) (d1 d2 : S128x128.Idx → Elt F .f32) :
    pl0.view.read (Elt F) (W8 vv f1 d1 d2) = storeIdx (storeIdx (storeIdx (storeIdx (storeIdx (storeIdx (storeIdx (storeIdx (d1) ![Ioff 0, Ioff 0] vv (fun _ => 1#1) false (Ioff_inb 0 (by decide))) ![Ioff 16, Ioff 16] vv (fun _ => 1#1) false (Ioff_inb 16 (by decide))) ![Ioff 32, Ioff 32] vv (fun _ => 1#1) false (Ioff_inb 32 (by decide))) ![Ioff 48, Ioff 48] vv (fun _ => 1#1) false (Ioff_inb 48 (by decide))) ![Ioff 64, Ioff 64] vv (fun _ => 1#1) false (Ioff_inb 64 (by decide))) ![Ioff 80, Ioff 80] vv (fun _ => 1#1) false (Ioff_inb 80 (by decide))) ![Ioff 96, Ioff 96] vv (fun _ => 1#1) false (Ioff_inb 96 (by decide))) ![Ioff 112, Ioff 112] vv (fun _ => 1#1) false (Ioff_inb 112 (by decide)) :=
  read0_step0' vv _ _ _ _ (read0_step0' vv _ _ _ _ (read0_step0' vv _ _ _ _ (read0_step0' vv _ _ _ _ (read0_step0' vv _ _ _ _ (read0_step0' vv _ _ _ _ (read0_step0' vv _ _ _ _ (read0_step0' vv _ _ _ _ (read0_Winit f1 d1 d2))))))))
theorem read1_W8 (vv : Vec F S16 .f32) (f1 : Scr F) (d1 d2 : S128x128.Idx → Elt F .f32) :
    pl1.view.read (Elt F) (W8 vv f1 d1 d2) = d2 :=
  (read1_step0 vv _ _ _).trans ((read1_step0 vv _ _ _).trans ((read1_step0 vv _ _ _).trans ((read1_step0 vv _ _ _).trans ((read1_step0 vv _ _ _).trans ((read1_step0 vv _ _ _).trans ((read1_step0 vv _ _ _).trans ((read1_step0 vv _ _ _).trans (read1_Winit f1 d1 d2))))))))
theorem read0_W16_W8 (vv : Vec F S16 .f32) (f1 : Scr F) (d1 d2 : S128x128.Idx → Elt F .f32) :
    pl0.view.read (Elt F) (W16 vv f1 d1 d2) = pl0.view.read (Elt F) (W8 vv f1 d1 d2) :=
  (read0_step1 vv _ _ _).trans ((read0_step1 vv _ _ _).trans ((read0_step1 vv _ _ _).trans ((read0_step1 vv _ _ _).trans ((read0_step1 vv _ _ _).trans ((read0_step1 vv _ _ _).trans ((read0_step1 vv _ _ _).trans ((read0_step1 vv _ _ _).trans (rfl))))))))
theorem read1_W16_W8 (vv : Vec F S16 .f32) (f1 : Scr F) (d1 d2 : S128x128.Idx → Elt F .f32) :
    pl1.view.read (Elt F) (W16 vv f1 d1 d2) = storeIdx (storeIdx (storeIdx (storeIdx (storeIdx (storeIdx (storeIdx (storeIdx (d2) ![Ioff 0, Ioff 0] vv (fun _ => 1#1) false (Ioff_inb 0 (by decide))) ![Ioff 16, Ioff 16] vv (fun _ => 1#1) false (Ioff_inb 16 (by decide))) ![Ioff 32, Ioff 32] vv (fun _ => 1#1) false (Ioff_inb 32 (by decide))) ![Ioff 48, Ioff 48] vv (fun _ => 1#1) false (Ioff_inb 48 (by decide))) ![Ioff 64, Ioff 64] vv (fun _ => 1#1) false (Ioff_inb 64 (by decide))) ![Ioff 80, Ioff 80] vv (fun _ => 1#1) false (Ioff_inb 80 (by decide))) ![Ioff 96, Ioff 96] vv (fun _ => 1#1) false (Ioff_inb 96 (by decide))) ![Ioff 112, Ioff 112] vv (fun _ => 1#1) false (Ioff_inb 112 (by decide)) :=
  read1_step1' vv _ _ _ _ (read1_step1' vv _ _ _ _ (read1_step1' vv _ _ _ _ (read1_step1' vv _ _ _ _ (read1_step1' vv _ _ _ _ (read1_step1' vv _ _ _ _ (read1_step1' vv _ _ _ _ (read1_step1' vv _ _ _ _ (read1_W8 vv f1 d1 d2))))))))

theorem read0_W16 (vv : Vec F S16 .f32) (c : Elt F .f32) (hv : ∀ x, vv x = c) (f1 : Scr F) (d1 d2 : S128x128.Idx → Elt F .f32) (x : S128x128.Idx) :
    pl0.view.read (Elt F) (W16 vv f1 d1 d2) x = if (x 0).val = (x 1).val then c else d1 x := by
  rw [read0_W16_W8, read0_W8]; exact stores_apply d1 vv c hv x

theorem read1_W16 (vv : Vec F S16 .f32) (c : Elt F .f32) (hv : ∀ x, vv x = c) (f1 : Scr F) (d1 d2 : S128x128.Idx → Elt F .f32) (x : S128x128.Idx) :
    pl1.view.read (Elt F) (W16 vv f1 d1 d2) x = if (x 0).val = (x 1).val then c else d2 x := by
  rw [read1_W16_W8]; exact stores_apply d2 vv c hv x

end Tower

/-! ## The fill vector as loaded, and a block written back -/

section Out
variable [FloatOps F]

/-- The vector the stores write: the small scratch read back whole after the fill vector was copied into it. -/
abbrev vvOf (ffill : (main_v2_scv : Ref sig .scVector).ty.Contents (Elt F)) (f0 : (cc1_scratch0 : Ref sig .scVector).ty.Contents (Elt F)) :
    Vec F S16 .f32 :=
  View.readAt (Elt F) (s0W).view (Rect.unit (s := S16) ![0] S16.size inb_S16_S16_0).toLoadRect
    (View.write (Elt F) (s0W).view f0 (ReadAs.same.apply (View.read (Elt F) (fW).view ffill)) Finset.univ)

theorem vvOf_eq (ffill : (main_v2_scv : Ref sig .scVector).ty.Contents (Elt F)) (f0 : (cc1_scratch0 : Ref sig .scVector).ty.Contents (Elt F)) (x : S16.Idx) :
    vvOf ffill f0 x = ffill x := by
  show View.readAt (Elt F) (View.whole (cc1_scratch0 : Ref sig .scVector)) (Rect.unit (s := S16) ![0] S16.size inb_S16_S16_0).toLoadRect
      (View.write (Elt F) (View.whole (cc1_scratch0 : Ref sig .scVector)) f0
        (ReadAs.same.apply (View.read (Elt F) (View.whole (main_v2_scv : Ref sig .scVector)) ffill)) Finset.univ) x = ffill x
  rw [View.write_whole_univ, ReadAs.apply_same, View.read_whole]
  exact congrFun (Memref.readAt_unit_zero (Elt F) (cc1_scratch0 : Ref sig .scVector) (by funext a; fin_cases a; rfl) inb_S16_S16_0 _) x

/-- A 128 x 128 plane whose off-diagonal entries are those fetched from diagonal block `b` of `y0` and whose diagonal
    entries are all `c`, written back whole onto that block: on the block the array is `y0` with its diagonal at `c`. -/
theorem block_value (b : ℕ) (off : Fin 2 → Nat) (hoff : off = ![128 * b, 128 * b]) (inb : ∀ a, off a + S128x128.size a ≤ S8192x8192.size a)
    (y0 : (main_v3_scv : Ref sig .scVector).ty.Contents (Elt F)) (g : S128x128.Idx → Elt F .f32) (c : Elt F .f32)
    (hg : ∀ x, g x = if (x 0).val = (x 1).val then c
      else View.read (Elt F) ((yW).slice (Rect.unit (s := S8192x8192) off S128x128.size inb) (fun _ => rfl)).view y0 x) :
    ∀ i ∈ ((yW).slice (Rect.unit (s := S8192x8192) off S128x128.size inb) (fun _ => rfl)).view.set,
      (View.writes ((yW).slice (Rect.unit (s := S8192x8192) off S128x128.size inb) (fun _ => rfl)).view (Elt F) y0
        [⟨Rect.whole (Rect.unit (s := S8192x8192) off S128x128.size inb).shape, g⟩]) i = Spec.diagSet y0 c i := by
  subst hoff
  intro i hi
  obtain ⟨x, -, rfl⟩ := Finset.mem_map.mp hi
  rw [View.writes_singleton]
  have e : ((yW).slice (Rect.unit (s := S8192x8192) ![128 * b, 128 * b] S128x128.size inb) (fun _ => rfl)).view.emb x
      = ((((yW).slice (Rect.unit (s := S8192x8192) ![128 * b, 128 * b] S128x128.size inb) (fun _ => rfl)).view).slice
          (Rect.whole (Rect.unit (s := S8192x8192) ![128 * b, 128 * b] S128x128.size inb).shape)).emb x := by
    show _ = ((yW).slice (Rect.unit (s := S8192x8192) ![128 * b, 128 * b] S128x128.size inb) (fun _ => rfl)).view.emb ((Rect.whole _).emb x)
    rw [Rect.emb_whole_apply]
  rw [e, View.write_emb_of_mem _ _ (Finset.mem_univ _), ← e, hg x]
  have h0 : ((((yW).slice (Rect.unit (s := S8192x8192) ![128 * b, 128 * b] S128x128.size inb) (fun _ => rfl)).view.emb x) 0).val = 128 * b + 1 * (x 0).val := rfl
  have h1 : ((((yW).slice (Rect.unit (s := S8192x8192) ![128 * b, 128 * b] S128x128.size inb) (fun _ => rfl)).view.emb x) 1).val = 128 * b + 1 * (x 1).val := rfl
  unfold Spec.diagSet
  by_cases hx : (x 0).val = (x 1).val
  · rw [if_pos hx, if_pos (by rw [h0, h1, hx])]; rfl
  · rw [if_neg hx, if_neg (by rw [h0, h1]; omega), View.read_apply]; rfl

end Out

end Cert.Proof.KI

end
-- ==== Proof.TileI.lean ====
/-
  One vector subcore's task, at a symbolic place: the fill vector fetched into its small scratch; the task's two
  diagonal 128 x 128 blocks fetched into the two planes of its big scratch (both copies on one semaphore, drained by
  two waits); the sixteen indexed stores, each writing sixteen diagonal entries of a plane with the fill vector's
  lanes; the two planes written back onto the blocks they came from. The task hands back its two blocks holding
  the input with the diagonal at the fill value, and its share of the fill vector.
-/
import proofs.«201282_g70549132804296_cont_9to1_m_715_22_alg».proof.Proof.ViewsI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fW" => (Memref.whole Cert.KernelIdeal.main_v2_scv : Memref Cert.KernelIdeal.sig Kind.scVector Space.hbm Cert.KernelIdeal.S16 EltTy.f32)
local notation "yW" => (Memref.whole Cert.KernelIdeal.main_v3_scv : Memref Cert.KernelIdeal.sig Kind.scVector Space.hbm Cert.KernelIdeal.S8192x8192 EltTy.f32)
local notation "s0W" => (Memref.whole Cert.KernelIdeal.cc1_scratch0 : Memref Cert.KernelIdeal.sig Kind.scVector Space.vmem Cert.KernelIdeal.S16 EltTy.f32)
local notation "s1W" => (Memref.whole Cert.KernelIdeal.cc1_scratch1 : Memref Cert.KernelIdeal.sig Kind.scVector Space.vmem Cert.KernelIdeal.S2x128x128 EltTy.f32)

section Tile

variable [FloatOps F] (d : Dev nD) (L : grid1.Coords)

abbrev cV (L : grid1.Coords) : Fin τ.nSC := (L 0).castLE hcore1
abbrev jV (L : grid1.Coords) : Fin τ.nSub := (L 1).castLE hsub1

/-- The task's two diagonal blocks of the result array, as the fetches slice them. -/
abbrev bIn0 (L : grid1.Coords) : Memref sig .scVector .hbm S128x128 .f32 :=
  (yW).slice (Rect.unit (s := S8192x8192) (k1_off1 L 0#32) S128x128.size (k1_off1_inb L 0)) (fun _ => rfl)
abbrev bIn1 (L : grid1.Coords) : Memref sig .scVector .hbm S128x128 .f32 :=
  (yW).slice (Rect.unit (s := S8192x8192) (k1_off1 L 128#32) S128x128.size (k1_off1_inb L 1)) (fun _ => rfl)

abbrev cAcell (d : Dev nD) (c : Fin τ.nSC) (i : Fin τ.nSub) : GSem nD τ sig := (V d c i, .dma cc1_scratch2.sem)
abbrev cBcell (d : Dev nD) (c : Fin τ.nSC) (i : Fin τ.nSub) : GSem nD τ sig := (V d c i, .dma cc1_scoped0.sem)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc1_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped0.sem : SemLoc sig).isScoped .scVector = true; decide⟩⟩)]

omit [FloatOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

omit [FloatOps F] in
/-- The fetches' offsets in closed form: block `4 s + 2 c + r` of the diagonal. -/
theorem off_bIn (r : Fin 2) : k1_off1 L (BitVec.ofNat 32 (128 * r.val)) = ![128 * blkOf (L 0).val (L 1).val r.val, 128 * blkOf (L 0).val (L 1).val r.val] := by
  rw [k1_off1_eq L r]; funext a; fin_cases a <;> simp [blkOf] <;> omega
omit [FloatOps F] in
theorem set_bIn0 : (bIn0 L).view.set = blkSet (blkOf (L 0).val (L 1).val 0) :=
  set_unit_blk _ _ (off_bIn L 0) _
omit [FloatOps F] in
theorem set_bIn1 : (bIn1 L).view.set = blkSet (blkOf (L 0).val (L 1).val 1) :=
  set_unit_blk _ _ (off_bIn L 1) _
omit [FloatOps F] in
theorem pts_b0 (q : PosShare TreeShare) (f : Buf (Elt F) (yLoc d)) :
    ((bIn0 L).view.loc (V d (cV L) (jV L)) ↦[(bIn0 L).view.set]{q} f : sProp 𝕄) = yLoc d ↦[blkSet (blkOf (L 0).val (L 1).val 0)]{q} f := by
  rw [set_bIn0]
omit [FloatOps F] in
theorem pts_b1 (q : PosShare TreeShare) (f : Buf (Elt F) (yLoc d)) :
    ((bIn1 L).view.loc (V d (cV L) (jV L)) ↦[(bIn1 L).view.set]{q} f : sProp 𝕄) = yLoc d ↦[blkSet (blkOf (L 0).val (L 1).val 1)]{q} f := by
  rw [set_bIn1]
omit [FloatOps F] in
theorem pts_f (q : PosShare TreeShare) (f : Buf (Elt F) (fLoc d)) :
    ((fW).view.loc (V d (cV L) (jV L)) ↦{q} f : sProp 𝕄) = fLoc d ↦{q} f := rfl
omit [FloatOps F] in
theorem pts_s0 (f : Buf (Elt F) ((V d (cV L) (jV L)).loc cc1_scratch0)) :
    ((s0W).view.loc (V d (cV L) (jV L)) ↦{fullShare} f : sProp 𝕄) = (V d (cV L) (jV L)).loc cc1_scratch0 ↦{fullShare} f := rfl
omit [FloatOps F] in
theorem pts_s1 (f : Buf (Elt F) ((V d (cV L) (jV L)).loc cc1_scratch1)) :
    ((s1W).view.loc (V d (cV L) (jV L)) ↦{fullShare} f : sProp 𝕄) = (V d (cV L) (jV L)).loc cc1_scratch1 ↦{fullShare} f := rfl

set_option maxRecDepth 65536 in
/-- The task on vector subcore `(L 0, L 1)` of device `d`. -/
theorem tile_body (hF : (K (F := F)).Facts) (q : PosShare TreeShare) (O : CellTallies nD τ sig (HIx 1)) (W : Waits sig (HIx 1)) (hO : ∀ g, O g none = 0)
    (ffill : Buf (Elt F) (fLoc d)) (c : Elt F .f32) (hv : ∀ x, ffill x = c) (y0 : Buf (Elt F) (yLoc d))
    (_plan : Transfers.BatchOf (V d (cV L) (jV L)) (SemLoc.dma (sig := sig) cc1_scratch2.sem) 2 (windows := true)) :
    (iprop(levAts (K (F := F)).L (K (F := F)).lev
        ∗ ((fLoc d ↦{q} ffill)
          ∗ (yLoc d ↦[blkSet (blkOf (L 0).val (L 1).val 0)]{fullShare} y0)
          ∗ (yLoc d ↦[blkSet (blkOf (L 0).val (L 1).val 1)]{fullShare} y0))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_body L fW (Memref.isWhole_whole _) yW (Memref.isWhole_whole _) yW (Memref.isWhole_whole _)
            s0W (Memref.isWhole_whole _) s1W (Memref.isWhole_whole _) cc1_scratch2 cc1_scoped0)
          fun _ => iprop(((fLoc d ↦{q} ffill)
              ∗ (yLoc d ↦[blkSet (blkOf (L 0).val (L 1).val 0)]{fullShare} Spec.diagSet y0 c)
              ∗ (yLoc d ↦[blkSet (blkOf (L 0).val (L 1).val 1)]{fullShare} Spec.diagSet y0 c))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_body_eq_skeleton]; unfold cc1_body_skel
  rw [(K (F := F)).scopedBufs_V hF d (cV L) (jV L), SparseCore.Cfg.scopedSems0_V (Val := Elt F) d (cV L) (jV L), ownSems0_V, ownBufs_V]
  iintro ⟨#Hlv, ⟨Hf, Hb0, Hb1⟩, ⟨⟨%f0, Hsa⟩, ⟨%f1, Hsb⟩, Hbufs⟩, ⟨HsemA, HsemB, Hsems⟩, HO⟩
  ihave Hmw := ((K (F := F)).mayWaits_none (thr := V d (cV L) (jV L)) hO) $$ Hlv
  ihave Hsa' := (Entails.of_eq (pts_s0 (F := F) d L _).symm) $$ Hsa
  ihave Hsb' := (Entails.of_eq (pts_s1 (F := F) d L _).symm) $$ Hsb
  ihave Hf' := (Entails.of_eq (pts_f (F := F) d L q _).symm) $$ Hf
  ihave Hb0' := (Entails.of_eq (pts_b0 (F := F) d L fullShare _).symm) $$ Hb0
  ihave Hb1' := (Entails.of_eq (pts_b1 (F := F) d L fullShare _).symm) $$ Hb1
  -- the fill vector's fetch, the two blocks' fetches and their waits, the load of the fill vector
  sl_exec (disch := first | exact View.dmaCredit_pos _ (by decide) | exact sig.dmaCredit_pos _ _ _ _ _ (by decide) | decide)
  -- the sixteen indexed stores: each is a load and a store of its whole plane
  iterate 16 (rw [SparseCore.vectorStoreIdx_bind (c := V d (cV L) (jV L))]; sl_exec (disch := first | exact View.dmaCredit_pos _ (by decide) | exact sig.dmaCredit_pos _ _ _ _ _ (by decide) | decide))
  -- (the two write-backs of the planes onto their blocks, and their waits, end the body)
  have hvv : ∀ x, vvOf (F := F) ffill f0 x = c := fun x => (vvOf_eq ffill f0 x).trans (hv x)
  -- the scratch after each store is one store over the scratch before it
  have e1 : tile_body.sl.Hsb'_w1 d L ffill y0 f0 f1 = step0 (vvOf ffill f0) (Ioff 0) (Ioff_inb 0 (by decide))
      (Winit f1 (ReadAs.same.apply (View.read (Elt F) (bIn0 L).view y0)) (ReadAs.same.apply (View.read (Elt F) (bIn1 L).view y0))) := rfl
  have e2 : tile_body.sl.Hsb'_w1_1 d L ffill y0 f0 f1 = step0 (vvOf ffill f0) (Ioff 16) (Ioff_inb 16 (by decide)) (tile_body.sl.Hsb'_w1 d L ffill y0 f0 f1) := rfl
  have e3 : tile_body.sl.Hsb'_w1_2 d L ffill y0 f0 f1 = step0 (vvOf ffill f0) (Ioff 32) (Ioff_inb 32 (by decide)) (tile_body.sl.Hsb'_w1_1 d L ffill y0 f0 f1) := rfl
  have e4 : tile_body.sl.Hsb'_w1_3 d L ffill y0 f0 f1 = step0 (vvOf ffill f0) (Ioff 48) (Ioff_inb 48 (by decide)) (tile_body.sl.Hsb'_w1_2 d L ffill y0 f0 f1) := rfl
  have e5 : tile_body.sl.Hsb'_w1_4 d L ffill y0 f0 f1 = step0 (vvOf ffill f0) (Ioff 64) (Ioff_inb 64 (by decide)) (tile_body.sl.Hsb'_w1_3 d L ffill y0 f0 f1) := rfl
  have e6 : tile_body.sl.Hsb'_w1_5 d L ffill y0 f0 f1 = step0 (vvOf ffill f0) (Ioff 80) (Ioff_inb 80 (by decide)) (tile_body.sl.Hsb'_w1_4 d L ffill y0 f0 f1) := rfl
  have e7 : tile_body.sl.Hsb'_w1_6 d L ffill y0 f0 f1 = step0 (vvOf ffill f0) (Ioff 96) (Ioff_inb 96 (by decide)) (tile_body.sl.Hsb'_w1_5 d L ffill y0 f0 f1) := rfl
  have e8 : tile_body.sl.Hsb'_w1_7 d L ffill y0 f0 f1 = step0 (vvOf ffill f0) (Ioff 112) (Ioff_inb 112 (by decide)) (tile_body.sl.Hsb'_w1_6 d L ffill y0 f0 f1) := rfl
  have e9 : tile_body.sl.Hsb'_w1_8 d L ffill y0 f0 f1 = step1 (vvOf ffill f0) (Ioff 0) (Ioff_inb 0 (by decide)) (tile_body.sl.Hsb'_w1_7 d L ffill y0 f0 f1) := rfl
  have e10 : tile_body.sl.Hsb'_w1_9 d L ffill y0 f0 f1 = step1 (vvOf ffill f0) (Ioff 16) (Ioff_inb 16 (by decide)) (tile_body.sl.Hsb'_w1_8 d L ffill y0 f0 f1) := rfl
  have e11 : tile_body.sl.Hsb'_w1_10 d L ffill y0 f0 f1 = step1 (vvOf ffill f0) (Ioff 32) (Ioff_inb 32 (by decide)) (tile_body.sl.Hsb'_w1_9 d L ffill y0 f0 f1) := rfl
  have e12 : tile_body.sl.Hsb'_w1_11 d L ffill y0 f0 f1 = step1 (vvOf ffill f0) (Ioff 48) (Ioff_inb 48 (by decide)) (tile_body.sl.Hsb'_w1_10 d L ffill y0 f0 f1) := rfl
  have e13 : tile_body.sl.Hsb'_w1_12 d L ffill y0 f0 f1 = step1 (vvOf ffill f0) (Ioff 64) (Ioff_inb 64 (by decide)) (tile_body.sl.Hsb'_w1_11 d L ffill y0 f0 f1) := rfl
  have e14 : tile_body.sl.Hsb'_w1_13 d L ffill y0 f0 f1 = step1 (vvOf ffill f0) (Ioff 80) (Ioff_inb 80 (by decide)) (tile_body.sl.Hsb'_w1_12 d L ffill y0 f0 f1) := rfl
  have e15 : tile_body.sl.Hsb'_w1_14 d L ffill y0 f0 f1 = step1 (vvOf ffill f0) (Ioff 96) (Ioff_inb 96 (by decide)) (tile_body.sl.Hsb'_w1_13 d L ffill y0 f0 f1) := rfl
  have e16 : tile_body.sl.Hsb'_w1_15 d L ffill y0 f0 f1 = step1 (vvOf ffill f0) (Ioff 112) (Ioff_inb 112 (by decide)) (tile_body.sl.Hsb'_w1_14 d L ffill y0 f0 f1) := rfl
  have hW : tile_body.sl.Hsb'_w1_15 d L ffill y0 f0 f1
      = W16 (vvOf ffill f0) f1 (ReadAs.same.apply (View.read (Elt F) (bIn0 L).view y0)) (ReadAs.same.apply (View.read (Elt F) (bIn1 L).view y0)) := by
    rw [e16, e15, e14, e13, e12, e11, e10, e9, e8, e7, e6, e5, e4, e3, e2, e1]; rfl
  have hg0 : ∀ x, tile_body.sl.dma2_1 d L ffill y0 f0 f1 x = if (x 0).val = (x 1).val then c else View.read (Elt F) (bIn0 L).view y0 x := fun x => by
    have e : tile_body.sl.dma2_1 d L ffill y0 f0 f1 x = pl0.view.read (Elt F) (tile_body.sl.Hsb'_w1_15 d L ffill y0 f0 f1) x := rfl
    rw [e, hW]; exact read0_W16 _ c hvv _ _ _ x
  have hg1 : ∀ x, tile_body.sl.dma3 d L ffill y0 f0 f1 x = if (x 0).val = (x 1).val then c else View.read (Elt F) (bIn1 L).view y0 x := fun x => by
    have e : tile_body.sl.dma3 d L ffill y0 f0 f1 x = pl1.view.read (Elt F) (tile_body.sl.Hsb'_w1_15 d L ffill y0 f0 f1) x := rfl
    rw [e, hW]; exact read1_W16 _ c hvv _ _ _ x
  have hval0 := block_value (F := F) (blkOf (L 0).val (L 1).val 0) (k1_off1 L 0#32) (off_bIn L 0) (k1_off1_inb L 0) y0
    (tile_body.sl.dma2_1 d L ffill y0 f0 f1) c hg0
  have hval1 := block_value (F := F) (blkOf (L 0).val (L 1).val 1) (k1_off1 L 128#32) (off_bIn L 1) (k1_off1_inb L 1) y0
    (tile_body.sl.dma3 d L ffill y0 f0 f1) c hg1
  sl_step
  isplitl [Hf' Hb0' Hb1']
  · isplitl [Hf']; · iapply (Entails.of_eq (pts_f (F := F) d L q _)); iexact Hf'
    isplitl [Hb0']
    · iapply (Entails.of_eq ((pointsTo_congr hval0).trans (pts_b0 (F := F) d L fullShare _)))
      iexact Hb0'
    · iapply (Entails.of_eq ((pointsTo_congr hval1).trans (pts_b1 (F := F) d L fullShare _)))
      iexact Hb1'
  isplitl [Hsa' Hsb' Hbufs]
  · isplitl [Hsa']; · iexists _; iapply (Entails.of_eq (pts_s0 (F := F) d L _)); iexact Hsa'
    isplitl [Hsb']; · iexists _; iapply (Entails.of_eq (pts_s1 (F := F) d L _)); iexact Hsb'
    iexact Hbufs
  isplitl [HsemA HsemB Hsems]
  · isplitl [HsemA]; · iexact HsemA
    isplitl [HsemB]; · iexact HsemB
    iexact Hsems
  iexists _; isplitr
  rotate_left
  · iexact HO
  · ipureintro; intro p hp
    simp only [Finset.mem_insert] at hp
    rcases hp with rfl | rfl | rfl | rfl | rfl | hp
    · exact .inr rfl
    · exact .inr rfl
    · exact .inr rfl
    · exact .inr rfl
    · exact .inr rfl
    · exact .inl hp

end Tile

end Cert.Proof.KI

end
-- ==== Proof.RegionA.lean ====
import proofs.«201282_g70549132804296_cont_9to1_m_715_22_alg».proof.Proof.SetupI
import Idealize.ShloMosaic.Lib.Pipeline.FrameBody
import Idealize.ShloMosaic.Lib.Pipeline.RegionsLoop
import Idealize.ShloMosaic.Lib.Pipeline.FrameSuffix

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! # The TensorCore copy pipeline: the body at one grid point

The body loads the whole input block, loads the whole output block (unused), and stores the input block whole
into the output staging buffer. So after the body the output staging buffer reads exactly the input block. -/

/-- The one rectangle the body accesses: the whole [256, 8192] block. -/
abbrev r0 : Rect S256x8192 := Rect.unit (s := S256x8192) ![0, 0] S256x8192.size inb_S256x8192_S256x8192_0_0

/-- The whole-block rectangle covers the block. -/
theorem cover0_1 (p0 : Vec F S256x8192 .f32) (y : S256x8192.Idx) :
    ∃ pc ∈ ([⟨r0, p0⟩] : List (View.Piece (Elt F) S256x8192 .f32)), y ∈ pc.1.set :=
  View.cover_of_tiled [⟨r0, p0⟩] S256x8192.size (by rfl) y

theorem mem_r0 (p0 : Vec F S256x8192 .f32) (y : S256x8192.Idx) : y ∈ r0.set := by
  obtain ⟨pc, hm, hy⟩ := cover0_1 p0 y
  rw [List.mem_singleton] at hm
  subst hm
  exact hy

/-- A buffer overwritten whole by what a whole-block load of another buffer read, reads as that other buffer. -/
theorem read_store_whole (v1 v2 : View sig .tc .vmem S256x8192 .f32) (f0 : v1.ty.Contents (Elt F)) (f1 : v2.ty.Contents (Elt F)) :
    View.read (Elt F) v2 (v2.writes (Elt F) f1 [⟨r0, View.readAt (Elt F) v1 r0.toLoadRect f0⟩]) = View.read (Elt F) v1 f0 := by
  rw [View.read_writes_eq_canon _ _ _ (cover0_1 _)]
  funext y
  obtain ⟨x, rfl⟩ := r0.exists_idx_of_mem (mem_r0 (View.readAt (Elt F) v1 r0.toLoadRect f0) y)
  exact View.canon_cons_emb r0 _ [] x

set_option maxHeartbeats 1000000 in
/-- The body on whole staging memrefs, the input's at read contents `x0` and the output's at anything, runs to the
    continuation holding the input's as it was and the output's at `x0`. -/
theorem sound_kernel0 (c : Dev nD) (E : Set ℕ) (i : grid0.Coords) (arg1 : Memref sig .tc .vmem S256x8192 .f32) (harg1 : arg1.IsWhole)
    (arg2 : Memref sig .tc .vmem S256x8192 .f32) (harg2 : arg2.IsWhole)
    (x0 : Vec F S256x8192 .f32) (Kc : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare x0) -∗ Kc ⟨⟩))
      ⊢ wp frame (wpE (defs₀ (F := F)) Variants.none c none) E (cc0__copy_block i arg1 harg1 arg2 harg2) Kc := by
  simp only [cc0__copy_block_eq_skeleton]; unfold cc0__copy_block_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact read_store_whole _ _ _ _

/-! ## The pipeline's proof data -/

section Data

variable (Vv : (c : Dev nD) → (b : Ref sig .tc) → Buf (Elt F) ((c : Thread nD τ).loc b))
  (O : CellTallies nD τ sig (HIx 1)) (B : Set (SemLoc sig × HIx 1))

/-- Window `w`'s block at point `t`, read off its array as the region finds it (`Vv`). -/
def iblk0 (c : Dev nD) (w : Fin cfg0.W) (t : Fin cfg0.N) : ((cfg0.win w).xblock (cfg0.grid.coords t)).Idx → Elt F (cfg0.win w).elt :=
  ((cfg0.win w).blk t).view.read (Elt F) (Vv c (Pipeline.arrRef spec0 w))

/-- The input window's current staging buffer holds its block at every point, for any proof data whose array is
    `Vv`'s and whose body leaves the block in place. -/
theorem before0_0_of {c : Dev nD} (dat : Dat τ (Elt F) (HIx 1) ℕ UU ℕ cfg0 c) (hA : dat.A 0 = Vv c (Pipeline.arrRef spec0 0))
    (hafter : ∀ t, dat.after 0 t = iblk0 Vv c 0 t) (t : Fin cfg0.N) (d) : dat.before 0 t d = iblk0 Vv c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The region's invariant on core `c`: the scoped buffers that are no staging buffer and the generator register,
    both untouched by the body. -/
def Φ0 (c : Dev nD) : sProp 𝕄 :=
  iprop(Pipeline.scopedRest (Ix := HIx 1) (Name := ℕ) (U := UU) (Lvl := ℕ) (Val := Elt F) spec0 c ∗ ∃ r, prngReg c r)

/-- The proof data of the pipeline on core `c`: the arrays as the region finds them; after the body at point `t`
    both staging buffers hold the input block; the core owes the constant `O` throughout, its recorded pairs within `B`. -/
def dat0 (c : Dev nD) : Dat τ (Elt F) (HIx 1) ℕ UU ℕ cfg0 c where
  A w := Vv c (Pipeline.arrRef spec0 w)
  after w t := match w with
    | ⟨0, _⟩ => iblk0 Vv c 0 t
    | ⟨1, _⟩ => iblk0 Vv c 0 t
  Φ _ := Φ0 c
  q _ := fullShare
  owed _ := O
  recorded _ := B

theorem A_eq0 (c : Dev nD) (w : Fin cfg0.W) : (dat0 Vv O B c).A w = Vv c (Pipeline.arrRef spec0 w) := by
  dsimp only [dat0]

theorem after0_0 (c : Dev nD) (t : Fin cfg0.N) : (dat0 Vv O B c).after 0 t = iblk0 Vv c 0 t := by dsimp only [dat0]
theorem after0_1 (c : Dev nD) (t : Fin cfg0.N) : (dat0 Vv O B c).after 1 t = iblk0 Vv c 0 t := by dsimp only [dat0]

theorem before0_0 (c : Dev nD) (t : Fin cfg0.N) (d) : (dat0 Vv O B c).before 0 t d = iblk0 Vv c 0 t :=
  before0_0_of Vv (dat0 Vv O B c) (A_eq0 Vv O B c 0) (after0_0 Vv O B c) t d

/-! ## The body obligation, at a generic point -/

def bodyPre0 (c : Dev nD) (t : Fin cfg0.N) : sProp 𝕄 :=
  iprop((dat0 Vv O B c).Φ t.castSucc ∗ (dat0 Vv O B c).owesAt (none : HIx 1) t.castSucc
    ∗ (∃ d, owns (c : Thread nD τ) (st0_0 t) fullShare ((dat0 Vv O B c).before 0 t d))
    ∗ (∃ d, owns (c : Thread nD τ) (st0_1 t) fullShare ((dat0 Vv O B c).before 1 t d)))

def bodyPost0 (c : Dev nD) (t : Fin cfg0.N) : sProp 𝕄 :=
  iprop((dat0 Vv O B c).Φ t.succ ∗ (dat0 Vv O B c).owesAt (none : HIx 1) t.succ
    ∗ owns (c : Thread nD τ) (st0_0 t) fullShare ((dat0 Vv O B c).after 0 t)
    ∗ owns (c : Thread nD τ) (st0_1 t) fullShare ((dat0 Vv O B c).after 1 t))

theorem sound_body0 (c : Dev nD) (t : Fin cfg0.N) :
    bodyPre0 Vv O B c t ⊢ wp frame (wpE (defs₀ (F := F)) Variants.none c none) Set.univ (bodyAt0 t) (fun _ => bodyPost0 Vv O B c t) := by
  unfold bodyPre0 bodyPost0 bodyAt0
  simp only [before0_0]
  rw [show (dat0 Vv O B c).Φ t.succ = (dat0 Vv O B c).Φ t.castSucc from rfl,
    show (dat0 Vv O B c).owesAt (none : HIx 1) t.succ = (dat0 Vv O B c).owesAt (none : HIx 1) t.castSucc from rfl,
    after0_0, after0_1]
  iintro ⟨HΦ, Ho, ⟨%d0, H0⟩, ⟨%d1, H1⟩⟩
  iapply (sound_kernel0 c Set.univ _ _ _ _ _ (iblk0 Vv c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) Vv O B c) (defs₀ (F := F)) Variants.none (none : HIx 1) Set.univ := fun t => by
  rw [bigSep_W0, bigSep_W0]
  exact sound_body0 Vv O B c t

end Data

end Cert.Proof.KI

end
-- ==== Proof.RegionV.lean ====
import proofs.«201282_g70549132804296_cont_9to1_m_715_22_alg».proof.Proof.SetupI
import proofs.«201282_g70549132804296_cont_9to1_m_715_22_alg».proof.Proof.RegionA
import Idealize.ShloMosaic.Lib.Pipeline.Value

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! # The copy pipeline's value: after all 32 write-backs the output array is the input array

Point `t` writes back the input array's block `t` (rows `256 t … 256 t + 255`, every column) into the output
array's block `t`; the blocks tile the rows, so the output array ends as the input array. -/

section Value

variable (Vv : (c : Dev nD) → (b : Ref sig .tc) → Buf (Elt F) ((c : Thread nD τ).loc b))
  (O : CellTallies nD τ sig (HIx 1)) (B : Set (SemLoc sig × HIx 1))

/-- The two windows move together: the same block index at every point. -/
theorem idx_facts1 : ∀ t : Fin cfg0.N, win0_0.index t (0 : Fin 2) = win0_1.index t (0 : Fin 2)
    ∧ win0_0.index t (1 : Fin 2) = win0_1.index t (1 : Fin 2)
    ∧ win0_1.index t (0 : Fin 2) ≤ 31 ∧ win0_1.index t (1 : Fin 2) = 0 :=
  (by decide +kernel : ∀ t : Fin grid0.N, _)

/-- Every block of rows is some point's. -/
theorem idx_onto1 : ∀ (q0 : Fin 32), ∃ t : Fin cfg0.N, win0_1.index t = ![q0.val, 0] :=
  (by decide +kernel : ∀ (q0 : Fin 32), ∃ t : Fin grid0.N, win0_1.index t = ![q0.val, 0])

/-- What point `t` writes back is block `t` of the input array as the region finds it. -/
theorem flushed1_eq (c : Dev nD) (t : Fin cfg0.N) :
    (dat0 Vv O B c).flushed 1 t = ((cfg0.win 1).blk t).view.read (Elt F)
      (show Buf (Elt F) ((cfg0.win 1).arr.view.loc (c : Thread nD τ)) from Vv c main_arg0) := by
  show (cfg0.win 1).cut (grid0.coords t) ((dat0 Vv O B c).after 1 t) = _
  rw [after0_1]
  obtain ⟨e0, e1, e2, e3⟩ := idx_facts1 t
  funext j
  show Vv c main_arg0 (((cfg0.win 0).blk t).view.emb j) = Vv c main_arg0 (((cfg0.win 1).blk t).view.emb j)
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 8192 + 1 * (j 1).val = win0_1.index t (1 : Fin 2) * 8192 + 1 * (j 1).val; omega
  rw [h0]

/-- An index of the array is in point `t`'s block iff each coordinate is in the block's range on its axis. -/
theorem mem_blk1 (t : Fin cfg0.N) (i : S8192x8192.Idx) :
    i ∈ ((cfg0.win 1).blk t).view.set ↔ ∀ a : Fin 2, win0_1.index t a * S256x8192.size a ≤ (i a).val ∧ (i a).val < win0_1.index t a * S256x8192.size a + S256x8192.size a := by
  show i ∈ ((View.whole main_v0).slice (win0_1.rect t)).set ↔ _
  rw [View.set_slice_whole, Rect.mem_set_unit]
  exact Iff.rfl

/-- Every index of the output array is in some point's block: the blocks tile the rows. -/
theorem covered1 (i : S8192x8192.Idx) :
    ∃ t : Fin cfg0.N, (cfg0.win 1).flush t = true ∧ i ∈ ((cfg0.win 1).blk t).view.set := by
  have hi0 : (i 0).val < 8192 := (i 0).isLt
  have hi1 : (i 1).val < 8192 := (i 1).isLt
  obtain ⟨t, ht⟩ := idx_onto1 ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_blk1]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 8192 ≤ (i 1).val ∧ (i 1).val < win0_1.index t (1 : Fin 2) * 8192 + 8192; omega

/-- The output array after the run is the input array as the region found it. -/
theorem final1 (c : Dev nD) : (dat0 Vv O B c).arrAt 1 cfg0.N = Vv c main_arg0 :=
  (dat0 Vv O B c).arrAt_eq_of_cover 1 _ (fun t _ => flushed1_eq Vv O B c t) covered1

end Value

end Cert.Proof.KI

end
-- ==== Proof.RegionI.lean ====
import proofs.«201282_g70549132804296_cont_9to1_m_715_22_alg».proof.Proof.SetupI
import proofs.«201282_g70549132804296_cont_9to1_m_715_22_alg».proof.Proof.RegionA
import proofs.«201282_g70549132804296_cont_9to1_m_715_22_alg».proof.Proof.RegionV
import Idealize.ShloMosaic.Lib.Pipeline.Regions

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! # The TensorCore copy pipeline as a region of @main, inside the SparseCore launch -/

section Region

variable (Vv : (c : Dev nD) → (b : Ref sig .tc) → Buf (Elt F) ((c : Thread nD τ).loc b))
  (O : CellTallies nD τ sig (HIx 1)) (B : Set (SemLoc sig × HIx 1))

/-- The prefetched tables' admissible contents: the pipeline has no table. -/
abbrev adm : (p : Fin 1) → (pcfgs (F := F) p).Adm := fun p => (cfgs p).toPCfg_adm

/-- The one pipeline's proof data. -/
def pdats : (p : Fin 1) → (c : Dev nD) → Dat τ (Elt F) (HIx 1) ℕ UU ℕ (Pipeline.pin (pcfgs (F := F)) adm p) c
  | ⟨0, _⟩ => fun c => dat0 Vv O B c

/-- The unscoped buffers' contents when the region is left: the output array holds the input array's entry
    contents, every other buffer what it held. -/
abbrev Vout (c : Dev nD) : (b : Ref sig .tc) → Buf (Elt F) ((c : Thread nD τ).loc b) :=
  Function.update (Vv c) main_v0 (show Buf (Elt F) ((c : Thread nD τ).loc main_v0) from Vv c main_arg0)

theorem hF0 (hval : ∀ c, (dat0 Vv O B c).arrAt 1 cfg0.N = Vv c main_arg0) (c : Dev nD) (w : Fin cfg0.W) :
    (pdats Vv O B 0 c).arrAt w cfg0.N = Vout Vv c (Pipeline.arrRef spec0 w) :=
  match w with
  | ⟨0, _⟩ => ((dat0 Vv O B c).arrAt_in 0 rfl _).trans ((A_eq0 Vv O B c 0).trans
      (Function.update_of_ne (show (main_arg0 : Ref sig .tc) ≠ main_v0 by decide) _ _).symm)
  | ⟨1, _⟩ => (hval c).trans (Function.update_self (f := Vv c) main_v0 _).symm

theorem hrest0 (c : Dev nD) : ∀ b, b ∉ Finset.univ.image (Pipeline.arrRef spec0) → Vout Vv c b = Vv c b :=
  fun b hb => Function.update_of_ne (fun e => hb (Finset.mem_image.mpr ⟨1, Finset.mem_univ _, e.symm⟩)) _ _

set_option backward.isDefEq.respectTransparency.types false in
/-- The region over the thread state "every unscoped buffer at `Vv`, the generator register at some state, the core
    owing `O` with its recorded pairs within `B`": left with the output array at the input array's contents and
    the recorded pairs within `B` and the staging cells' pairs at index `none`. The waits on the staging cells, at
    index `none`, sit at level 0, below everything the core owes. -/
def reg0 (hO : ∀ g, O g none = 0) (hval : ∀ c, (dat0 Vv O B c).arrAt 1 cfg0.N = Vv c main_arg0) :
    Pipeline.RegionSeg (pcfgs (F := F)) adm (pdats Vv O B) (none : HIx 1) defs₀ 𝒱₀ ((K (F := F)).L (nD := nD)) ((K (F := F)).lev (nD := nD)) 0 where
  win := launch0.win.to₀
  block_pos := launch0.block_pos
  stage_whole := launch0.stage_whole
  K := PEmpty
  osem k := k.elim
  ho := Pipeline.OwnSemFacts.none _
  hbody c := (body_obligation0 Vv O B c).loose
  hwaits c := Pipeline.cellsWaits_intro (Pipeline.pin (pcfgs (F := F)) adm) (pdats Vv O B) (none : HIx 1) 0 c
    fun w s t => (K (F := F)).mayWait_none _ hO
  pre c := iprop(unscopedBufs c (Vv c) ∗ (∃ r, prngReg c r) ∗ Pipeline.owesWithin c O B)
  post c := iprop(unscopedBufs c (Vout Vv c) ∗ (∃ r, prngReg c r) ∗ Pipeline.owesWithin c O (B ∪ cfg0.waitPairs (none : HIx 1)))
  X c := iprop(∃ r, prngReg c r)
  Y c := iprop(∃ r, prngReg c r)
  Z c := Pipeline.unscopedRest (Ix := HIx 1) (Name := ℕ) (U := UU) (Lvl := ℕ) spec0 c (Vv c)
  hentry c := by
    rw [Pipeline.ownSems0_none]
    have hsplit := Pipeline.arrays_of_unscopedBufs (p := 0) (pcfgs (F := F)) adm (pdats Vv O B) launch0.win launch0.arr_whole c
      ((pdats Vv O B 0 c).share_full fun _ => rfl) (Vv c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitl [Hp]; · iexact Hp
    iexact Hrest
  hin c := by
    rw [show (pdats Vv O B 0 c).Φ 0 = Φ0 c from rfl]; unfold Φ0
    iintro ⟨Hp, -, Hr⟩
    isplitl [Hr]; · iexact Hr
    iexact Hp
  hout c := by
    rw [Pipeline.ownSems0_none, show (pdats Vv O B 0 c).Φ (Fin.last _) = Φ0 c from rfl]; unfold Φ0
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats Vv O B) ((pdats Vv O B 0 c).share_full fun _ => rfl)
      (Vv c) (Vout Vv c) ((pdats Vv O B 0 c).arrAt · cfg0.N) (hF0 Vv O B hval c) (hrest0 Vv c)
    iintro ⟨Ha, HO, HY, Hrest⟩
    imodintro
    isplitl [Ha Hrest]
    · iapply hjoin; isplitl [Ha] <;> iassumption
    isplitl [HY]; · iexact HY
    iexact HO

end Region

/-! ## The pipeline's ghost state, and the region's weakest precondition -/

/-- The pipeline library's ghost state for the pipeline's staging cells on core `d`, as the launch deals it: the
    cells' launch state and the duty tokens of the loop's transfers. -/
def ghost0 (d : Dev nD) : sProp 𝕄 :=
  iprop(Pipeline.cellsGhost (Pipeline.pin (pcfgs (F := F)) adm) (EP (F := F)) 0 d
    ∗ Pipeline.toksInit (Pipeline.pin (pcfgs (F := F)) adm) (EP (F := F)) 0 d)

/-- The launch element of the pipeline library at the staging cells yields every core's ghost state. -/
theorem ghost0_intro :
    BI.own (EP (F := F) (initOf (Pipeline.cells cfgs cellOf_inj) (Pipeline.launchToks cfgs cellOf_inj)))
      ⊢ |={Set.univ}=> bigSep Finset.univ (ghost0 (F := F)) := by
  have hjoin : iprop((bigSep Finset.univ fun c : Dev nD => bigSep Finset.univ fun p : Fin 1 => Pipeline.cellsGhost (Pipeline.pin (pcfgs (F := F)) adm) (EP (F := F)) p c)
        ∗ (bigSep Finset.univ fun c : Dev nD => bigSep Finset.univ fun p : Fin 1 => (Pipeline.toksInit (Pipeline.pin (pcfgs (F := F)) adm) (EP (F := F)) p c : sProp 𝕄)))
      ⊢ bigSep Finset.univ (ghost0 (F := F)) := by
    rw [← bigSep_sep']
    refine bigSep_mono fun c _ => ?_
    rw [show (Finset.univ : Finset (Fin 1)) = {0} from rfl, bigSep_singleton, bigSep_singleton]
    exact BI.Entails.refl _
  iintro Hu
  imod (Pipeline.fund_ghost (Pipeline.pin (pcfgs (F := F)) adm) (EP (F := F)) cellOf_inj) $$ Hu with ⟨Hg, Ht⟩
  imodintro
  iapply hjoin
  isplitl [Hg] <;> iassumption

section Wp

variable (Vv : (c : Dev nD) → (b : Ref sig .tc) → Buf (Elt F) ((c : Thread nD τ).loc b))
  (O : CellTallies nD τ sig (HIx 1)) (B : Set (SemLoc sig × HIx 1))

set_option backward.isDefEq.respectTransparency.types false in
/-- The first statement of @main, under the SparseCore launch's body table: from the level facts, the pipeline's ghost
    state on core `d`, the region boundary, every unscoped buffer at `Vv d`, the generator register and the core owing
    `O` (nothing at index `none`) with its recorded pairs within `B`, the pallas_call runs to the boundary, the
    unscoped buffers with the output array at the input array's entry contents and every other one unchanged, the
    register, and the core owing `O` with its recorded pairs within `B` and the staging cells' pairs at index `none`. -/
theorem region0_wp_of (hO : ∀ g, O g none = 0) (hval : ∀ c, (dat0 Vv O B c).arrAt 1 cfg0.N = Vv c main_arg0)
    (d : Dev nD) (Φ : PUnit → sProp 𝕄) :
    iprop(levAts ((K (F := F)).L (nD := nD)) ((K (F := F)).lev (nD := nD)) ∗ ghost0 (F := F) d ∗ boundary (T d) ∗ unscopedBufs d (Vv d)
        ∗ (∃ r, prngReg d r) ∗ Pipeline.owesWithin d O B
        ∗ (iprop(boundary (T d) ∗ unscopedBufs d (Vout Vv d) ∗ (∃ r, prngReg d r)
            ∗ Pipeline.owesWithin d O (B ∪ cfg0.waitPairs (none : HIx 1))) -∗ Φ ⟨⟩))
      ⊢ wp frame (wpE ((K (F := F)).defs (D (F := F))) 𝒱 (T d) none) Set.univ
          (Prog.lift (.customCall (SparseCore.inner (Pipeline.entry 0)) ())) Φ := by
  have hreg := (reg0 Vv O B hO hval).wp (pcfgs (F := F)) adm (pdats Vv O B) (none : HIx 1) cellOf_inj (EP (F := F)) defs₀ 𝒱₀
    ((K (F := F)).L (nD := nD)) ((K (F := F)).lev (nD := nD)) d none (fun u h => nomatch h) (fun _ => Prog.ret PUnit.unit) Φ
  rw [show (reg0 Vv O B hO hval).post d = iprop(unscopedBufs d (Vout Vv d) ∗ (∃ r, prngReg d r)
        ∗ Pipeline.owesWithin d O (B ∪ cfg0.waitPairs (none : HIx 1))) from rfl,
    show (reg0 Vv O B hO hval).pre d = iprop(unscopedBufs d (Vv d) ∗ (∃ r, prngReg d r) ∗ Pipeline.owesWithin d O B) from rfl] at hreg
  have hlift := (K (F := F)).wp_liftProg (D (F := F)) 𝒱 (T d) Set.univ none
    (Prog.lift (.customCall (Pipeline.entry 0) ()) : Prog (TpuEff nD τ sig (Elt F) (ΛP (F := F)) .tc) PUnit) Φ
  refine BIBase.Entails.trans ?_ hlift
  refine BIBase.Entails.trans ?_ hreg
  unfold ghost0
  iintro ⟨Hla, ⟨Hg, Ht⟩, Hbd, Hub, Hp, HO, Hk⟩
  isplitl [Hk]
  · iintro ⟨Hbd, Hub, Hp, HO⟩
    rw [wp_ret]
    imodintro
    iapply Hk
    isplitl [Hbd]; · iexact Hbd
    isplitl [Hub]; · iexact Hub
    isplitl [Hp]; · iexact Hp
    iexact HO
  isplitl [Hbd]; · iexact Hbd
  isplitl [Hub Hp HO]
  · isplitl [Hub]; · iexact Hub
    isplitl [Hp]; · iexact Hp
    iexact HO
  isplitl [Hla]; · iexact Hla
  isplitl [Hg] <;> iassumption

end Wp

/-! ## The region's weakest precondition, with the value equation discharged -/

section Final

variable (Vv : (c : Dev nD) → (b : Ref sig .tc) → Buf (Elt F) ((c : Thread nD τ).loc b))

theorem Vout_v0 (c : Dev nD) : Vout Vv c main_v0 = Vv c main_arg0 := Function.update_self (f := Vv c) main_v0 _
theorem Vout_of_ne (c : Dev nD) (b : Ref sig .tc) (h : b ≠ main_v0) : Vout Vv c b = Vv c b := Function.update_of_ne h _ _

/-- The first statement of @main under the SparseCore launch's body table, at the thread's own `owes`: the pallas_call
    copies the input array into the output array and leaves every other unscoped buffer, the generator register and what
    the core owes as they were; the pairs its waits record beyond `W` are all at index `none` (the staging cells'). -/
theorem region0_wp (O : CellTallies nD τ sig (HIx 1)) (W : Waits sig (HIx 1)) (hO : ∀ g, O g none = 0)
    (d : Dev nD) (Φ : PUnit → sProp 𝕄) :
    iprop(levAts ((K (F := F)).L (nD := nD)) ((K (F := F)).lev (nD := nD)) ∗ ghost0 (F := F) d ∗ boundary (T d) ∗ unscopedBufs d (Vv d)
        ∗ (∃ r, prngReg d r) ∗ owes (T d) O W
        ∗ (iprop(boundary (T d) ∗ unscopedBufs d (Vout Vv d) ∗ (∃ r, prngReg d r)
            ∗ ∃ W' : Waits sig (HIx 1), ⌜∀ p ∈ W', p ∈ W ∨ p.2 = none⌝ ∗ owes (T d) O W') -∗ Φ ⟨⟩))
      ⊢ wp frame (wpE ((K (F := F)).defs (D (F := F))) 𝒱 (T d) none) Set.univ
          (Prog.lift (.customCall (SparseCore.inner (Pipeline.entry 0)) ())) Φ := by
  have h := region0_wp_of Vv O {p | p ∈ W ∨ p.2 = none} hO (fun c => final1 Vv O _ c) d Φ
  refine BIBase.Entails.trans ?_ h
  iintro ⟨Hla, Hg, Hbd, Hub, Hp, HO, Hk⟩
  isplitl [Hla]; · iexact Hla
  isplitl [Hg]; · iexact Hg
  isplitl [Hbd]; · iexact Hbd
  isplitl [Hub]; · iexact Hub
  isplitl [Hp]; · iexact Hp
  isplitl [HO]
  · iexists W; isplitr; · ipureintro; exact fun p hp => Or.inl hp
    iexact HO
  iintro ⟨Hbd, Hub, Hp, HO⟩
  iapply Hk
  isplitl [Hbd]; · iexact Hbd
  isplitl [Hub]; · iexact Hub
  isplitl [Hp]; · iexact Hp
  icases HO with ⟨%W', %hW', HO⟩
  iexists W'; isplitr
  · ipureintro
    intro p hp
    rcases hW' (Finset.mem_coe.mpr hp) with h | ⟨w, s, rfl⟩
    · exact h
    · exact Or.inr rfl
  iexact HO

end Final

/-! ## Two facts about the TensorCore's tallies and recorded pairs, for the region's hypotheses -/

/-- The TensorCore owes nothing at index `none`: every unit it owes is at a call's index. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- Recorded pairs that are old ones or at index `none` (level 0) stay below any bound the old ones were below. -/
theorem WBelow_of_none {d : Dev nD} {W W' : Waits sig (HIx 1)} {b : ℕ} (hW : (K (F := F)).WBelow (T d) W b)
    (h : ∀ p ∈ W', p ∈ W ∨ p.2 = none) : (K (F := F)).WBelow (T d) W' b := fun p hp =>
  (h p hp).elim (hW p) fun e => by
    show (K (F := F)).lev (T d, p.1) p.2 ≤ b
    rw [e]; exact Nat.zero_le _

end Cert.Proof.KI

end
-- ==== Proof.MainI.lean ====
import proofs.«201282_g70549132804296_cont_9to1_m_715_22_alg».proof.Proof.RegionI
import proofs.«201282_g70549132804296_cont_9to1_m_715_22_alg».proof.Proof.PayI
import Idealize.ShloMosaic.Lib.Pipeline.Value

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ)

/-! # @main on the TensorCore: the copy pipeline, three host operations, the SparseCore call -/

/-! ## The TensorCore's six arrays -/

abbrev x' : DevRef τ sig := Proc.devRef .tc (main_arg0 : Ref sig .tc)
abbrev a' : DevRef τ sig := Proc.devRef .tc (main_arg1 : Ref sig .tc)
abbrev c' : DevRef τ sig := Proc.devRef .tc (main_v0 : Ref sig .tc)
abbrev e' : DevRef τ sig := Proc.devRef .tc (main_v1 : Ref sig .tc)
abbrev f' : DevRef τ sig := Proc.devRef .tc (main_v2 : Ref sig .tc)
abbrev y' : DevRef τ sig := Proc.devRef .tc (main_v3 : Ref sig .tc)

/-- The TensorCore's arrays, all unscoped. -/
abbrev S6 : Finset (DevRef τ sig) := {x', a', c', e', f', y'}

omit [FloatOps F] in
theorem held_S6 (d : Dev nD) (W : Valuation τ sig (Elt F)) :
    (held (T d) S6 W : sProp 𝕄) = iprop((xLoc d ↦{fullShare} W x') ∗ (aLoc d ↦{fullShare} W a')
      ∗ ((SparseCore.T d).loc main_v0 ↦{fullShare} W c') ∗ ((SparseCore.T d).loc main_v1 ↦{fullShare} W e')
      ∗ (fLoc d ↦{fullShare} W f') ∗ yLoc d ↦{fullShare} W y') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (aLoc d ↦{fullShare} W main_arg1)
      ∗ ((SparseCore.T d).loc main_v0 ↦{fullShare} W main_v0) ∗ ((SparseCore.T d).loc main_v1 ↦{fullShare} W main_v1)
      ∗ (fLoc d ↦{fullShare} W main_v2) ∗ yLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-! ## The three host operations and the contents they leave -/

abbrev op1 : HloOp τ sig (Elt F) := StableHlo.unary main_arg1 main_v1 (sitofp .f32 : (⟨S_, .i32⟩ : BufTy).Contents (Elt F) → (⟨S_, .f32⟩ : BufTy).Contents (Elt F))
abbrev op2 : HloOp τ sig (Elt F) := StableHlo.unary main_v1 main_v2 (broadcastInDim S16 ![] bcast_S_S16 : (⟨S_, .f32⟩ : BufTy).Contents (Elt F) → (⟨S16, .f32⟩ : BufTy).Contents (Elt F))
abbrev op3 : HloOp τ sig (Elt F) := StableHlo.unary main_v0 main_v3 id

theorem h1 : (op1 (F := F)).bufs ⊆ S6 := show ({a', e'} : Finset (DevRef τ sig)) ⊆ S6 by decide
theorem h2 : (op2 (F := F)).bufs ⊆ S6 := show ({e', f'} : Finset (DevRef τ sig)) ⊆ S6 by decide
theorem h3 : (op3 (F := F)).bufs ⊆ S6 := show ({c', y'} : Finset (DevRef τ sig)) ⊆ S6 by decide

/-- The launch valuation; after the pipeline, the copy at the input's contents; then after each host operation. -/
def V0 (d : Dev nD) : Valuation τ sig (Elt F) := fun b => m (d, b)
def V1 (d : Dev nD) : Valuation τ sig (Elt F) := Function.update (V0 m d) c' (m (xLoc d))
def V2 (d : Dev nD) : Valuation τ sig (Elt F) := (op1 (F := F)).result (V1 m d)
def V3 (d : Dev nD) : Valuation τ sig (Elt F) := (op2 (F := F)).result (V2 m d)
def V4 (d : Dev nD) : Valuation τ sig (Elt F) := (op3 (F := F)).result (V3 m d)

theorem V4_x (d : Dev nD) : V4 m d x' = m (xLoc d) := by
  unfold V4 V3 V2 V1
  rw [StableHlo.unary_result_ne (r := main_arg0) _ _ _ _ (by decide), StableHlo.unary_result_ne (r := main_arg0) _ _ _ _ (by decide),
    StableHlo.unary_result_ne (r := main_arg0) _ _ _ _ (by decide), Function.update_of_ne (show x' ≠ c' by decide)]
  · rfl
  all_goals decide
theorem V4_a (d : Dev nD) : V4 m d a' = m (aLoc d) := by
  unfold V4 V3 V2 V1
  rw [StableHlo.unary_result_ne (r := main_arg1) _ _ _ _ (by decide), StableHlo.unary_result_ne (r := main_arg1) _ _ _ _ (by decide),
    StableHlo.unary_result_ne (r := main_arg1) _ _ _ _ (by decide), Function.update_of_ne (show a' ≠ c' by decide)]
  · rfl
  all_goals decide
theorem V4_y (d : Dev nD) : V4 m d y' = y0 m d := by
  unfold V4
  rw [StableHlo.unary_result]
  unfold V3 V2 V1
  rw [StableHlo.unary_result_ne (r := main_v0) _ _ _ _ (by decide), StableHlo.unary_result_ne (r := main_v0) _ _ _ _ (by decide)]
  · exact Function.update_self _ _ _
  all_goals decide
theorem V4_f (d : Dev nD) : V4 m d f' = ffill m d := by
  unfold V4
  rw [StableHlo.unary_result_ne (r := main_v2) _ _ _ _ (by decide)]
  swap; · decide
  unfold V3
  rw [StableHlo.unary_result]
  unfold V2
  rw [StableHlo.unary_result]
  unfold V1
  rw [Function.update_of_ne (show a' ≠ c' by decide)]
  funext j
  exact broadcastInDim_apply _ bcast_S_S16 _ j (fun a => a.elim0) (fun a => a.elim0)

/-! ## The result array as its 64 diagonal blocks and the rest -/

/-- The 64 diagonal blocks, as the tasks take them: SparseCore `c`, vector subcore `i`, plane `r`. -/
def blocks : Finset S8192x8192.Idx :=
  (Finset.univ : Finset (Fin 2 × Fin 16 × Fin 2)).biUnion fun t => blkSet (blkOf t.1.val t.2.1.val t.2.2.val)

theorem blkOf_ne (t t' : Fin 2 × Fin 16 × Fin 2) (h : t ≠ t') :
    blkOf t.1.val t.2.1.val t.2.2.val ≠ blkOf t'.1.val t'.2.1.val t'.2.2.val := by
  intro e; apply h
  obtain ⟨c, i, r⟩ := t; obtain ⟨c', i', r'⟩ := t'
  have e' : 4 * i.val + 2 * c.val + r.val = 4 * i'.val + 2 * c'.val + r'.val := e
  have hc := c.isLt; have hc' := c'.isLt; have hr := r.isLt; have hr' := r'.isLt
  have e1 : c = c' := Fin.ext (by omega)
  have e2 : i = i' := Fin.ext (by omega)
  have e3 : r = r' := Fin.ext (by omega)
  rw [e1, e2, e3]

/-- An index on the main diagonal is in one of the 64 blocks. -/
theorem mem_blocks_of_diag (j : S8192x8192.Idx) (h : (j 0).val = (j 1).val) : j ∈ blocks := by
  have h0 : (j 0).val < 8192 := (j 0).isLt
  unfold blocks
  rw [Finset.mem_biUnion]
  refine ⟨(⟨((j 0).val / 128 % 4) / 2, by omega⟩, ⟨(j 0).val / 128 / 4, by omega⟩, ⟨(j 0).val / 128 % 2, by omega⟩), Finset.mem_univ _, ?_⟩
  rw [mem_blkSet]
  dsimp only [blkOf]
  omega

omit [FloatOps F] in
/-- The blocks' points-to, task by task. -/
theorem blocks_eq (d : Dev nD) (g : Buf (Elt F) (yLoc d)) :
    (yLoc d ↦[blocks]{fullShare} g : sProp 𝕄)
      = bigSep Finset.univ fun c : Fin 2 => bigSep Finset.univ fun i : Fin 16 => bigSep Finset.univ fun r : Fin 2 =>
          blkPts d (blkOf c.val i.val r.val) g := by
  unfold blocks
  rw [pointsTo_biUnion _ _ (fun t _ t' _ h => blkSet_disjoint _ _ (blkOf_ne t t' h)), bigSep_univ_prod]
  refine bigSep_congr fun c _ => ?_
  rw [bigSep_univ_prod]

/-- Off the blocks the diagonal fill changes nothing. -/
theorem rest_congr (d : Dev nD) :
    (yLoc d ↦[Finset.univ \ blocks]{fullShare} y0 m d : sProp 𝕄) = yLoc d ↦[Finset.univ \ blocks]{fullShare} yfin m d :=
  pointsTo_congr fun j hj => by
    have hj' : j ∉ blocks := (Finset.mem_sdiff.mp hj).2
    unfold yfin
    exact (Spec.diagSet_off _ _ j fun e => hj' (mem_blocks_of_diag j e)).symm

/-- What the call takes for the two SparseCores, and what it hands back: each one's read share of the fill vector and
    its tasks' blocks. -/
theorem st0_eq (d : Dev nD) : (bigSep Finset.univ fun c : Fin ((K (F := F)).nCore 0) => (P m).st 0 d c)
    = iprop((bigSep Finset.univ fun c : Fin 2 => fLoc d ↦{Transfers.shareTok fullShare 2 c} ffill m d) ∗ yLoc d ↦[blocks]{fullShare} y0 m d) := by
  rw [blocks_eq]
  show (bigSep (Finset.univ : Finset (Fin 2)) fun c => iprop((fLoc d ↦{tokC c.val} ffill m d)
      ∗ bigSep (Finset.univ : Finset (Fin 16)) fun i => bigSep (Finset.univ : Finset (Fin 2)) fun r => blkPts d (blkOf c.val i.val r.val) (y0 m d))) = _
  rw [bigSep_sep']
theorem dn0_eq (d : Dev nD) : (bigSep Finset.univ fun c : Fin ((K (F := F)).nCore 0) => (P m).dn 0 d c)
    = iprop((bigSep Finset.univ fun c : Fin 2 => fLoc d ↦{Transfers.shareTok fullShare 2 c} ffill m d) ∗ yLoc d ↦[blocks]{fullShare} yfin m d) := by
  rw [blocks_eq]
  show (bigSep (Finset.univ : Finset (Fin 2)) fun c => iprop((fLoc d ↦{tokC c.val} ffill m d)
      ∗ bigSep (Finset.univ : Finset (Fin 16)) fun i => bigSep (Finset.univ : Finset (Fin 2)) fun r => blkPts d (blkOf c.val i.val r.val) (yfin m d))) = _
  rw [bigSep_sep']

/-! ## What the claim reads -/

def fq (d : Dev nD) (s' : Phys nD τ sig (Elt F)) : Prop :=
  s'.mem.mem (xLoc d) = m (xLoc d) ∧ s'.mem.mem (aLoc d) = m (aLoc d) ∧ s'.mem.mem (yLoc d) = yfin m d

theorem hfin (d : Dev nD) (s' : Phys nD τ sig (Elt F)) : iprop(FIN m d ∗ SI s') ⊢ (⌜fq m d s'⌝ : sProp 𝕄) := by
  iintro ⟨⟨Hx, Ha, Hy⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := yLoc d) (I := Finset.univ) (q := fullShare) (f := yfin m d)) $$ [HSI Hy]
  · isplitl [HSI] <;> iassumption
  icases H with %h3
  ipureintro
  exact ⟨funext fun i => h1 i (Finset.mem_univ i), funext fun i => h2 i (Finset.mem_univ i), funext fun i => h3 i (Finset.mem_univ i)⟩

/-! ## @main -/

omit [FloatOps F] in
/-- The TensorCore's state before the call, as what it owes beside the rest. -/
theorem tcSt_owes (d : Dev nD) : ∃ R : sProp 𝕄, (K (F := F)).tcSt EH d 0
    = iprop((∃ W, ⌜(K (F := F)).WBelow (T d) W (8 * 0)⌝ ∗ owes (T d) ((K (F := F)).Otc d 0) W) ∗ R) := ⟨_, rfl⟩

/-- After the pipeline the unscoped buffers are the six arrays held at `V1`. -/
theorem ubufs_held (d : Dev nD) :
    (unscopedBufs d (Vout (fun c b => m ((SparseCore.T c).loc b)) d) : sProp 𝕄) = held (T d) S6 (V1 m d) := by
  rw [unscopedBufs_eq, held_S6]
  unfold V1
  rw [Function.update_of_ne (show x' ≠ c' by decide), Function.update_of_ne (show a' ≠ c' by decide), Function.update_self,
    Function.update_of_ne (show e' ≠ c' by decide), Function.update_of_ne (show f' ≠ c' by decide), Function.update_of_ne (show y' ≠ c' by decide),
    Vout_v0, Vout_of_ne _ _ main_arg0 (by decide), Vout_of_ne _ _ main_arg1 (by decide), Vout_of_ne _ _ main_v1 (by decide),
    Vout_of_ne _ _ main_v2 (by decide), Vout_of_ne _ _ main_v3 (by decide)]
  rfl

set_option maxHeartbeats 1000000 in
/-- @main on device `d`'s TensorCore: the copy pipeline, the fill value converted and broadcast, the copy moved into the
    buffer the SparseCore kernel addresses, the call over the fill vector's read shares and the 64 diagonal blocks. -/
theorem hmain (ρ : Dev nD → PrngReg) (κ : GSem nD τ sig → ℕ) (d : Dev nD) :
    iprop((K (F := F)).ctx EH (P m) κ ∗ (K (F := F)).tcSt EH d 0 ∗ (K (F := F)).tcRes m ρ d ∗ ghost0 (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  obtain ⟨R, hR⟩ := tcSt_owes (F := F) d
  rw [hR]
  simp only [main, wp_bind, wp_pure]
  iintro ⟨#Hctx, ⟨⟨%W, %hW, HO⟩, HR⟩, ⟨Hb, Hub, -, Hp⟩, Hg⟩
  -- the pipeline
  iapply (region0_wp (fun c b => m ((SparseCore.T c).loc b)) ((K (F := F)).Otc d 0) W (Otc_none d 0) d _)
  isplitr; · iapply (SparseCore.Cfg.ctx_levAts κ); iexact Hctx
  isplitl [Hg]; · iexact Hg
  isplitl [Hb]; · iexact Hb
  isplitl [Hub]; · iexact Hub
  isplitl [Hp]; · iexists _; iexact Hp
  isplitl [HO]; · iexact HO
  iintro ⟨Hb, Hub, -, %W', %hW', HO⟩
  ihave Hst := (Entails.of_eq hR.symm) $$ [HO HR]
  · isplitl [HO]
    · iexists W'; isplitr; · ipureintro; exact WBelow_of_none hW hW'
      iexact HO
    iexact HR
  ihave Hheld := (Entails.of_eq (ubufs_held m d)) $$ Hub
  -- the three host operations
  iapply (wp_hlo_within 𝒱 (SparseCore.T d) none Set.univ (op := op1) (S := S6) h1 (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S6) h2 (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S6) h3 (V := V3 m d)) $$ [Hb Hheld]
  · isplitl [Hb]; · iexact Hb
    iexact Hheld
  iintro ⟨Hb, Hheld⟩
  rw [wp_ret]; imodintro
  -- the arrays the call and the claim read, at their values
  rw [show (op3 (F := F)).result (V3 m d) = V4 m d from rfl]
  ihave Hh := (Entails.of_eq (held_S6 (F := F) d (V4 m d))) $$ Hheld
  rw [V4_x, V4_a, V4_f, V4_y]
  icases Hh with ⟨Hx, Ha, -, -, Hf, Hy⟩
  -- the fill vector's read shares, the result array's blocks
  ihave Hf2 := (Transfers.pointsTo_toks_split fullShare 2) $$ Hf
  icases Hf2 with ⟨-, Htok⟩
  ihave Hy2 := (pointsTo_split_subset (I := blocks) (Finset.subset_univ _)).1 $$ Hy
  icases Hy2 with ⟨Hblk, Hrest⟩
  -- the call
  iapply ((K (F := F)).wp_run (D (F := F)) 𝒱 (EH := EH) (P := P m) κ d 0) $$ [Hst Htok Hblk Hx Ha Hrest]
  isplitr; · iexact Hctx
  isplitl [Hst]; · iexact Hst
  isplitl [Htok Hblk]
  · rw [st0_eq]
    isplitl [Htok]; · iexact Htok
    iexact Hblk
  iintro ⟨Hst, Hdn⟩
  ihave Hdn' := (Entails.of_eq (dn0_eq m d)) $$ Hdn
  icases Hdn' with ⟨-, Hblk⟩
  imodintro
  isplitl [Hst]; · iexact Hst
  isplitl [Hx]; · iexact Hx
  isplitl [Ha]; · iexact Ha
  iapply (pointsTo_split_subset (I := blocks) (Finset.subset_univ _)).2
  isplitl [Hblk]; · iexact Hblk
  rw [← rest_congr]; iexact Hrest

end Cert.Proof.KI

end
-- ==== Proof.LaunchI.lean ====
/-
  The launch: the task of every vector subcore (the one body, at the subcore's place), how a SparseCore's operands
  split among its sixteen tasks and gather back, the launch element of the ghost state, and the program's run — every
  weakly fair execution ends with the result array at the input with its diagonal filled, the arguments as launched.
-/
import proofs.«201282_g70549132804296_cont_9to1_m_715_22_alg».proof.Proof.TileI
import proofs.«201282_g70549132804296_cont_9to1_m_715_22_alg».proof.Proof.MainI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "fW" => (Memref.whole Cert.KernelIdeal.main_v2_scv : Memref Cert.KernelIdeal.sig Kind.scVector Space.hbm Cert.KernelIdeal.S16 EltTy.f32)
local notation "yW" => (Memref.whole Cert.KernelIdeal.main_v3_scv : Memref Cert.KernelIdeal.sig Kind.scVector Space.hbm Cert.KernelIdeal.S8192x8192 EltTy.f32)
local notation "s0W" => (Memref.whole Cert.KernelIdeal.cc1_scratch0 : Memref Cert.KernelIdeal.sig Kind.scVector Space.vmem Cert.KernelIdeal.S16 EltTy.f32)
local notation "s1W" => (Memref.whole Cert.KernelIdeal.cc1_scratch1 : Memref Cert.KernelIdeal.sig Kind.scVector Space.vmem Cert.KernelIdeal.S2x128x128 EltTy.f32)

variable (m : (ℓ : Loc nD τ sig) → Buf (Elt F) ℓ) (ρ : Dev nD → PrngReg)
variable [FloatOps F]

/-! ## The launch theorem's obligations -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_body (coordsV c s)
          fW (Memref.isWhole_whole _) yW (Memref.isWhole_whole _) yW (Memref.isWhole_whole _)
          s0W (Memref.isWhole_whole _) s1W (Memref.isWhole_whole _) cc1_scratch2 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem drop_emp {A B : sProp 𝕄} : iprop(A ∗ emp ∗ B) ⊢ iprop(A ∗ B) := by
  iintro ⟨HA, -, HB⟩
  isplitl [HA]; · iexact HA
  iexact HB

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  show iprop(_ ∗ emp ∗ ((fLoc d ↦{tokT c.val i.val} ffill m d) ∗ bigSep (Finset.univ : Finset (Fin 2)) fun r => blkPts d (blkOf c.val i.val r.val) (y0 m d)) ∗ _)
    ⊢ wp _ _ _ _ (fun _ => iprop(((fLoc d ↦{tokT c.val i.val} ffill m d) ∗ bigSep (Finset.univ : Finset (Fin 2)) fun r => blkPts d (blkOf c.val i.val r.val) (yfin m d)) ∗ _))
  rw [bigSep_W0, bigSep_W0]
  exact drop_emp.trans ((tile_body d (coordsV ⟨_, hc.1⟩ ⟨_, hc.2⟩) hF (tokT c.val i.val) O W hO (ffill m d) (fillv m d) (fun _ => rfl) (y0 m d) trivial).trans
    (wp_mono frame _ _ fun _ => obl_post))

theorem vecSplit : (K (F := F)).VecSplit' (P m) 0 := by
  intro d c
  show iprop((fLoc d ↦{tokC c.val} ffill m d)
        ∗ bigSep (Finset.univ : Finset (Fin 16)) fun i => bigSep (Finset.univ : Finset (Fin 2)) fun r => blkPts d (blkOf c.val i.val r.val) (y0 m d))
      ⊢ |={Set.univ}=> iprop(
        (bigSep (Finset.univ : Finset (Fin 16)) fun i => iprop((fLoc d ↦{tokT c.val i.val} ffill m d)
          ∗ bigSep (Finset.univ : Finset (Fin 2)) fun r => blkPts d (blkOf c.val i.val r.val) (y0 m d)))
        ∗ ((bigSep (Finset.univ : Finset (Fin 16)) fun i => iprop((fLoc d ↦{tokT c.val i.val} ffill m d)
            ∗ bigSep (Finset.univ : Finset (Fin 2)) fun r => blkPts d (blkOf c.val i.val r.val) (yfin m d)))
          -∗ iprop((fLoc d ↦{tokC c.val} ffill m d)
            ∗ bigSep (Finset.univ : Finset (Fin 16)) fun i => bigSep (Finset.univ : Finset (Fin 2)) fun r => blkPts d (blkOf c.val i.val r.val) (yfin m d))))
  rw [bigSep_sep', bigSep_sep']
  iintro ⟨Hf, Hb⟩
  ihave H := (Transfers.pointsTo_toks_split (tokC c.val) 16) $$ Hf
  icases H with ⟨Hdrop, Htoks⟩
  imodintro
  isplitl [Htoks Hb]
  · isplitl [Htoks]; · iexact Htoks
    iexact Hb
  iintro ⟨Htoks, Hb⟩
  isplitl [Hdrop Htoks]
  · iapply (Transfers.pointsTo_toks_join (tokC c.val) 16)
    isplitl [Hdrop]; · iexact Hdrop
    iexact Htoks
  iexact Hb

/-! ## The launch element: the handshakes' rounds, the pipeline's staging cells' rounds, the counters -/

def u₀ : UU := (initOf (K (F := F)).hsCells (K (F := F)).hsToks,
  (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

omit [FloatOps F] in
/-- The pipeline's rounds sit in the left of the right factor. -/
theorem own_EP (a : UR sig nD τ) :
    (BI.own ((embR : Emb UK (MT nD τ sig (HIx 1) (Elt F) ℕ UU ℕ)) (a, 1)) : sProp 𝕄) = BI.own (EP a) := rfl

theorem hu₀ : (ownU (u₀ (F := F)) : sProp 𝕄)
    ⊢ |={Set.univ}=> iprop(BI.own (EH (initOf (K (F := F)).hsCells (K (F := F)).hsToks)) ∗ (bigSep Finset.univ fun d : Dev nD => ghost0 (F := F) d)
        ∗ bigSep Finset.univ fun thr : Thread nD τ => bigSep Finset.univ fun q : Fin 1 => (P m).x q thr) := by
  unfold u₀
  iintro Hu
  ihave H := (ownU_pair _ _) $$ Hu
  icases H with ⟨HH, HK⟩
  ihave HK' := (Entails.of_eq (own_EP (F := F) _)) $$ HK
  imod (ghost0_intro (F := F)) $$ HK' with Hg
  imodintro
  isplitl [HH]; · iexact HH
  isplitl [Hg]; · iexact Hg
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The program's run -/

def QC : PUnit × MemSt nD τ sig (Elt F) → Prop := fun r => ∀ c : Dev nD,
  r.2.mem (yLoc c) = yfin m c ∧ r.2.mem (xLoc c) = m (xLoc c) ∧ r.2.mem (aLoc c) = m (aLoc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun d => ghost0 (F := F) d) (FIN m) (u₀ (F := F)) (sep_elim_left.trans (hu₀ m)) (hmain m ρ) (fq m) (hfin m) (QC m)
    (fun _ h c => ⟨(h c).2.2, (h c).1, (h c).2.1⟩)

end Cert.Proof.KI

end
-- ==== Proof.SetupB.lean ====
/-
  The kernel's program as the launch theorem sees it: one SparseCore call of a vector-subcore
  kernel on 2 SparseCores x 16 vector subcores, after one TensorCore pipeline; the resource algebra of
  the proof: the handshakes' rounds, the pipeline's staging cells' rounds, and the local transfers' counters.
-/
import proofs.«201282_g70549132804296_cont_9to1_m_715_22_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«201282_g70549132804296_cont_9to1_m_715_22_alg».proof.Proof.Gen.Kernel
import proofs.«201282_g70549132804296_cont_9to1_m_715_22_alg».proof.Proof.Gen.Kernel.Skeleton
import proofs.«201282_g70549132804296_cont_9to1_m_715_22_alg».proof.Proof.Gen.Kernel.Launch
import proofs.«201282_g70549132804296_cont_9to1_m_715_22_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipeline's staging cells' rounds beside the local transfers' counters. -/
abbrev UK : Type := UR sig nD τ × Counters
abbrev UU : Type := UH × UK

abbrev EH : Emb UH (MT nD τ sig (HIx 1) (Elt F) ℕ UU ℕ) := embL
def EP : Emb (UR sig nD τ) (MT nD τ sig (HIx 1) (Elt F) ℕ UU ℕ) :=
  (Emb.inl : Emb (UR sig nD τ) UK).trans embR

instance EP_landsIn : (EP : Emb (UR sig nD τ) (MT nD τ sig (HIx 1) (Elt F) ℕ UU ℕ)).LandsIn (upEmb : UEmb _ (MT nD τ sig (HIx 1) (Elt F) ℕ UU ℕ)) := by
  unfold EP; infer_instance

end Cert.Proof.KB

end
-- ==== Proof.PayB.lean ====
/-
  What the SparseCore call carries: the fill vector as read shares (one per SparseCore, split again per vector
  subcore) and the result array's 64 diagonal 128 x 128 blocks, two per task; the off-diagonal rest never leaves
  the TensorCore. Going out the blocks hold the copied input, coming back the input with its diagonal overwritten.
-/
import proofs.«201282_g70549132804296_cont_9to1_m_715_22_alg».proof.Proof.SetupB
import proofs.«201282_g70549132804296_cont_9to1_m_715_22_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The two arguments, the fill vector and the result array, as locations of device `d`. -/
abbrev xLoc (d : Dev nD) : Loc nD τ sig := (SparseCore.T d).loc main_arg0
abbrev aLoc (d : Dev nD) : Loc nD τ sig := (SparseCore.T d).loc main_arg1
abbrev fLoc (d : Dev nD) : Loc nD τ sig := (SparseCore.T d).loc main_v2
abbrev yLoc (d : Dev nD) : Loc nD τ sig := (SparseCore.T d).loc main_v3

/-! ## The diagonal blocks -/

/-- Diagonal block `b` of the square: rows and columns `[128 b, 128 b + 128)`. -/
def blkSet (b : ℕ) : Finset S8192x8192.Idx :=
  Finset.univ.filter fun i => 128 * b ≤ (i 0).val ∧ (i 0).val < 128 * b + 128 ∧ 128 * b ≤ (i 1).val ∧ (i 1).val < 128 * b + 128

theorem mem_blkSet (b : ℕ) (i : S8192x8192.Idx) :
    i ∈ blkSet b ↔ 128 * b ≤ (i 0).val ∧ (i 0).val < 128 * b + 128 ∧ 128 * b ≤ (i 1).val ∧ (i 1).val < 128 * b + 128 := by
  unfold blkSet; rw [Finset.mem_filter]; simp only [Finset.mem_univ, true_and]

/-- A unit-stride 128 x 128 rectangle of the result array at offsets `(128 b, 128 b)` is diagonal block `b`. -/
theorem set_unit_blk (b : ℕ) (off : Fin 2 → Nat) (hoff : off = ![128 * b, 128 * b]) (inb : ∀ a, off a + S128x128.size a ≤ S8192x8192.size a) :
    ((View.whole (main_v3_scv : Ref sig .scVector)).slice (Rect.unit (s := S8192x8192) off S128x128.size inb)).set = blkSet b := by
  subst hoff
  rw [View.set_slice_whole]
  ext i
  rw [Rect.mem_set_unit, mem_blkSet]
  constructor
  · intro h
    have h0 := h (0 : Fin 2); have h1 := h (1 : Fin 2)
    exact ⟨h0.1, h0.2, h1.1, h1.2⟩
  · rintro ⟨a0, a1, b0, b1⟩ a
    match a with
    | ⟨0, _⟩ => exact ⟨a0, a1⟩
    | ⟨1, _⟩ => exact ⟨b0, b1⟩

theorem blkSet_disjoint (b b' : ℕ) (h : b ≠ b') : Disjoint (blkSet b) (blkSet b') := by
  rw [Finset.disjoint_left]; intro i hi hi'
  rw [mem_blkSet] at hi hi'; omega

/-- The block of the task on SparseCore `c`, vector subcore `i`, plane `r`. -/
abbrev blkOf (c i r : ℕ) : ℕ := 4 * i + 2 * c + r

/-- Everything off the 64 diagonal blocks. -/
def restSet : Finset S8192x8192.Idx := Finset.univ.filter fun i => (i 0).val / 128 ≠ (i 1).val / 128

theorem mem_restSet (i : S8192x8192.Idx) : i ∈ restSet ↔ (i 0).val / 128 ≠ (i 1).val / 128 := by
  unfold restSet; rw [Finset.mem_filter]; simp only [Finset.mem_univ, true_and]

/-! ## The launch memory's values -/

variable (m : (ℓ : Loc nD τ sig) → Buf (Elt F) ℓ)

section Vals
variable [FloatOps F]

/-- The fill value: the integer argument converted to a float. -/
def fillv (d : Dev nD) : Elt F .f32 := FloatOps.sitofp .f32 (m (aLoc d) (fun a => a.elim0))
/-- The fill vector @main builds: the fill value in each of its sixteen lanes. -/
def ffill (d : Dev nD) : Buf (Elt F) (fLoc d) := fun _ => fillv m d
end Vals

/-- The result array when the SparseCore call starts: the input, copied. -/
def y0 (d : Dev nD) : Buf (Elt F) (yLoc d) := m (xLoc d)
/-- and when it ends: the input with its diagonal at the fill value. -/
def yfin [FloatOps F] (d : Dev nD) : Buf (Elt F) (yLoc d) := Spec.diagSet (y0 m d) (fillv m d)

/-! ## The read shares of the fill vector -/

/-- SparseCore `c`'s share, and its vector subcore `i`'s. -/
abbrev tokC (c : ℕ) : PosShare TreeShare := Transfers.shareTokN fullShare c
abbrev tokT (c i : ℕ) : PosShare TreeShare := Transfers.shareTokN (tokC c) i

/-! ## What the handshakes carry -/

section Pay
variable [FloatOps F]

abbrev blkPts (d : Dev nD) (b : ℕ) (f : Buf (Elt F) (yLoc d)) : sProp 𝕄 := yLoc d ↦[blkSet b]{fullShare} f

/-- The one call: each SparseCore takes its share of the fill vector and its sixteen tasks' two blocks each; each task
    its own share and its two blocks; they come back with the blocks' diagonals overwritten. -/
def P : (K (F := F)).Pay (nD := nD) (Val := Elt F) (Name := ℕ) (U := UU) where
  st := fun q d c => match q with
    | 0 => iprop((fLoc d ↦{tokC c.val} ffill m d)
        ∗ bigSep (Finset.univ : Finset (Fin 16)) fun i => bigSep (Finset.univ : Finset (Fin 2)) fun r => blkPts d (blkOf c.val i.val r.val) (y0 m d))
  dn := fun q d c => match q with
    | 0 => iprop((fLoc d ↦{tokC c.val} ffill m d)
        ∗ bigSep (Finset.univ : Finset (Fin 16)) fun i => bigSep (Finset.univ : Finset (Fin 2)) fun r => blkPts d (blkOf c.val i.val r.val) (yfin m d))
  go := fun q d c i => match q with
    | 0 => iprop((fLoc d ↦{tokT c.val i.val} ffill m d)
        ∗ bigSep (Finset.univ : Finset (Fin 2)) fun r => blkPts d (blkOf c.val i.val r.val) (y0 m d))
  td := fun q d c i => match q with
    | 0 => iprop((fLoc d ↦{tokT c.val i.val} ffill m d)
        ∗ bigSep (Finset.univ : Finset (Fin 2)) fun r => blkPts d (blkOf c.val i.val r.val) (yfin m d))
  x := fun _ _ => iprop(emp)

instance P_storable : (P (F := F) m).IsStorable where
  st q d c := match q with
    | 0 => by unfold P; dsimp only; infer_instance
  dn q d c := match q with
    | 0 => by unfold P; dsimp only; infer_instance
  go q d c i := match q with
    | 0 => by unfold P; dsimp only; infer_instance
  td q d c i := match q with
    | 0 => by unfold P; dsimp only; infer_instance

/-- What @main leaves the claim: both arguments as launched, the result array at the input with its diagonal filled. -/
abbrev FIN (d : Dev nD) : sProp 𝕄 :=
  iprop((xLoc d ↦{fullShare} m (xLoc d)) ∗ (aLoc d ↦{fullShare} m (aLoc d)) ∗ yLoc d ↦{fullShare} yfin m d)

end Pay

end Cert.Proof.KB

end
-- ==== Proof.ViewsB.lean ====
/-
  What one task leaves in its two diagonal blocks, as pure functions: the two planes of the task's scratch as views
  of one buffer that share no element; the sixteen indexed stores, eight per plane, each writing sixteen consecutive
  diagonal entries of a plane with one value; a plane read back after them is the fetched block with its whole
  diagonal at that value; written back onto the block it was fetched from, the block is the input's with its
  diagonal overwritten.
-/
import proofs.«201282_g70549132804296_cont_9to1_m_715_22_alg».proof.Proof.PayB
import proofs.«201282_g70549132804296_cont_9to1_m_715_22_alg».proof.Proof.LibStoreIdxConst

noncomputable section

namespace Cert.Proof.KB

open Cert.Kernel Cert.Kernel.Gen

open Idealize.ShloMosaic
open Idealize.ShloMosaic.SparseCore (S V T)

variable {F : FTy → Type}

local notation "yW" => (Memref.whole Cert.Kernel.main_v3_scv : Memref Cert.Kernel.sig Kind.scVector Space.hbm Cert.Kernel.S8192x8192 EltTy.f32)
local notation "s0W" => (Memref.whole Cert.Kernel.cc1_scratch0 : Memref Cert.Kernel.sig Kind.scVector Space.vmem Cert.Kernel.S16 EltTy.f32)
local notation "s1W" => (Memref.whole Cert.Kernel.cc1_scratch1 : Memref Cert.Kernel.sig Kind.scVector Space.vmem Cert.Kernel.S2x128x128 EltTy.f32)
local notation "fW" => (Memref.whole Cert.Kernel.main_v2_scv : Memref Cert.Kernel.sig Kind.scVector Space.hbm Cert.Kernel.S16 EltTy.f32)

/-! ## The planes -/

abbrev pl0 : Memref sig .scVector .vmem S128x128 .f32 :=
  ((s1W).slice (Rect.unit (s := S2x128x128) ![0, 0, 0] S1x128x128.size inb_S2x128x128_S1x128x128_0_0_0) (fun _ => rfl)).squeeze S128x128 squeezes_S1x128x128_S128x128
abbrev pl1 : Memref sig .scVector .vmem S128x128 .f32 :=
  ((s1W).slice (Rect.unit (s := S2x128x128) ![1, 0, 0] S1x128x128.size inb_S2x128x128_S1x128x128_1_0_0) (fun _ => rfl)).squeeze S128x128 squeezes_S1x128x128_S128x128

/-- The contents of a task's big scratch. -/
abbrev Scr (F : FTy → Type) : Type := (cc1_scratch1 : Ref sig .scVector).ty.Contents (Elt F)

theorem set_pl0 : pl0.view.set = (Rect.unit (s := S2x128x128) ![0, 0, 0] S1x128x128.size inb_S2x128x128_S1x128x128_0_0_0).set := by
  show (((View.whole (cc1_scratch1 : Ref sig .scVector)).slice _).reshape S128x128 _).set = _
  rw [View.set_reshape, View.set_slice_whole]
theorem set_pl1 : pl1.view.set = (Rect.unit (s := S2x128x128) ![1, 0, 0] S1x128x128.size inb_S2x128x128_S1x128x128_1_0_0).set := by
  show (((View.whole (cc1_scratch1 : Ref sig .scVector)).slice _).reshape S128x128 _).set = _
  rw [View.set_reshape, View.set_slice_whole]

/-- The two planes share no element: they differ on the leading axis. -/
theorem pl_disjoint : Disjoint pl0.view.set pl1.view.set := by
  rw [set_pl0, set_pl1]
  exact Rect.unit_disjoint (0 : Fin 3) (Or.inl (by decide))

/-- An access at the whole rectangle goes through the plane's own elements, -/
theorem access_emb0 (x : S128x128.Idx) : (pl0.access (Rect.whole S128x128)).emb x = pl0.view.emb x := by
  show pl0.view.emb ((Rect.whole S128x128).emb x) = _
  rw [Rect.emb_whole_apply]

theorem access_setOn_univ0 : (pl0.access (Rect.whole S128x128)).setOn Finset.univ = pl0.view.set := by
  show (pl0.view.slice (Rect.whole S128x128)).set = _
  rw [View.set_slice, Rect.set_whole]; rfl

/-- reads what the plane reads, -/
theorem read_access0 (W : Scr F) : (pl0.access (Rect.whole S128x128)).read (Elt F) W = pl0.view.read (Elt F) W := by
  funext x
  rw [View.read_apply, View.read_apply, access_emb0]

theorem readAt_whole0 (W : Scr F) : pl0.view.readAt (Elt F) (LoadRect.whole S128x128) W = pl0.view.read (Elt F) W :=
  read_access0 W

/-- and a full write through it is read back through the plane as written. -/
theorem read_write_access0 (W : Scr F) (w : S128x128.Idx → Elt F .f32) :
    pl0.view.read (Elt F) ((pl0.access (Rect.whole S128x128)).write (Elt F) W w Finset.univ) = w := by
  rw [← read_access0, View.read_write_univ]

/-- An access at the whole rectangle goes through the plane's own elements, -/
theorem access_emb1 (x : S128x128.Idx) : (pl1.access (Rect.whole S128x128)).emb x = pl1.view.emb x := by
  show pl1.view.emb ((Rect.whole S128x128).emb x) = _
  rw [Rect.emb_whole_apply]

theorem access_setOn_univ1 : (pl1.access (Rect.whole S128x128)).setOn Finset.univ = pl1.view.set := by
  show (pl1.view.slice (Rect.whole S128x128)).set = _
  rw [View.set_slice, Rect.set_whole]; rfl

/-- reads what the plane reads, -/
theorem read_access1 (W : Scr F) : (pl1.access (Rect.whole S128x128)).read (Elt F) W = pl1.view.read (Elt F) W := by
  funext x
  rw [View.read_apply, View.read_apply, access_emb1]

theorem readAt_whole1 (W : Scr F) : pl1.view.readAt (Elt F) (LoadRect.whole S128x128) W = pl1.view.read (Elt F) W :=
  read_access1 W

/-- and a full write through it is read back through the plane as written. -/
theorem read_write_access1 (W : Scr F) (w : S128x128.Idx → Elt F .f32) :
    pl1.view.read (Elt F) ((pl1.access (Rect.whole S128x128)).write (Elt F) W w Finset.univ) = w := by
  rw [← read_access1, View.read_write_univ]

/-- A full write through one plane is not seen through the other. -/
theorem read0_write_access1 (W : Scr F) (w : S128x128.Idx → Elt F .f32) :
    pl0.view.read (Elt F) ((pl1.access (Rect.whole S128x128)).write (Elt F) W w Finset.univ) = pl0.view.read (Elt F) W :=
  View.read_congr fun _ hi => View.write_of_not_mem _ _ _ (by
    rw [access_setOn_univ1]; exact Finset.disjoint_left.mp pl_disjoint hi)
theorem read1_write_access0 (W : Scr F) (w : S128x128.Idx → Elt F .f32) :
    pl1.view.read (Elt F) ((pl0.access (Rect.whole S128x128)).write (Elt F) W w Finset.univ) = pl1.view.read (Elt F) W :=
  View.read_congr fun _ hi => View.write_of_not_mem _ _ _ (by
    rw [access_setOn_univ0]; exact Finset.disjoint_right.mp pl_disjoint hi)
theorem read0_write1 (W : Scr F) (w : S128x128.Idx → Elt F .f32) :
    pl0.view.read (Elt F) (pl1.view.write (Elt F) W w Finset.univ) = pl0.view.read (Elt F) W :=
  View.read_congr fun _ hi => View.write_of_not_mem _ _ _ (by
    rw [View.setOn_univ]; exact Finset.disjoint_left.mp pl_disjoint hi)

/-! ## The index vectors -/

/-- Lane `k` names the index `k + off`. -/
abbrev Ioff (off : ℕ) : IVec S16 32 :=
  addi (iota .scVector S16 32 [0] iota_S16_d0_w32_scVector) (broadcast S16 (BitVec.ofNat 32 off))

theorem Ioff_toNat (off : ℕ) (h : off + 16 ≤ 128) (x : S16.Idx) : (Ioff off x).toNat = (x 0).val + off := by
  have hx : (x 0).val < 16 := (x 0).isLt
  show (BitVec.ofNat 32 (0 * S16.size 0 + (x 0).val) + BitVec.ofNat 32 off).toNat = _
  rw [BitVec.toNat_add, BitVec.toNat_ofNat, BitVec.toNat_ofNat]
  show ((0 * 16 + (x 0).val) % 2 ^ 32 + off % 2 ^ 32) % 2 ^ 32 = (x 0).val + off
  omega

theorem Ioff_inb (off : ℕ) (h : off + 16 ≤ 128) : ∀ a x, ((![Ioff off, Ioff off] : Fin 2 → IVec S16 32) a x).toNat < S128x128.size a := by
  intro a x
  have hx : (x 0).val < 16 := (x 0).isLt
  match a with
  | ⟨0, _⟩ => show (Ioff off x).toNat < 128; rw [Ioff_toNat off h]; omega
  | ⟨1, _⟩ => show (Ioff off x).toNat < 128; rw [Ioff_toNat off h]; omega

/-- Which elements a store at `Ioff off` names: the sixteen diagonal entries from `off` on. -/
theorem named_iff (off : ℕ) (h : off + 16 ≤ 128) (x : S128x128.Idx) :
    (∃ k : Fin ((![16] : Fin 1 → Nat) 0), ∀ a, (x a).val = ((![Ioff off, Ioff off] : Fin 2 → IVec S16 32) a (Shape.ofLane k)).toNat)
      ↔ ((x 0).val = (x 1).val ∧ off ≤ (x 0).val ∧ (x 0).val < off + 16) := by
  have hl : ∀ k : Fin ((![16] : Fin 1 → Nat) 0), ((Shape.ofLane k : S16.Idx) 0).val = k.val := fun k => rfl
  constructor
  · rintro ⟨k, hk⟩
    have hk16 : k.val < 16 := k.isLt
    have h0 := hk (0 : Fin 2); have h1 := hk (1 : Fin 2)
    have e0 : (x 0).val = k.val + off := h0.trans ((Ioff_toNat off h _).trans (by rw [hl]))
    have e1 : (x 1).val = k.val + off := h1.trans ((Ioff_toNat off h _).trans (by rw [hl]))
    omega
  · rintro ⟨hd, hlo, hhi⟩
    have hk : (x 0).val - off < 16 := by omega
    refine ⟨⟨(x 0).val - off, hk⟩, fun a => ?_⟩
    have e : (Ioff off (Shape.ofLane (⟨(x 0).val - off, hk⟩ : Fin ((![16] : Fin 1 → Nat) 0)))).toNat = (x 0).val := by
      rw [Ioff_toNat off h, hl]; show (x 0).val - off + off = (x 0).val; omega
    match a with
    | ⟨0, _⟩ => exact e.symm
    | ⟨1, _⟩ => exact (hd.symm.trans e.symm)

section Tower
variable [FloatOps F]

/-- One indexed store of the vector `vv` through plane 0 (plane 1), at the indices `I`. -/
def step0 (vv : Vec F S16 .f32) (I : IVec S16 32) (h : ∀ a x, ((![I, I] : Fin 2 → IVec S16 32) a x).toNat < S128x128.size a) (W : Scr F) : Scr F :=
  View.write (Elt F) (pl0.access (Rect.whole S128x128)) W
    (storeIdx (pl0.view.readAt (Elt F) (LoadRect.whole S128x128) W) ![I, I] vv (fun _ => 1#1) false h) Finset.univ
def step1 (vv : Vec F S16 .f32) (I : IVec S16 32) (h : ∀ a x, ((![I, I] : Fin 2 → IVec S16 32) a x).toNat < S128x128.size a) (W : Scr F) : Scr F :=
  View.write (Elt F) (pl1.access (Rect.whole S128x128)) W
    (storeIdx (pl1.view.readAt (Elt F) (LoadRect.whole S128x128) W) ![I, I] vv (fun _ => 1#1) false h) Finset.univ

theorem read0_step0 (vv) (I) (h) (W : Scr F) :
    pl0.view.read (Elt F) (step0 vv I h W) = storeIdx (pl0.view.read (Elt F) W) ![I, I] vv (fun _ => 1#1) false h := by
  unfold step0; rw [read_write_access0, readAt_whole0]
theorem read1_step0 (vv) (I) (h) (W : Scr F) : pl1.view.read (Elt F) (step0 vv I h W) = pl1.view.read (Elt F) W := by
  unfold step0; rw [read1_write_access0]
theorem read1_step1 (vv) (I) (h) (W : Scr F) :
    pl1.view.read (Elt F) (step1 vv I h W) = storeIdx (pl1.view.read (Elt F) W) ![I, I] vv (fun _ => 1#1) false h := by
  unfold step1; rw [read_write_access1, readAt_whole1]
theorem read0_step1 (vv) (I) (h) (W : Scr F) : pl0.view.read (Elt F) (step1 vv I h W) = pl0.view.read (Elt F) W := by
  unfold step1; rw [read0_write_access1]

/-- The scratch after both fetches, -/
def Winit (f1 : Scr F) (d1 d2 : S128x128.Idx → Elt F .f32) : Scr F :=
  View.write (Elt F) pl1.view (View.write (Elt F) pl0.view f1 d1 Finset.univ) d2 Finset.univ
/-- after the eight stores through plane 0, -/
def W8 (vv : Vec F S16 .f32) (f1 : Scr F) (d1 d2 : S128x128.Idx → Elt F .f32) : Scr F :=
  step0 vv (Ioff 112) (Ioff_inb 112 (by decide)) (step0 vv (Ioff 96) (Ioff_inb 96 (by decide)) (step0 vv (Ioff 80) (Ioff_inb 80 (by decide)) (step0 vv (Ioff 64) (Ioff_inb 64 (by decide)) (step0 vv (Ioff 48) (Ioff_inb 48 (by decide)) (step0 vv (Ioff 32) (Ioff_inb 32 (by decide)) (step0 vv (Ioff 16) (Ioff_inb 16 (by decide)) (step0 vv (Ioff 0) (Ioff_inb 0 (by decide)) (Winit f1 d1 d2))))))))
/-- and after the eight through plane 1. -/
def W16 (vv : Vec F S16 .f32) (f1 : Scr F) (d1 d2 : S128x128.Idx → Elt F .f32) : Scr F :=
  step1 vv (Ioff 112) (Ioff_inb 112 (by decide)) (step1 vv (Ioff 96) (Ioff_inb 96 (by decide)) (step1 vv (Ioff 80) (Ioff_inb 80 (by decide)) (step1 vv (Ioff 64) (Ioff_inb 64 (by decide)) (step1 vv (Ioff 48) (Ioff_inb 48 (by decide)) (step1 vv (Ioff 32) (Ioff_inb 32 (by decide)) (step1 vv (Ioff 16) (Ioff_inb 16 (by decide)) (step1 vv (Ioff 0) (Ioff_inb 0 (by decide)) (W8 vv f1 d1 d2))))))))

/-- One store of a constant vector at an index: the named diagonal stretch at the constant, the rest unchanged. -/
theorem store_apply (p : Vec F S128x128 .f32) (vv : Vec F S16 .f32) (c : Elt F .f32) (hv : ∀ x, vv x = c) (off : ℕ) (h : off + 16 ≤ 128)
    (x : S128x128.Idx) :
    storeIdx p ![Ioff off, Ioff off] vv (fun _ => 1#1) false (Ioff_inb off h) x
      = if ((x 0).val = (x 1).val ∧ off ≤ (x 0).val ∧ (x 0).val < off + 16) then c else p x := by
  refine (LibStoreIdxConst.storeIdx_const_apply p ![Ioff off, Ioff off] vv (fun _ => 1#1) (Ioff_inb off h) c hv (fun _ => rfl) x).trans ?_
  simp only [named_iff off h x]

/-- The eight stores at 0, 16, …, 112 put the constant on the whole diagonal of a plane. -/
theorem stores_apply (p : Vec F S128x128 .f32) (vv : Vec F S16 .f32) (c : Elt F .f32) (hv : ∀ x, vv x = c) (x : S128x128.Idx) :
    storeIdx (storeIdx (storeIdx (storeIdx (storeIdx (storeIdx (storeIdx (storeIdx (p) ![Ioff 0, Ioff 0] vv (fun _ => 1#1) false (Ioff_inb 0 (by decide))) ![Ioff 16, Ioff 16] vv (fun _ => 1#1) false (Ioff_inb 16 (by decide))) ![Ioff 32, Ioff 32] vv (fun _ => 1#1) false (Ioff_inb 32 (by decide))) ![Ioff 48, Ioff 48] vv (fun _ => 1#1) false (Ioff_inb 48 (by decide))) ![Ioff 64, Ioff 64] vv (fun _ => 1#1) false (Ioff_inb 64 (by decide))) ![Ioff 80, Ioff 80] vv (fun _ => 1#1) false (Ioff_inb 80 (by decide))) ![Ioff 96, Ioff 96] vv (fun _ => 1#1) false (Ioff_inb 96 (by decide))) ![Ioff 112, Ioff 112] vv (fun _ => 1#1) false (Ioff_inb 112 (by decide)) x
      = if (x 0).val = (x 1).val then c else p x := by
  have hx : (x 0).val < 128 := (x 0).isLt
  rw [store_apply _ vv c hv 112 (by decide), store_apply _ vv c hv 96 (by decide), store_apply _ vv c hv 80 (by decide),
    store_apply _ vv c hv 64 (by decide), store_apply _ vv c hv 48 (by decide), store_apply _ vv c hv 32 (by decide),
    store_apply _ vv c hv 16 (by decide), store_apply _ vv c hv 0 (by decide)]
  by_cases hd : (x 0).val = (x 1).val
  · rw [if_pos hd]
    have h8 : (x 0).val / 16 < 8 := by omega
    have hq : 16 * ((x 0).val / 16) ≤ (x 0).val ∧ (x 0).val < 16 * ((x 0).val / 16) + 16 := by omega
    generalize (x 0).val / 16 = j at h8 hq
    interval_cases j <;> simp only [hd, true_and] at * <;> (split_ifs <;> first | rfl | omega)
  · rw [if_neg hd]
    simp only [hd, false_and, if_false]

/-- What plane 0 holds after a store through plane 0 (given what it held before), -/
theorem read0_step0' (vv : Vec F S16 .f32) (I) (h) (W : Scr F) (p : Vec F S128x128 .f32) (hp : pl0.view.read (Elt F) W = p) :
    pl0.view.read (Elt F) (step0 vv I h W) = storeIdx p ![I, I] vv (fun _ => 1#1) false h := by
  rw [read0_step0, hp]
theorem read1_step1' (vv : Vec F S16 .f32) (I) (h) (W : Scr F) (p : Vec F S128x128 .f32) (hp : pl1.view.read (Elt F) W = p) :
    pl1.view.read (Elt F) (step1 vv I h W) = storeIdx p ![I, I] vv (fun _ => 1#1) false h := by
  rw [read1_step1, hp]

theorem read0_Winit (f1 : Scr F) (d1 d2 : S128x128.Idx → Elt F .f32) : pl0.view.read (Elt F) (Winit f1 d1 d2) = d1 := by
  unfold Winit; rw [read0_write1, View.read_write_univ]
theorem read1_Winit (f1 : Scr F) (d1 d2 : S128x128.Idx → Elt F .f32) : pl1.view.read (Elt F) (Winit f1 d1 d2) = d2 := by
  unfold Winit; rw [View.read_write_univ]

theorem read0_W8 (vv : Vec F S16 .f32) (f1 : Scr F) (d1 d2 : S128x128.Idx → Elt F .f32) :
    pl0.view.read (Elt F) (W8 vv f1 d1 d2) = storeIdx (storeIdx (storeIdx (storeIdx (storeIdx (storeIdx (storeIdx (storeIdx (d1) ![Ioff 0, Ioff 0] vv (fun _ => 1#1) false (Ioff_inb 0 (by decide))) ![Ioff 16, Ioff 16] vv (fun _ => 1#1) false (Ioff_inb 16 (by decide))) ![Ioff 32, Ioff 32] vv (fun _ => 1#1) false (Ioff_inb 32 (by decide))) ![Ioff 48, Ioff 48] vv (fun _ => 1#1) false (Ioff_inb 48 (by decide))) ![Ioff 64, Ioff 64] vv (fun _ => 1#1) false (Ioff_inb 64 (by decide))) ![Ioff 80, Ioff 80] vv (fun _ => 1#1) false (Ioff_inb 80 (by decide))) ![Ioff 96, Ioff 96] vv (fun _ => 1#1) false (Ioff_inb 96 (by decide))) ![Ioff 112, Ioff 112] vv (fun _ => 1#1) false (Ioff_inb 112 (by decide)) :=
  read0_step0' vv _ _ _ _ (read0_step0' vv _ _ _ _ (read0_step0' vv _ _ _ _ (read0_step0' vv _ _ _ _ (read0_step0' vv _ _ _ _ (read0_step0' vv _ _ _ _ (read0_step0' vv _ _ _ _ (read0_step0' vv _ _ _ _ (read0_Winit f1 d1 d2))))))))
theorem read1_W8 (vv : Vec F S16 .f32) (f1 : Scr F) (d1 d2 : S128x128.Idx → Elt F .f32) :
    pl1.view.read (Elt F) (W8 vv f1 d1 d2) = d2 :=
  (read1_step0 vv _ _ _).trans ((read1_step0 vv _ _ _).trans ((read1_step0 vv _ _ _).trans ((read1_step0 vv _ _ _).trans ((read1_step0 vv _ _ _).trans ((read1_step0 vv _ _ _).trans ((read1_step0 vv _ _ _).trans ((read1_step0 vv _ _ _).trans (read1_Winit f1 d1 d2))))))))
theorem read0_W16_W8 (vv : Vec F S16 .f32) (f1 : Scr F) (d1 d2 : S128x128.Idx → Elt F .f32) :
    pl0.view.read (Elt F) (W16 vv f1 d1 d2) = pl0.view.read (Elt F) (W8 vv f1 d1 d2) :=
  (read0_step1 vv _ _ _).trans ((read0_step1 vv _ _ _).trans ((read0_step1 vv _ _ _).trans ((read0_step1 vv _ _ _).trans ((read0_step1 vv _ _ _).trans ((read0_step1 vv _ _ _).trans ((read0_step1 vv _ _ _).trans ((read0_step1 vv _ _ _).trans (rfl))))))))
theorem read1_W16_W8 (vv : Vec F S16 .f32) (f1 : Scr F) (d1 d2 : S128x128.Idx → Elt F .f32) :
    pl1.view.read (Elt F) (W16 vv f1 d1 d2) = storeIdx (storeIdx (storeIdx (storeIdx (storeIdx (storeIdx (storeIdx (storeIdx (d2) ![Ioff 0, Ioff 0] vv (fun _ => 1#1) false (Ioff_inb 0 (by decide))) ![Ioff 16, Ioff 16] vv (fun _ => 1#1) false (Ioff_inb 16 (by decide))) ![Ioff 32, Ioff 32] vv (fun _ => 1#1) false (Ioff_inb 32 (by decide))) ![Ioff 48, Ioff 48] vv (fun _ => 1#1) false (Ioff_inb 48 (by decide))) ![Ioff 64, Ioff 64] vv (fun _ => 1#1) false (Ioff_inb 64 (by decide))) ![Ioff 80, Ioff 80] vv (fun _ => 1#1) false (Ioff_inb 80 (by decide))) ![Ioff 96, Ioff 96] vv (fun _ => 1#1) false (Ioff_inb 96 (by decide))) ![Ioff 112, Ioff 112] vv (fun _ => 1#1) false (Ioff_inb 112 (by decide)) :=
  read1_step1' vv _ _ _ _ (read1_step1' vv _ _ _ _ (read1_step1' vv _ _ _ _ (read1_step1' vv _ _ _ _ (read1_step1' vv _ _ _ _ (read1_step1' vv _ _ _ _ (read1_step1' vv _ _ _ _ (read1_step1' vv _ _ _ _ (read1_W8 vv f1 d1 d2))))))))

theorem read0_W16 (vv : Vec F S16 .f32) (c : Elt F .f32) (hv : ∀ x, vv x = c) (f1 : Scr F) (d1 d2 : S128x128.Idx → Elt F .f32) (x : S128x128.Idx) :
    pl0.view.read (Elt F) (W16 vv f1 d1 d2) x = if (x 0).val = (x 1).val then c else d1 x := by
  rw [read0_W16_W8, read0_W8]; exact stores_apply d1 vv c hv x

theorem read1_W16 (vv : Vec F S16 .f32) (c : Elt F .f32) (hv : ∀ x, vv x = c) (f1 : Scr F) (d1 d2 : S128x128.Idx → Elt F .f32) (x : S128x128.Idx) :
    pl1.view.read (Elt F) (W16 vv f1 d1 d2) x = if (x 0).val = (x 1).val then c else d2 x := by
  rw [read1_W16_W8]; exact stores_apply d2 vv c hv x

end Tower

/-! ## The fill vector as loaded, and a block written back -/

section Out
variable [FloatOps F]

/-- The vector the stores write: the small scratch read back whole after the fill vector was copied into it. -/
abbrev vvOf (ffill : (main_v2_scv : Ref sig .scVector).ty.Contents (Elt F)) (f0 : (cc1_scratch0 : Ref sig .scVector).ty.Contents (Elt F)) :
    Vec F S16 .f32 :=
  View.readAt (Elt F) (s0W).view (Rect.unit (s := S16) ![0] S16.size inb_S16_S16_0).toLoadRect
    (View.write (Elt F) (s0W).view f0 (ReadAs.same.apply (View.read (Elt F) (fW).view ffill)) Finset.univ)

theorem vvOf_eq (ffill : (main_v2_scv : Ref sig .scVector).ty.Contents (Elt F)) (f0 : (cc1_scratch0 : Ref sig .scVector).ty.Contents (Elt F)) (x : S16.Idx) :
    vvOf ffill f0 x = ffill x := by
  show View.readAt (Elt F) (View.whole (cc1_scratch0 : Ref sig .scVector)) (Rect.unit (s := S16) ![0] S16.size inb_S16_S16_0).toLoadRect
      (View.write (Elt F) (View.whole (cc1_scratch0 : Ref sig .scVector)) f0
        (ReadAs.same.apply (View.read (Elt F) (View.whole (main_v2_scv : Ref sig .scVector)) ffill)) Finset.univ) x = ffill x
  rw [View.write_whole_univ, ReadAs.apply_same, View.read_whole]
  exact congrFun (Memref.readAt_unit_zero (Elt F) (cc1_scratch0 : Ref sig .scVector) (by funext a; fin_cases a; rfl) inb_S16_S16_0 _) x

/-- A 128 x 128 plane whose off-diagonal entries are those fetched from diagonal block `b` of `y0` and whose diagonal
    entries are all `c`, written back whole onto that block: on the block the array is `y0` with its diagonal at `c`. -/
theorem block_value (b : ℕ) (off : Fin 2 → Nat) (hoff : off = ![128 * b, 128 * b]) (inb : ∀ a, off a + S128x128.size a ≤ S8192x8192.size a)
    (y0 : (main_v3_scv : Ref sig .scVector).ty.Contents (Elt F)) (g : S128x128.Idx → Elt F .f32) (c : Elt F .f32)
    (hg : ∀ x, g x = if (x 0).val = (x 1).val then c
      else View.read (Elt F) ((yW).slice (Rect.unit (s := S8192x8192) off S128x128.size inb) (fun _ => rfl)).view y0 x) :
    ∀ i ∈ ((yW).slice (Rect.unit (s := S8192x8192) off S128x128.size inb) (fun _ => rfl)).view.set,
      (View.writes ((yW).slice (Rect.unit (s := S8192x8192) off S128x128.size inb) (fun _ => rfl)).view (Elt F) y0
        [⟨Rect.whole (Rect.unit (s := S8192x8192) off S128x128.size inb).shape, g⟩]) i = Spec.diagSet y0 c i := by
  subst hoff
  intro i hi
  obtain ⟨x, -, rfl⟩ := Finset.mem_map.mp hi
  rw [View.writes_singleton]
  have e : ((yW).slice (Rect.unit (s := S8192x8192) ![128 * b, 128 * b] S128x128.size inb) (fun _ => rfl)).view.emb x
      = ((((yW).slice (Rect.unit (s := S8192x8192) ![128 * b, 128 * b] S128x128.size inb) (fun _ => rfl)).view).slice
          (Rect.whole (Rect.unit (s := S8192x8192) ![128 * b, 128 * b] S128x128.size inb).shape)).emb x := by
    show _ = ((yW).slice (Rect.unit (s := S8192x8192) ![128 * b, 128 * b] S128x128.size inb) (fun _ => rfl)).view.emb ((Rect.whole _).emb x)
    rw [Rect.emb_whole_apply]
  rw [e, View.write_emb_of_mem _ _ (Finset.mem_univ _), ← e, hg x]
  have h0 : ((((yW).slice (Rect.unit (s := S8192x8192) ![128 * b, 128 * b] S128x128.size inb) (fun _ => rfl)).view.emb x) 0).val = 128 * b + 1 * (x 0).val := rfl
  have h1 : ((((yW).slice (Rect.unit (s := S8192x8192) ![128 * b, 128 * b] S128x128.size inb) (fun _ => rfl)).view.emb x) 1).val = 128 * b + 1 * (x 1).val := rfl
  unfold Spec.diagSet
  by_cases hx : (x 0).val = (x 1).val
  · rw [if_pos hx, if_pos (by rw [h0, h1, hx])]; rfl
  · rw [if_neg hx, if_neg (by rw [h0, h1]; omega), View.read_apply]; rfl

end Out

end Cert.Proof.KB

end
-- ==== Proof.TileB.lean ====
/-
  One vector subcore's task, at a symbolic place: the fill vector fetched into its small scratch; the task's two
  diagonal 128 x 128 blocks fetched into the two planes of its big scratch (both copies on one semaphore, drained by
  two waits); the sixteen indexed stores, each writing sixteen diagonal entries of a plane with the fill vector's
  lanes; the two planes written back onto the blocks they came from. The task hands back its two blocks holding
  the input with the diagonal at the fill value, and its share of the fill vector.
-/
import proofs.«201282_g70549132804296_cont_9to1_m_715_22_alg».proof.Proof.ViewsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fW" => (Memref.whole Cert.Kernel.main_v2_scv : Memref Cert.Kernel.sig Kind.scVector Space.hbm Cert.Kernel.S16 EltTy.f32)
local notation "yW" => (Memref.whole Cert.Kernel.main_v3_scv : Memref Cert.Kernel.sig Kind.scVector Space.hbm Cert.Kernel.S8192x8192 EltTy.f32)
local notation "s0W" => (Memref.whole Cert.Kernel.cc1_scratch0 : Memref Cert.Kernel.sig Kind.scVector Space.vmem Cert.Kernel.S16 EltTy.f32)
local notation "s1W" => (Memref.whole Cert.Kernel.cc1_scratch1 : Memref Cert.Kernel.sig Kind.scVector Space.vmem Cert.Kernel.S2x128x128 EltTy.f32)

section Tile

variable [FloatOps F] (d : Dev nD) (L : grid1.Coords)

abbrev cV (L : grid1.Coords) : Fin τ.nSC := (L 0).castLE hcore1
abbrev jV (L : grid1.Coords) : Fin τ.nSub := (L 1).castLE hsub1

/-- The task's two diagonal blocks of the result array, as the fetches slice them. -/
abbrev bIn0 (L : grid1.Coords) : Memref sig .scVector .hbm S128x128 .f32 :=
  (yW).slice (Rect.unit (s := S8192x8192) (k1_off1 L 0#32) S128x128.size (k1_off1_inb L 0)) (fun _ => rfl)
abbrev bIn1 (L : grid1.Coords) : Memref sig .scVector .hbm S128x128 .f32 :=
  (yW).slice (Rect.unit (s := S8192x8192) (k1_off1 L 128#32) S128x128.size (k1_off1_inb L 1)) (fun _ => rfl)

abbrev cAcell (d : Dev nD) (c : Fin τ.nSC) (i : Fin τ.nSub) : GSem nD τ sig := (V d c i, .dma cc1_scratch2.sem)
abbrev cBcell (d : Dev nD) (c : Fin τ.nSC) (i : Fin τ.nSub) : GSem nD τ sig := (V d c i, .dma cc1_scoped0.sem)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc1_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped0.sem : SemLoc sig).isScoped .scVector = true; decide⟩⟩)]

omit [FloatOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

omit [FloatOps F] in
/-- The fetches' offsets in closed form: block `4 s + 2 c + r` of the diagonal. -/
theorem off_bIn (r : Fin 2) : k1_off1 L (BitVec.ofNat 32 (128 * r.val)) = ![128 * blkOf (L 0).val (L 1).val r.val, 128 * blkOf (L 0).val (L 1).val r.val] := by
  rw [k1_off1_eq L r]; funext a; fin_cases a <;> simp [blkOf] <;> omega
omit [FloatOps F] in
theorem set_bIn0 : (bIn0 L).view.set = blkSet (blkOf (L 0).val (L 1).val 0) :=
  set_unit_blk _ _ (off_bIn L 0) _
omit [FloatOps F] in
theorem set_bIn1 : (bIn1 L).view.set = blkSet (blkOf (L 0).val (L 1).val 1) :=
  set_unit_blk _ _ (off_bIn L 1) _
omit [FloatOps F] in
theorem pts_b0 (q : PosShare TreeShare) (f : Buf (Elt F) (yLoc d)) :
    ((bIn0 L).view.loc (V d (cV L) (jV L)) ↦[(bIn0 L).view.set]{q} f : sProp 𝕄) = yLoc d ↦[blkSet (blkOf (L 0).val (L 1).val 0)]{q} f := by
  rw [set_bIn0]
omit [FloatOps F] in
theorem pts_b1 (q : PosShare TreeShare) (f : Buf (Elt F) (yLoc d)) :
    ((bIn1 L).view.loc (V d (cV L) (jV L)) ↦[(bIn1 L).view.set]{q} f : sProp 𝕄) = yLoc d ↦[blkSet (blkOf (L 0).val (L 1).val 1)]{q} f := by
  rw [set_bIn1]
omit [FloatOps F] in
theorem pts_f (q : PosShare TreeShare) (f : Buf (Elt F) (fLoc d)) :
    ((fW).view.loc (V d (cV L) (jV L)) ↦{q} f : sProp 𝕄) = fLoc d ↦{q} f := rfl
omit [FloatOps F] in
theorem pts_s0 (f : Buf (Elt F) ((V d (cV L) (jV L)).loc cc1_scratch0)) :
    ((s0W).view.loc (V d (cV L) (jV L)) ↦{fullShare} f : sProp 𝕄) = (V d (cV L) (jV L)).loc cc1_scratch0 ↦{fullShare} f := rfl
omit [FloatOps F] in
theorem pts_s1 (f : Buf (Elt F) ((V d (cV L) (jV L)).loc cc1_scratch1)) :
    ((s1W).view.loc (V d (cV L) (jV L)) ↦{fullShare} f : sProp 𝕄) = (V d (cV L) (jV L)).loc cc1_scratch1 ↦{fullShare} f := rfl

set_option maxRecDepth 65536 in
/-- The task on vector subcore `(L 0, L 1)` of device `d`. -/
theorem tile_body (hF : (K (F := F)).Facts) (q : PosShare TreeShare) (O : CellTallies nD τ sig (HIx 1)) (W : Waits sig (HIx 1)) (hO : ∀ g, O g none = 0)
    (ffill : Buf (Elt F) (fLoc d)) (c : Elt F .f32) (hv : ∀ x, ffill x = c) (y0 : Buf (Elt F) (yLoc d))
    (_plan : Transfers.BatchOf (V d (cV L) (jV L)) (SemLoc.dma (sig := sig) cc1_scratch2.sem) 2 (windows := true)) :
    (iprop(levAts (K (F := F)).L (K (F := F)).lev
        ∗ ((fLoc d ↦{q} ffill)
          ∗ (yLoc d ↦[blkSet (blkOf (L 0).val (L 1).val 0)]{fullShare} y0)
          ∗ (yLoc d ↦[blkSet (blkOf (L 0).val (L 1).val 1)]{fullShare} y0))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_body L fW (Memref.isWhole_whole _) yW (Memref.isWhole_whole _) yW (Memref.isWhole_whole _)
            s0W (Memref.isWhole_whole _) s1W (Memref.isWhole_whole _) cc1_scratch2 cc1_scoped0)
          fun _ => iprop(((fLoc d ↦{q} ffill)
              ∗ (yLoc d ↦[blkSet (blkOf (L 0).val (L 1).val 0)]{fullShare} Spec.diagSet y0 c)
              ∗ (yLoc d ↦[blkSet (blkOf (L 0).val (L 1).val 1)]{fullShare} Spec.diagSet y0 c))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_body_eq_skeleton]; unfold cc1_body_skel
  rw [(K (F := F)).scopedBufs_V hF d (cV L) (jV L), SparseCore.Cfg.scopedSems0_V (Val := Elt F) d (cV L) (jV L), ownSems0_V, ownBufs_V]
  iintro ⟨#Hlv, ⟨Hf, Hb0, Hb1⟩, ⟨⟨%f0, Hsa⟩, ⟨%f1, Hsb⟩, Hbufs⟩, ⟨HsemA, HsemB, Hsems⟩, HO⟩
  ihave Hmw := ((K (F := F)).mayWaits_none (thr := V d (cV L) (jV L)) hO) $$ Hlv
  ihave Hsa' := (Entails.of_eq (pts_s0 (F := F) d L _).symm) $$ Hsa
  ihave Hsb' := (Entails.of_eq (pts_s1 (F := F) d L _).symm) $$ Hsb
  ihave Hf' := (Entails.of_eq (pts_f (F := F) d L q _).symm) $$ Hf
  ihave Hb0' := (Entails.of_eq (pts_b0 (F := F) d L fullShare _).symm) $$ Hb0
  ihave Hb1' := (Entails.of_eq (pts_b1 (F := F) d L fullShare _).symm) $$ Hb1
  -- the fill vector's fetch, the two blocks' fetches and their waits, the load of the fill vector
  sl_exec (disch := first | exact View.dmaCredit_pos _ (by decide) | exact sig.dmaCredit_pos _ _ _ _ _ (by decide) | decide)
  -- the sixteen indexed stores: each is a load and a store of its whole plane
  iterate 16 (rw [SparseCore.vectorStoreIdx_bind (c := V d (cV L) (jV L))]; sl_exec (disch := first | exact View.dmaCredit_pos _ (by decide) | exact sig.dmaCredit_pos _ _ _ _ _ (by decide) | decide))
  -- (the two write-backs of the planes onto their blocks, and their waits, end the body)
  have hvv : ∀ x, vvOf (F := F) ffill f0 x = c := fun x => (vvOf_eq ffill f0 x).trans (hv x)
  -- the scratch after each store is one store over the scratch before it
  have e1 : tile_body.sl.Hsb'_w1 d L ffill y0 f0 f1 = step0 (vvOf ffill f0) (Ioff 0) (Ioff_inb 0 (by decide))
      (Winit f1 (ReadAs.same.apply (View.read (Elt F) (bIn0 L).view y0)) (ReadAs.same.apply (View.read (Elt F) (bIn1 L).view y0))) := rfl
  have e2 : tile_body.sl.Hsb'_w1_1 d L ffill y0 f0 f1 = step0 (vvOf ffill f0) (Ioff 16) (Ioff_inb 16 (by decide)) (tile_body.sl.Hsb'_w1 d L ffill y0 f0 f1) := rfl
  have e3 : tile_body.sl.Hsb'_w1_2 d L ffill y0 f0 f1 = step0 (vvOf ffill f0) (Ioff 32) (Ioff_inb 32 (by decide)) (tile_body.sl.Hsb'_w1_1 d L ffill y0 f0 f1) := rfl
  have e4 : tile_body.sl.Hsb'_w1_3 d L ffill y0 f0 f1 = step0 (vvOf ffill f0) (Ioff 48) (Ioff_inb 48 (by decide)) (tile_body.sl.Hsb'_w1_2 d L ffill y0 f0 f1) := rfl
  have e5 : tile_body.sl.Hsb'_w1_4 d L ffill y0 f0 f1 = step0 (vvOf ffill f0) (Ioff 64) (Ioff_inb 64 (by decide)) (tile_body.sl.Hsb'_w1_3 d L ffill y0 f0 f1) := rfl
  have e6 : tile_body.sl.Hsb'_w1_5 d L ffill y0 f0 f1 = step0 (vvOf ffill f0) (Ioff 80) (Ioff_inb 80 (by decide)) (tile_body.sl.Hsb'_w1_4 d L ffill y0 f0 f1) := rfl
  have e7 : tile_body.sl.Hsb'_w1_6 d L ffill y0 f0 f1 = step0 (vvOf ffill f0) (Ioff 96) (Ioff_inb 96 (by decide)) (tile_body.sl.Hsb'_w1_5 d L ffill y0 f0 f1) := rfl
  have e8 : tile_body.sl.Hsb'_w1_7 d L ffill y0 f0 f1 = step0 (vvOf ffill f0) (Ioff 112) (Ioff_inb 112 (by decide)) (tile_body.sl.Hsb'_w1_6 d L ffill y0 f0 f1) := rfl
  have e9 : tile_body.sl.Hsb'_w1_8 d L ffill y0 f0 f1 = step1 (vvOf ffill f0) (Ioff 0) (Ioff_inb 0 (by decide)) (tile_body.sl.Hsb'_w1_7 d L ffill y0 f0 f1) := rfl
  have e10 : tile_body.sl.Hsb'_w1_9 d L ffill y0 f0 f1 = step1 (vvOf ffill f0) (Ioff 16) (Ioff_inb 16 (by decide)) (tile_body.sl.Hsb'_w1_8 d L ffill y0 f0 f1) := rfl
  have e11 : tile_body.sl.Hsb'_w1_10 d L ffill y0 f0 f1 = step1 (vvOf ffill f0) (Ioff 32) (Ioff_inb 32 (by decide)) (tile_body.sl.Hsb'_w1_9 d L ffill y0 f0 f1) := rfl
  have e12 : tile_body.sl.Hsb'_w1_11 d L ffill y0 f0 f1 = step1 (vvOf ffill f0) (Ioff 48) (Ioff_inb 48 (by decide)) (tile_body.sl.Hsb'_w1_10 d L ffill y0 f0 f1) := rfl
  have e13 : tile_body.sl.Hsb'_w1_12 d L ffill y0 f0 f1 = step1 (vvOf ffill f0) (Ioff 64) (Ioff_inb 64 (by decide)) (tile_body.sl.Hsb'_w1_11 d L ffill y0 f0 f1) := rfl
  have e14 : tile_body.sl.Hsb'_w1_13 d L ffill y0 f0 f1 = step1 (vvOf ffill f0) (Ioff 80) (Ioff_inb 80 (by decide)) (tile_body.sl.Hsb'_w1_12 d L ffill y0 f0 f1) := rfl
  have e15 : tile_body.sl.Hsb'_w1_14 d L ffill y0 f0 f1 = step1 (vvOf ffill f0) (Ioff 96) (Ioff_inb 96 (by decide)) (tile_body.sl.Hsb'_w1_13 d L ffill y0 f0 f1) := rfl
  have e16 : tile_body.sl.Hsb'_w1_15 d L ffill y0 f0 f1 = step1 (vvOf ffill f0) (Ioff 112) (Ioff_inb 112 (by decide)) (tile_body.sl.Hsb'_w1_14 d L ffill y0 f0 f1) := rfl
  have hW : tile_body.sl.Hsb'_w1_15 d L ffill y0 f0 f1
      = W16 (vvOf ffill f0) f1 (ReadAs.same.apply (View.read (Elt F) (bIn0 L).view y0)) (ReadAs.same.apply (View.read (Elt F) (bIn1 L).view y0)) := by
    rw [e16, e15, e14, e13, e12, e11, e10, e9, e8, e7, e6, e5, e4, e3, e2, e1]; rfl
  have hg0 : ∀ x, tile_body.sl.dma2_1 d L ffill y0 f0 f1 x = if (x 0).val = (x 1).val then c else View.read (Elt F) (bIn0 L).view y0 x := fun x => by
    have e : tile_body.sl.dma2_1 d L ffill y0 f0 f1 x = pl0.view.read (Elt F) (tile_body.sl.Hsb'_w1_15 d L ffill y0 f0 f1) x := rfl
    rw [e, hW]; exact read0_W16 _ c hvv _ _ _ x
  have hg1 : ∀ x, tile_body.sl.dma3 d L ffill y0 f0 f1 x = if (x 0).val = (x 1).val then c else View.read (Elt F) (bIn1 L).view y0 x := fun x => by
    have e : tile_body.sl.dma3 d L ffill y0 f0 f1 x = pl1.view.read (Elt F) (tile_body.sl.Hsb'_w1_15 d L ffill y0 f0 f1) x := rfl
    rw [e, hW]; exact read1_W16 _ c hvv _ _ _ x
  have hval0 := block_value (F := F) (blkOf (L 0).val (L 1).val 0) (k1_off1 L 0#32) (off_bIn L 0) (k1_off1_inb L 0) y0
    (tile_body.sl.dma2_1 d L ffill y0 f0 f1) c hg0
  have hval1 := block_value (F := F) (blkOf (L 0).val (L 1).val 1) (k1_off1 L 128#32) (off_bIn L 1) (k1_off1_inb L 1) y0
    (tile_body.sl.dma3 d L ffill y0 f0 f1) c hg1
  sl_step
  isplitl [Hf' Hb0' Hb1']
  · isplitl [Hf']; · iapply (Entails.of_eq (pts_f (F := F) d L q _)); iexact Hf'
    isplitl [Hb0']
    · iapply (Entails.of_eq ((pointsTo_congr hval0).trans (pts_b0 (F := F) d L fullShare _)))
      iexact Hb0'
    · iapply (Entails.of_eq ((pointsTo_congr hval1).trans (pts_b1 (F := F) d L fullShare _)))
      iexact Hb1'
  isplitl [Hsa' Hsb' Hbufs]
  · isplitl [Hsa']; · iexists _; iapply (Entails.of_eq (pts_s0 (F := F) d L _)); iexact Hsa'
    isplitl [Hsb']; · iexists _; iapply (Entails.of_eq (pts_s1 (F := F) d L _)); iexact Hsb'
    iexact Hbufs
  isplitl [HsemA HsemB Hsems]
  · isplitl [HsemA]; · iexact HsemA
    isplitl [HsemB]; · iexact HsemB
    iexact Hsems
  iexists _; isplitr
  rotate_left
  · iexact HO
  · ipureintro; intro p hp
    simp only [Finset.mem_insert] at hp
    rcases hp with rfl | rfl | rfl | rfl | rfl | hp
    · exact .inr rfl
    · exact .inr rfl
    · exact .inr rfl
    · exact .inr rfl
    · exact .inr rfl
    · exact .inl hp

end Tile

end Cert.Proof.KB

end
-- ==== Proof.RegionAB.lean ====
import proofs.«201282_g70549132804296_cont_9to1_m_715_22_alg».proof.Proof.SetupB
import Idealize.ShloMosaic.Lib.Pipeline.FrameBody
import Idealize.ShloMosaic.Lib.Pipeline.RegionsLoop
import Idealize.ShloMosaic.Lib.Pipeline.FrameSuffix

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! # The TensorCore copy pipeline: the body at one grid point

The body loads the whole input block, loads the whole output block (unused), and stores the input block whole
into the output staging buffer. So after the body the output staging buffer reads exactly the input block. -/

/-- The one rectangle the body accesses: the whole [256, 8192] block. -/
abbrev r0 : Rect S256x8192 := Rect.unit (s := S256x8192) ![0, 0] S256x8192.size inb_S256x8192_S256x8192_0_0

/-- The whole-block rectangle covers the block. -/
theorem cover0_1 (p0 : Vec F S256x8192 .f32) (y : S256x8192.Idx) :
    ∃ pc ∈ ([⟨r0, p0⟩] : List (View.Piece (Elt F) S256x8192 .f32)), y ∈ pc.1.set :=
  View.cover_of_tiled [⟨r0, p0⟩] S256x8192.size (by rfl) y

theorem mem_r0 (p0 : Vec F S256x8192 .f32) (y : S256x8192.Idx) : y ∈ r0.set := by
  obtain ⟨pc, hm, hy⟩ := cover0_1 p0 y
  rw [List.mem_singleton] at hm
  subst hm
  exact hy

/-- A buffer overwritten whole by what a whole-block load of another buffer read, reads as that other buffer. -/
theorem read_store_whole (v1 v2 : View sig .tc .vmem S256x8192 .f32) (f0 : v1.ty.Contents (Elt F)) (f1 : v2.ty.Contents (Elt F)) :
    View.read (Elt F) v2 (v2.writes (Elt F) f1 [⟨r0, View.readAt (Elt F) v1 r0.toLoadRect f0⟩]) = View.read (Elt F) v1 f0 := by
  rw [View.read_writes_eq_canon _ _ _ (cover0_1 _)]
  funext y
  obtain ⟨x, rfl⟩ := r0.exists_idx_of_mem (mem_r0 (View.readAt (Elt F) v1 r0.toLoadRect f0) y)
  exact View.canon_cons_emb r0 _ [] x

set_option maxHeartbeats 1000000 in
/-- The body on whole staging memrefs, the input's at read contents `x0` and the output's at anything, runs to the
    continuation holding the input's as it was and the output's at `x0`. -/
theorem sound_kernel0 (c : Dev nD) (E : Set ℕ) (i : grid0.Coords) (arg1 : Memref sig .tc .vmem S256x8192 .f32) (harg1 : arg1.IsWhole)
    (arg2 : Memref sig .tc .vmem S256x8192 .f32) (harg2 : arg2.IsWhole)
    (x0 : Vec F S256x8192 .f32) (Kc : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare x0) -∗ Kc ⟨⟩))
      ⊢ wp frame (wpE (defs₀ (F := F)) Variants.none c none) E (cc0__copy_block i arg1 harg1 arg2 harg2) Kc := by
  simp only [cc0__copy_block_eq_skeleton]; unfold cc0__copy_block_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact read_store_whole _ _ _ _

/-! ## The pipeline's proof data -/

section Data

variable (Vv : (c : Dev nD) → (b : Ref sig .tc) → Buf (Elt F) ((c : Thread nD τ).loc b))
  (O : CellTallies nD τ sig (HIx 1)) (B : Set (SemLoc sig × HIx 1))

/-- Window `w`'s block at point `t`, read off its array as the region finds it (`Vv`). -/
def iblk0 (c : Dev nD) (w : Fin cfg0.W) (t : Fin cfg0.N) : ((cfg0.win w).xblock (cfg0.grid.coords t)).Idx → Elt F (cfg0.win w).elt :=
  ((cfg0.win w).blk t).view.read (Elt F) (Vv c (Pipeline.arrRef spec0 w))

/-- The input window's current staging buffer holds its block at every point, for any proof data whose array is
    `Vv`'s and whose body leaves the block in place. -/
theorem before0_0_of {c : Dev nD} (dat : Dat τ (Elt F) (HIx 1) ℕ UU ℕ cfg0 c) (hA : dat.A 0 = Vv c (Pipeline.arrRef spec0 0))
    (hafter : ∀ t, dat.after 0 t = iblk0 Vv c 0 t) (t : Fin cfg0.N) (d) : dat.before 0 t d = iblk0 Vv c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The region's invariant on core `c`: the scoped buffers that are no staging buffer and the generator register,
    both untouched by the body. -/
def Φ0 (c : Dev nD) : sProp 𝕄 :=
  iprop(Pipeline.scopedRest (Ix := HIx 1) (Name := ℕ) (U := UU) (Lvl := ℕ) (Val := Elt F) spec0 c ∗ ∃ r, prngReg c r)

/-- The proof data of the pipeline on core `c`: the arrays as the region finds them; after the body at point `t`
    both staging buffers hold the input block; the core owes the constant `O` throughout, its recorded pairs within `B`. -/
def dat0 (c : Dev nD) : Dat τ (Elt F) (HIx 1) ℕ UU ℕ cfg0 c where
  A w := Vv c (Pipeline.arrRef spec0 w)
  after w t := match w with
    | ⟨0, _⟩ => iblk0 Vv c 0 t
    | ⟨1, _⟩ => iblk0 Vv c 0 t
  Φ _ := Φ0 c
  q _ := fullShare
  owed _ := O
  recorded _ := B

theorem A_eq0 (c : Dev nD) (w : Fin cfg0.W) : (dat0 Vv O B c).A w = Vv c (Pipeline.arrRef spec0 w) := by
  dsimp only [dat0]

theorem after0_0 (c : Dev nD) (t : Fin cfg0.N) : (dat0 Vv O B c).after 0 t = iblk0 Vv c 0 t := by dsimp only [dat0]
theorem after0_1 (c : Dev nD) (t : Fin cfg0.N) : (dat0 Vv O B c).after 1 t = iblk0 Vv c 0 t := by dsimp only [dat0]

theorem before0_0 (c : Dev nD) (t : Fin cfg0.N) (d) : (dat0 Vv O B c).before 0 t d = iblk0 Vv c 0 t :=
  before0_0_of Vv (dat0 Vv O B c) (A_eq0 Vv O B c 0) (after0_0 Vv O B c) t d

/-! ## The body obligation, at a generic point -/

def bodyPre0 (c : Dev nD) (t : Fin cfg0.N) : sProp 𝕄 :=
  iprop((dat0 Vv O B c).Φ t.castSucc ∗ (dat0 Vv O B c).owesAt (none : HIx 1) t.castSucc
    ∗ (∃ d, owns (c : Thread nD τ) (st0_0 t) fullShare ((dat0 Vv O B c).before 0 t d))
    ∗ (∃ d, owns (c : Thread nD τ) (st0_1 t) fullShare ((dat0 Vv O B c).before 1 t d)))

def bodyPost0 (c : Dev nD) (t : Fin cfg0.N) : sProp 𝕄 :=
  iprop((dat0 Vv O B c).Φ t.succ ∗ (dat0 Vv O B c).owesAt (none : HIx 1) t.succ
    ∗ owns (c : Thread nD τ) (st0_0 t) fullShare ((dat0 Vv O B c).after 0 t)
    ∗ owns (c : Thread nD τ) (st0_1 t) fullShare ((dat0 Vv O B c).after 1 t))

theorem sound_body0 (c : Dev nD) (t : Fin cfg0.N) :
    bodyPre0 Vv O B c t ⊢ wp frame (wpE (defs₀ (F := F)) Variants.none c none) Set.univ (bodyAt0 t) (fun _ => bodyPost0 Vv O B c t) := by
  unfold bodyPre0 bodyPost0 bodyAt0
  simp only [before0_0]
  rw [show (dat0 Vv O B c).Φ t.succ = (dat0 Vv O B c).Φ t.castSucc from rfl,
    show (dat0 Vv O B c).owesAt (none : HIx 1) t.succ = (dat0 Vv O B c).owesAt (none : HIx 1) t.castSucc from rfl,
    after0_0, after0_1]
  iintro ⟨HΦ, Ho, ⟨%d0, H0⟩, ⟨%d1, H1⟩⟩
  iapply (sound_kernel0 c Set.univ _ _ _ _ _ (iblk0 Vv c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) Vv O B c) (defs₀ (F := F)) Variants.none (none : HIx 1) Set.univ := fun t => by
  rw [bigSep_W0, bigSep_W0]
  exact sound_body0 Vv O B c t

end Data

end Cert.Proof.KB

end
-- ==== Proof.RegionVB.lean ====
import proofs.«201282_g70549132804296_cont_9to1_m_715_22_alg».proof.Proof.SetupB
import proofs.«201282_g70549132804296_cont_9to1_m_715_22_alg».proof.Proof.RegionAB
import Idealize.ShloMosaic.Lib.Pipeline.Value

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! # The copy pipeline's value: after all 32 write-backs the output array is the input array

Point `t` writes back the input array's block `t` (rows `256 t … 256 t + 255`, every column) into the output
array's block `t`; the blocks tile the rows, so the output array ends as the input array. -/

section Value

variable (Vv : (c : Dev nD) → (b : Ref sig .tc) → Buf (Elt F) ((c : Thread nD τ).loc b))
  (O : CellTallies nD τ sig (HIx 1)) (B : Set (SemLoc sig × HIx 1))

/-- The two windows move together: the same block index at every point. -/
theorem idx_facts1 : ∀ t : Fin cfg0.N, win0_0.index t (0 : Fin 2) = win0_1.index t (0 : Fin 2)
    ∧ win0_0.index t (1 : Fin 2) = win0_1.index t (1 : Fin 2)
    ∧ win0_1.index t (0 : Fin 2) ≤ 31 ∧ win0_1.index t (1 : Fin 2) = 0 :=
  (by decide +kernel : ∀ t : Fin grid0.N, _)

/-- Every block of rows is some point's. -/
theorem idx_onto1 : ∀ (q0 : Fin 32), ∃ t : Fin cfg0.N, win0_1.index t = ![q0.val, 0] :=
  (by decide +kernel : ∀ (q0 : Fin 32), ∃ t : Fin grid0.N, win0_1.index t = ![q0.val, 0])

/-- What point `t` writes back is block `t` of the input array as the region finds it. -/
theorem flushed1_eq (c : Dev nD) (t : Fin cfg0.N) :
    (dat0 Vv O B c).flushed 1 t = ((cfg0.win 1).blk t).view.read (Elt F)
      (show Buf (Elt F) ((cfg0.win 1).arr.view.loc (c : Thread nD τ)) from Vv c main_arg0) := by
  show (cfg0.win 1).cut (grid0.coords t) ((dat0 Vv O B c).after 1 t) = _
  rw [after0_1]
  obtain ⟨e0, e1, e2, e3⟩ := idx_facts1 t
  funext j
  show Vv c main_arg0 (((cfg0.win 0).blk t).view.emb j) = Vv c main_arg0 (((cfg0.win 1).blk t).view.emb j)
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 8192 + 1 * (j 1).val = win0_1.index t (1 : Fin 2) * 8192 + 1 * (j 1).val; omega
  rw [h0]

/-- An index of the array is in point `t`'s block iff each coordinate is in the block's range on its axis. -/
theorem mem_blk1 (t : Fin cfg0.N) (i : S8192x8192.Idx) :
    i ∈ ((cfg0.win 1).blk t).view.set ↔ ∀ a : Fin 2, win0_1.index t a * S256x8192.size a ≤ (i a).val ∧ (i a).val < win0_1.index t a * S256x8192.size a + S256x8192.size a := by
  show i ∈ ((View.whole main_v0).slice (win0_1.rect t)).set ↔ _
  rw [View.set_slice_whole, Rect.mem_set_unit]
  exact Iff.rfl

/-- Every index of the output array is in some point's block: the blocks tile the rows. -/
theorem covered1 (i : S8192x8192.Idx) :
    ∃ t : Fin cfg0.N, (cfg0.win 1).flush t = true ∧ i ∈ ((cfg0.win 1).blk t).view.set := by
  have hi0 : (i 0).val < 8192 := (i 0).isLt
  have hi1 : (i 1).val < 8192 := (i 1).isLt
  obtain ⟨t, ht⟩ := idx_onto1 ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_blk1]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 8192 ≤ (i 1).val ∧ (i 1).val < win0_1.index t (1 : Fin 2) * 8192 + 8192; omega

/-- The output array after the run is the input array as the region found it. -/
theorem final1 (c : Dev nD) : (dat0 Vv O B c).arrAt 1 cfg0.N = Vv c main_arg0 :=
  (dat0 Vv O B c).arrAt_eq_of_cover 1 _ (fun t _ => flushed1_eq Vv O B c t) covered1

end Value

end Cert.Proof.KB

end
-- ==== Proof.RegionIB.lean ====
import proofs.«201282_g70549132804296_cont_9to1_m_715_22_alg».proof.Proof.SetupB
import proofs.«201282_g70549132804296_cont_9to1_m_715_22_alg».proof.Proof.RegionAB
import proofs.«201282_g70549132804296_cont_9to1_m_715_22_alg».proof.Proof.RegionVB
import Idealize.ShloMosaic.Lib.Pipeline.Regions

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! # The TensorCore copy pipeline as a region of @main, inside the SparseCore launch -/

section Region

variable (Vv : (c : Dev nD) → (b : Ref sig .tc) → Buf (Elt F) ((c : Thread nD τ).loc b))
  (O : CellTallies nD τ sig (HIx 1)) (B : Set (SemLoc sig × HIx 1))

/-- The prefetched tables' admissible contents: the pipeline has no table. -/
abbrev adm : (p : Fin 1) → (pcfgs (F := F) p).Adm := fun p => (cfgs p).toPCfg_adm

/-- The one pipeline's proof data. -/
def pdats : (p : Fin 1) → (c : Dev nD) → Dat τ (Elt F) (HIx 1) ℕ UU ℕ (Pipeline.pin (pcfgs (F := F)) adm p) c
  | ⟨0, _⟩ => fun c => dat0 Vv O B c

/-- The unscoped buffers' contents when the region is left: the output array holds the input array's entry
    contents, every other buffer what it held. -/
abbrev Vout (c : Dev nD) : (b : Ref sig .tc) → Buf (Elt F) ((c : Thread nD τ).loc b) :=
  Function.update (Vv c) main_v0 (show Buf (Elt F) ((c : Thread nD τ).loc main_v0) from Vv c main_arg0)

theorem hF0 (hval : ∀ c, (dat0 Vv O B c).arrAt 1 cfg0.N = Vv c main_arg0) (c : Dev nD) (w : Fin cfg0.W) :
    (pdats Vv O B 0 c).arrAt w cfg0.N = Vout Vv c (Pipeline.arrRef spec0 w) :=
  match w with
  | ⟨0, _⟩ => ((dat0 Vv O B c).arrAt_in 0 rfl _).trans ((A_eq0 Vv O B c 0).trans
      (Function.update_of_ne (show (main_arg0 : Ref sig .tc) ≠ main_v0 by decide) _ _).symm)
  | ⟨1, _⟩ => (hval c).trans (Function.update_self (f := Vv c) main_v0 _).symm

theorem hrest0 (c : Dev nD) : ∀ b, b ∉ Finset.univ.image (Pipeline.arrRef spec0) → Vout Vv c b = Vv c b :=
  fun b hb => Function.update_of_ne (fun e => hb (Finset.mem_image.mpr ⟨1, Finset.mem_univ _, e.symm⟩)) _ _

set_option backward.isDefEq.respectTransparency.types false in
/-- The region over the thread state "every unscoped buffer at `Vv`, the generator register at some state, the core
    owing `O` with its recorded pairs within `B`": left with the output array at the input array's contents and
    the recorded pairs within `B` and the staging cells' pairs at index `none`. The waits on the staging cells, at
    index `none`, sit at level 0, below everything the core owes. -/
def reg0 (hO : ∀ g, O g none = 0) (hval : ∀ c, (dat0 Vv O B c).arrAt 1 cfg0.N = Vv c main_arg0) :
    Pipeline.RegionSeg (pcfgs (F := F)) adm (pdats Vv O B) (none : HIx 1) defs₀ 𝒱₀ ((K (F := F)).L (nD := nD)) ((K (F := F)).lev (nD := nD)) 0 where
  win := launch0.win.to₀
  block_pos := launch0.block_pos
  stage_whole := launch0.stage_whole
  K := PEmpty
  osem k := k.elim
  ho := Pipeline.OwnSemFacts.none _
  hbody c := (body_obligation0 Vv O B c).loose
  hwaits c := Pipeline.cellsWaits_intro (Pipeline.pin (pcfgs (F := F)) adm) (pdats Vv O B) (none : HIx 1) 0 c
    fun w s t => (K (F := F)).mayWait_none _ hO
  pre c := iprop(unscopedBufs c (Vv c) ∗ (∃ r, prngReg c r) ∗ Pipeline.owesWithin c O B)
  post c := iprop(unscopedBufs c (Vout Vv c) ∗ (∃ r, prngReg c r) ∗ Pipeline.owesWithin c O (B ∪ cfg0.waitPairs (none : HIx 1)))
  X c := iprop(∃ r, prngReg c r)
  Y c := iprop(∃ r, prngReg c r)
  Z c := Pipeline.unscopedRest (Ix := HIx 1) (Name := ℕ) (U := UU) (Lvl := ℕ) spec0 c (Vv c)
  hentry c := by
    rw [Pipeline.ownSems0_none]
    have hsplit := Pipeline.arrays_of_unscopedBufs (p := 0) (pcfgs (F := F)) adm (pdats Vv O B) launch0.win launch0.arr_whole c
      ((pdats Vv O B 0 c).share_full fun _ => rfl) (Vv c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitl [Hp]; · iexact Hp
    iexact Hrest
  hin c := by
    rw [show (pdats Vv O B 0 c).Φ 0 = Φ0 c from rfl]; unfold Φ0
    iintro ⟨Hp, -, Hr⟩
    isplitl [Hr]; · iexact Hr
    iexact Hp
  hout c := by
    rw [Pipeline.ownSems0_none, show (pdats Vv O B 0 c).Φ (Fin.last _) = Φ0 c from rfl]; unfold Φ0
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats Vv O B) ((pdats Vv O B 0 c).share_full fun _ => rfl)
      (Vv c) (Vout Vv c) ((pdats Vv O B 0 c).arrAt · cfg0.N) (hF0 Vv O B hval c) (hrest0 Vv c)
    iintro ⟨Ha, HO, HY, Hrest⟩
    imodintro
    isplitl [Ha Hrest]
    · iapply hjoin; isplitl [Ha] <;> iassumption
    isplitl [HY]; · iexact HY
    iexact HO

end Region

/-! ## The pipeline's ghost state, and the region's weakest precondition -/

/-- The pipeline library's ghost state for the pipeline's staging cells on core `d`, as the launch deals it: the
    cells' launch state and the duty tokens of the loop's transfers. -/
def ghost0 (d : Dev nD) : sProp 𝕄 :=
  iprop(Pipeline.cellsGhost (Pipeline.pin (pcfgs (F := F)) adm) (EP (F := F)) 0 d
    ∗ Pipeline.toksInit (Pipeline.pin (pcfgs (F := F)) adm) (EP (F := F)) 0 d)

/-- The launch element of the pipeline library at the staging cells yields every core's ghost state. -/
theorem ghost0_intro :
    BI.own (EP (F := F) (initOf (Pipeline.cells cfgs cellOf_inj) (Pipeline.launchToks cfgs cellOf_inj)))
      ⊢ |={Set.univ}=> bigSep Finset.univ (ghost0 (F := F)) := by
  have hjoin : iprop((bigSep Finset.univ fun c : Dev nD => bigSep Finset.univ fun p : Fin 1 => Pipeline.cellsGhost (Pipeline.pin (pcfgs (F := F)) adm) (EP (F := F)) p c)
        ∗ (bigSep Finset.univ fun c : Dev nD => bigSep Finset.univ fun p : Fin 1 => (Pipeline.toksInit (Pipeline.pin (pcfgs (F := F)) adm) (EP (F := F)) p c : sProp 𝕄)))
      ⊢ bigSep Finset.univ (ghost0 (F := F)) := by
    rw [← bigSep_sep']
    refine bigSep_mono fun c _ => ?_
    rw [show (Finset.univ : Finset (Fin 1)) = {0} from rfl, bigSep_singleton, bigSep_singleton]
    exact BI.Entails.refl _
  iintro Hu
  imod (Pipeline.fund_ghost (Pipeline.pin (pcfgs (F := F)) adm) (EP (F := F)) cellOf_inj) $$ Hu with ⟨Hg, Ht⟩
  imodintro
  iapply hjoin
  isplitl [Hg] <;> iassumption

section Wp

variable (Vv : (c : Dev nD) → (b : Ref sig .tc) → Buf (Elt F) ((c : Thread nD τ).loc b))
  (O : CellTallies nD τ sig (HIx 1)) (B : Set (SemLoc sig × HIx 1))

set_option backward.isDefEq.respectTransparency.types false in
/-- The first statement of @main, under the SparseCore launch's body table: from the level facts, the pipeline's ghost
    state on core `d`, the region boundary, every unscoped buffer at `Vv d`, the generator register and the core owing
    `O` (nothing at index `none`) with its recorded pairs within `B`, the pallas_call runs to the boundary, the
    unscoped buffers with the output array at the input array's entry contents and every other one unchanged, the
    register, and the core owing `O` with its recorded pairs within `B` and the staging cells' pairs at index `none`. -/
theorem region0_wp_of (hO : ∀ g, O g none = 0) (hval : ∀ c, (dat0 Vv O B c).arrAt 1 cfg0.N = Vv c main_arg0)
    (d : Dev nD) (Φ : PUnit → sProp 𝕄) :
    iprop(levAts ((K (F := F)).L (nD := nD)) ((K (F := F)).lev (nD := nD)) ∗ ghost0 (F := F) d ∗ boundary (T d) ∗ unscopedBufs d (Vv d)
        ∗ (∃ r, prngReg d r) ∗ Pipeline.owesWithin d O B
        ∗ (iprop(boundary (T d) ∗ unscopedBufs d (Vout Vv d) ∗ (∃ r, prngReg d r)
            ∗ Pipeline.owesWithin d O (B ∪ cfg0.waitPairs (none : HIx 1))) -∗ Φ ⟨⟩))
      ⊢ wp frame (wpE ((K (F := F)).defs (D (F := F))) 𝒱 (T d) none) Set.univ
          (Prog.lift (.customCall (SparseCore.inner (Pipeline.entry 0)) ())) Φ := by
  have hreg := (reg0 Vv O B hO hval).wp (pcfgs (F := F)) adm (pdats Vv O B) (none : HIx 1) cellOf_inj (EP (F := F)) defs₀ 𝒱₀
    ((K (F := F)).L (nD := nD)) ((K (F := F)).lev (nD := nD)) d none (fun u h => nomatch h) (fun _ => Prog.ret PUnit.unit) Φ
  rw [show (reg0 Vv O B hO hval).post d = iprop(unscopedBufs d (Vout Vv d) ∗ (∃ r, prngReg d r)
        ∗ Pipeline.owesWithin d O (B ∪ cfg0.waitPairs (none : HIx 1))) from rfl,
    show (reg0 Vv O B hO hval).pre d = iprop(unscopedBufs d (Vv d) ∗ (∃ r, prngReg d r) ∗ Pipeline.owesWithin d O B) from rfl] at hreg
  have hlift := (K (F := F)).wp_liftProg (D (F := F)) 𝒱 (T d) Set.univ none
    (Prog.lift (.customCall (Pipeline.entry 0) ()) : Prog (TpuEff nD τ sig (Elt F) (ΛP (F := F)) .tc) PUnit) Φ
  refine BIBase.Entails.trans ?_ hlift
  refine BIBase.Entails.trans ?_ hreg
  unfold ghost0
  iintro ⟨Hla, ⟨Hg, Ht⟩, Hbd, Hub, Hp, HO, Hk⟩
  isplitl [Hk]
  · iintro ⟨Hbd, Hub, Hp, HO⟩
    rw [wp_ret]
    imodintro
    iapply Hk
    isplitl [Hbd]; · iexact Hbd
    isplitl [Hub]; · iexact Hub
    isplitl [Hp]; · iexact Hp
    iexact HO
  isplitl [Hbd]; · iexact Hbd
  isplitl [Hub Hp HO]
  · isplitl [Hub]; · iexact Hub
    isplitl [Hp]; · iexact Hp
    iexact HO
  isplitl [Hla]; · iexact Hla
  isplitl [Hg] <;> iassumption

end Wp

/-! ## The region's weakest precondition, with the value equation discharged -/

section Final

variable (Vv : (c : Dev nD) → (b : Ref sig .tc) → Buf (Elt F) ((c : Thread nD τ).loc b))

theorem Vout_v0 (c : Dev nD) : Vout Vv c main_v0 = Vv c main_arg0 := Function.update_self (f := Vv c) main_v0 _
theorem Vout_of_ne (c : Dev nD) (b : Ref sig .tc) (h : b ≠ main_v0) : Vout Vv c b = Vv c b := Function.update_of_ne h _ _

/-- The first statement of @main under the SparseCore launch's body table, at the thread's own `owes`: the pallas_call
    copies the input array into the output array and leaves every other unscoped buffer, the generator register and what
    the core owes as they were; the pairs its waits record beyond `W` are all at index `none` (the staging cells'). -/
theorem region0_wp (O : CellTallies nD τ sig (HIx 1)) (W : Waits sig (HIx 1)) (hO : ∀ g, O g none = 0)
    (d : Dev nD) (Φ : PUnit → sProp 𝕄) :
    iprop(levAts ((K (F := F)).L (nD := nD)) ((K (F := F)).lev (nD := nD)) ∗ ghost0 (F := F) d ∗ boundary (T d) ∗ unscopedBufs d (Vv d)
        ∗ (∃ r, prngReg d r) ∗ owes (T d) O W
        ∗ (iprop(boundary (T d) ∗ unscopedBufs d (Vout Vv d) ∗ (∃ r, prngReg d r)
            ∗ ∃ W' : Waits sig (HIx 1), ⌜∀ p ∈ W', p ∈ W ∨ p.2 = none⌝ ∗ owes (T d) O W') -∗ Φ ⟨⟩))
      ⊢ wp frame (wpE ((K (F := F)).defs (D (F := F))) 𝒱 (T d) none) Set.univ
          (Prog.lift (.customCall (SparseCore.inner (Pipeline.entry 0)) ())) Φ := by
  have h := region0_wp_of Vv O {p | p ∈ W ∨ p.2 = none} hO (fun c => final1 Vv O _ c) d Φ
  refine BIBase.Entails.trans ?_ h
  iintro ⟨Hla, Hg, Hbd, Hub, Hp, HO, Hk⟩
  isplitl [Hla]; · iexact Hla
  isplitl [Hg]; · iexact Hg
  isplitl [Hbd]; · iexact Hbd
  isplitl [Hub]; · iexact Hub
  isplitl [Hp]; · iexact Hp
  isplitl [HO]
  · iexists W; isplitr; · ipureintro; exact fun p hp => Or.inl hp
    iexact HO
  iintro ⟨Hbd, Hub, Hp, HO⟩
  iapply Hk
  isplitl [Hbd]; · iexact Hbd
  isplitl [Hub]; · iexact Hub
  isplitl [Hp]; · iexact Hp
  icases HO with ⟨%W', %hW', HO⟩
  iexists W'; isplitr
  · ipureintro
    intro p hp
    rcases hW' (Finset.mem_coe.mpr hp) with h | ⟨w, s, rfl⟩
    · exact h
    · exact Or.inr rfl
  iexact HO

end Final

/-! ## Two facts about the TensorCore's tallies and recorded pairs, for the region's hypotheses -/

/-- The TensorCore owes nothing at index `none`: every unit it owes is at a call's index. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- Recorded pairs that are old ones or at index `none` (level 0) stay below any bound the old ones were below. -/
theorem WBelow_of_none {d : Dev nD} {W W' : Waits sig (HIx 1)} {b : ℕ} (hW : (K (F := F)).WBelow (T d) W b)
    (h : ∀ p ∈ W', p ∈ W ∨ p.2 = none) : (K (F := F)).WBelow (T d) W' b := fun p hp =>
  (h p hp).elim (hW p) fun e => by
    show (K (F := F)).lev (T d, p.1) p.2 ≤ b
    rw [e]; exact Nat.zero_le _

end Cert.Proof.KB

end
-- ==== Proof.MainB.lean ====
import proofs.«201282_g70549132804296_cont_9to1_m_715_22_alg».proof.Proof.RegionIB
import proofs.«201282_g70549132804296_cont_9to1_m_715_22_alg».proof.Proof.PayB
import Idealize.ShloMosaic.Lib.Pipeline.Value

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ)

/-! # @main on the TensorCore: the copy pipeline, three host operations, the SparseCore call -/

/-! ## The TensorCore's six arrays -/

abbrev x' : DevRef τ sig := Proc.devRef .tc (main_arg0 : Ref sig .tc)
abbrev a' : DevRef τ sig := Proc.devRef .tc (main_arg1 : Ref sig .tc)
abbrev c' : DevRef τ sig := Proc.devRef .tc (main_v0 : Ref sig .tc)
abbrev e' : DevRef τ sig := Proc.devRef .tc (main_v1 : Ref sig .tc)
abbrev f' : DevRef τ sig := Proc.devRef .tc (main_v2 : Ref sig .tc)
abbrev y' : DevRef τ sig := Proc.devRef .tc (main_v3 : Ref sig .tc)

/-- The TensorCore's arrays, all unscoped. -/
abbrev S6 : Finset (DevRef τ sig) := {x', a', c', e', f', y'}

omit [FloatOps F] in
theorem held_S6 (d : Dev nD) (W : Valuation τ sig (Elt F)) :
    (held (T d) S6 W : sProp 𝕄) = iprop((xLoc d ↦{fullShare} W x') ∗ (aLoc d ↦{fullShare} W a')
      ∗ ((SparseCore.T d).loc main_v0 ↦{fullShare} W c') ∗ ((SparseCore.T d).loc main_v1 ↦{fullShare} W e')
      ∗ (fLoc d ↦{fullShare} W f') ∗ yLoc d ↦{fullShare} W y') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (aLoc d ↦{fullShare} W main_arg1)
      ∗ ((SparseCore.T d).loc main_v0 ↦{fullShare} W main_v0) ∗ ((SparseCore.T d).loc main_v1 ↦{fullShare} W main_v1)
      ∗ (fLoc d ↦{fullShare} W main_v2) ∗ yLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-! ## The three host operations and the contents they leave -/

abbrev op1 : HloOp τ sig (Elt F) := StableHlo.unary main_arg1 main_v1 (sitofp .f32 : (⟨S_, .i32⟩ : BufTy).Contents (Elt F) → (⟨S_, .f32⟩ : BufTy).Contents (Elt F))
abbrev op2 : HloOp τ sig (Elt F) := StableHlo.unary main_v1 main_v2 (broadcastInDim S16 ![] bcast_S_S16 : (⟨S_, .f32⟩ : BufTy).Contents (Elt F) → (⟨S16, .f32⟩ : BufTy).Contents (Elt F))
abbrev op3 : HloOp τ sig (Elt F) := StableHlo.unary main_v0 main_v3 id

theorem h1 : (op1 (F := F)).bufs ⊆ S6 := show ({a', e'} : Finset (DevRef τ sig)) ⊆ S6 by decide
theorem h2 : (op2 (F := F)).bufs ⊆ S6 := show ({e', f'} : Finset (DevRef τ sig)) ⊆ S6 by decide
theorem h3 : (op3 (F := F)).bufs ⊆ S6 := show ({c', y'} : Finset (DevRef τ sig)) ⊆ S6 by decide

/-- The launch valuation; after the pipeline, the copy at the input's contents; then after each host operation. -/
def V0 (d : Dev nD) : Valuation τ sig (Elt F) := fun b => m (d, b)
def V1 (d : Dev nD) : Valuation τ sig (Elt F) := Function.update (V0 m d) c' (m (xLoc d))
def V2 (d : Dev nD) : Valuation τ sig (Elt F) := (op1 (F := F)).result (V1 m d)
def V3 (d : Dev nD) : Valuation τ sig (Elt F) := (op2 (F := F)).result (V2 m d)
def V4 (d : Dev nD) : Valuation τ sig (Elt F) := (op3 (F := F)).result (V3 m d)

theorem V4_x (d : Dev nD) : V4 m d x' = m (xLoc d) := by
  unfold V4 V3 V2 V1
  rw [StableHlo.unary_result_ne (r := main_arg0) _ _ _ _ (by decide), StableHlo.unary_result_ne (r := main_arg0) _ _ _ _ (by decide),
    StableHlo.unary_result_ne (r := main_arg0) _ _ _ _ (by decide), Function.update_of_ne (show x' ≠ c' by decide)]
  · rfl
  all_goals decide
theorem V4_a (d : Dev nD) : V4 m d a' = m (aLoc d) := by
  unfold V4 V3 V2 V1
  rw [StableHlo.unary_result_ne (r := main_arg1) _ _ _ _ (by decide), StableHlo.unary_result_ne (r := main_arg1) _ _ _ _ (by decide),
    StableHlo.unary_result_ne (r := main_arg1) _ _ _ _ (by decide), Function.update_of_ne (show a' ≠ c' by decide)]
  · rfl
  all_goals decide
theorem V4_y (d : Dev nD) : V4 m d y' = y0 m d := by
  unfold V4
  rw [StableHlo.unary_result]
  unfold V3 V2 V1
  rw [StableHlo.unary_result_ne (r := main_v0) _ _ _ _ (by decide), StableHlo.unary_result_ne (r := main_v0) _ _ _ _ (by decide)]
  · exact Function.update_self _ _ _
  all_goals decide
theorem V4_f (d : Dev nD) : V4 m d f' = ffill m d := by
  unfold V4
  rw [StableHlo.unary_result_ne (r := main_v2) _ _ _ _ (by decide)]
  swap; · decide
  unfold V3
  rw [StableHlo.unary_result]
  unfold V2
  rw [StableHlo.unary_result]
  unfold V1
  rw [Function.update_of_ne (show a' ≠ c' by decide)]
  funext j
  exact broadcastInDim_apply _ bcast_S_S16 _ j (fun a => a.elim0) (fun a => a.elim0)

/-! ## The result array as its 64 diagonal blocks and the rest -/

/-- The 64 diagonal blocks, as the tasks take them: SparseCore `c`, vector subcore `i`, plane `r`. -/
def blocks : Finset S8192x8192.Idx :=
  (Finset.univ : Finset (Fin 2 × Fin 16 × Fin 2)).biUnion fun t => blkSet (blkOf t.1.val t.2.1.val t.2.2.val)

theorem blkOf_ne (t t' : Fin 2 × Fin 16 × Fin 2) (h : t ≠ t') :
    blkOf t.1.val t.2.1.val t.2.2.val ≠ blkOf t'.1.val t'.2.1.val t'.2.2.val := by
  intro e; apply h
  obtain ⟨c, i, r⟩ := t; obtain ⟨c', i', r'⟩ := t'
  have e' : 4 * i.val + 2 * c.val + r.val = 4 * i'.val + 2 * c'.val + r'.val := e
  have hc := c.isLt; have hc' := c'.isLt; have hr := r.isLt; have hr' := r'.isLt
  have e1 : c = c' := Fin.ext (by omega)
  have e2 : i = i' := Fin.ext (by omega)
  have e3 : r = r' := Fin.ext (by omega)
  rw [e1, e2, e3]

/-- An index on the main diagonal is in one of the 64 blocks. -/
theorem mem_blocks_of_diag (j : S8192x8192.Idx) (h : (j 0).val = (j 1).val) : j ∈ blocks := by
  have h0 : (j 0).val < 8192 := (j 0).isLt
  unfold blocks
  rw [Finset.mem_biUnion]
  refine ⟨(⟨((j 0).val / 128 % 4) / 2, by omega⟩, ⟨(j 0).val / 128 / 4, by omega⟩, ⟨(j 0).val / 128 % 2, by omega⟩), Finset.mem_univ _, ?_⟩
  rw [mem_blkSet]
  dsimp only [blkOf]
  omega

omit [FloatOps F] in
/-- The blocks' points-to, task by task. -/
theorem blocks_eq (d : Dev nD) (g : Buf (Elt F) (yLoc d)) :
    (yLoc d ↦[blocks]{fullShare} g : sProp 𝕄)
      = bigSep Finset.univ fun c : Fin 2 => bigSep Finset.univ fun i : Fin 16 => bigSep Finset.univ fun r : Fin 2 =>
          blkPts d (blkOf c.val i.val r.val) g := by
  unfold blocks
  rw [pointsTo_biUnion _ _ (fun t _ t' _ h => blkSet_disjoint _ _ (blkOf_ne t t' h)), bigSep_univ_prod]
  refine bigSep_congr fun c _ => ?_
  rw [bigSep_univ_prod]

/-- Off the blocks the diagonal fill changes nothing. -/
theorem rest_congr (d : Dev nD) :
    (yLoc d ↦[Finset.univ \ blocks]{fullShare} y0 m d : sProp 𝕄) = yLoc d ↦[Finset.univ \ blocks]{fullShare} yfin m d :=
  pointsTo_congr fun j hj => by
    have hj' : j ∉ blocks := (Finset.mem_sdiff.mp hj).2
    unfold yfin
    exact (Spec.diagSet_off _ _ j fun e => hj' (mem_blocks_of_diag j e)).symm

/-- What the call takes for the two SparseCores, and what it hands back: each one's read share of the fill vector and
    its tasks' blocks. -/
theorem st0_eq (d : Dev nD) : (bigSep Finset.univ fun c : Fin ((K (F := F)).nCore 0) => (P m).st 0 d c)
    = iprop((bigSep Finset.univ fun c : Fin 2 => fLoc d ↦{Transfers.shareTok fullShare 2 c} ffill m d) ∗ yLoc d ↦[blocks]{fullShare} y0 m d) := by
  rw [blocks_eq]
  show (bigSep (Finset.univ : Finset (Fin 2)) fun c => iprop((fLoc d ↦{tokC c.val} ffill m d)
      ∗ bigSep (Finset.univ : Finset (Fin 16)) fun i => bigSep (Finset.univ : Finset (Fin 2)) fun r => blkPts d (blkOf c.val i.val r.val) (y0 m d))) = _
  rw [bigSep_sep']
theorem dn0_eq (d : Dev nD) : (bigSep Finset.univ fun c : Fin ((K (F := F)).nCore 0) => (P m).dn 0 d c)
    = iprop((bigSep Finset.univ fun c : Fin 2 => fLoc d ↦{Transfers.shareTok fullShare 2 c} ffill m d) ∗ yLoc d ↦[blocks]{fullShare} yfin m d) := by
  rw [blocks_eq]
  show (bigSep (Finset.univ : Finset (Fin 2)) fun c => iprop((fLoc d ↦{tokC c.val} ffill m d)
      ∗ bigSep (Finset.univ : Finset (Fin 16)) fun i => bigSep (Finset.univ : Finset (Fin 2)) fun r => blkPts d (blkOf c.val i.val r.val) (yfin m d))) = _
  rw [bigSep_sep']

/-! ## What the claim reads -/

def fq (d : Dev nD) (s' : Phys nD τ sig (Elt F)) : Prop :=
  s'.mem.mem (xLoc d) = m (xLoc d) ∧ s'.mem.mem (aLoc d) = m (aLoc d) ∧ s'.mem.mem (yLoc d) = yfin m d

theorem hfin (d : Dev nD) (s' : Phys nD τ sig (Elt F)) : iprop(FIN m d ∗ SI s') ⊢ (⌜fq m d s'⌝ : sProp 𝕄) := by
  iintro ⟨⟨Hx, Ha, Hy⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := yLoc d) (I := Finset.univ) (q := fullShare) (f := yfin m d)) $$ [HSI Hy]
  · isplitl [HSI] <;> iassumption
  icases H with %h3
  ipureintro
  exact ⟨funext fun i => h1 i (Finset.mem_univ i), funext fun i => h2 i (Finset.mem_univ i), funext fun i => h3 i (Finset.mem_univ i)⟩

/-! ## @main -/

omit [FloatOps F] in
/-- The TensorCore's state before the call, as what it owes beside the rest. -/
theorem tcSt_owes (d : Dev nD) : ∃ R : sProp 𝕄, (K (F := F)).tcSt EH d 0
    = iprop((∃ W, ⌜(K (F := F)).WBelow (T d) W (8 * 0)⌝ ∗ owes (T d) ((K (F := F)).Otc d 0) W) ∗ R) := ⟨_, rfl⟩

/-- After the pipeline the unscoped buffers are the six arrays held at `V1`. -/
theorem ubufs_held (d : Dev nD) :
    (unscopedBufs d (Vout (fun c b => m ((SparseCore.T c).loc b)) d) : sProp 𝕄) = held (T d) S6 (V1 m d) := by
  rw [unscopedBufs_eq, held_S6]
  unfold V1
  rw [Function.update_of_ne (show x' ≠ c' by decide), Function.update_of_ne (show a' ≠ c' by decide), Function.update_self,
    Function.update_of_ne (show e' ≠ c' by decide), Function.update_of_ne (show f' ≠ c' by decide), Function.update_of_ne (show y' ≠ c' by decide),
    Vout_v0, Vout_of_ne _ _ main_arg0 (by decide), Vout_of_ne _ _ main_arg1 (by decide), Vout_of_ne _ _ main_v1 (by decide),
    Vout_of_ne _ _ main_v2 (by decide), Vout_of_ne _ _ main_v3 (by decide)]
  rfl

set_option maxHeartbeats 1000000 in
/-- @main on device `d`'s TensorCore: the copy pipeline, the fill value converted and broadcast, the copy moved into the
    buffer the SparseCore kernel addresses, the call over the fill vector's read shares and the 64 diagonal blocks. -/
theorem hmain (ρ : Dev nD → PrngReg) (κ : GSem nD τ sig → ℕ) (d : Dev nD) :
    iprop((K (F := F)).ctx EH (P m) κ ∗ (K (F := F)).tcSt EH d 0 ∗ (K (F := F)).tcRes m ρ d ∗ ghost0 (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  obtain ⟨R, hR⟩ := tcSt_owes (F := F) d
  rw [hR]
  simp only [main, wp_bind, wp_pure]
  iintro ⟨#Hctx, ⟨⟨%W, %hW, HO⟩, HR⟩, ⟨Hb, Hub, -, Hp⟩, Hg⟩
  -- the pipeline
  iapply (region0_wp (fun c b => m ((SparseCore.T c).loc b)) ((K (F := F)).Otc d 0) W (Otc_none d 0) d _)
  isplitr; · iapply (SparseCore.Cfg.ctx_levAts κ); iexact Hctx
  isplitl [Hg]; · iexact Hg
  isplitl [Hb]; · iexact Hb
  isplitl [Hub]; · iexact Hub
  isplitl [Hp]; · iexists _; iexact Hp
  isplitl [HO]; · iexact HO
  iintro ⟨Hb, Hub, -, %W', %hW', HO⟩
  ihave Hst := (Entails.of_eq hR.symm) $$ [HO HR]
  · isplitl [HO]
    · iexists W'; isplitr; · ipureintro; exact WBelow_of_none hW hW'
      iexact HO
    iexact HR
  ihave Hheld := (Entails.of_eq (ubufs_held m d)) $$ Hub
  -- the three host operations
  iapply (wp_hlo_within 𝒱 (SparseCore.T d) none Set.univ (op := op1) (S := S6) h1 (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S6) h2 (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S6) h3 (V := V3 m d)) $$ [Hb Hheld]
  · isplitl [Hb]; · iexact Hb
    iexact Hheld
  iintro ⟨Hb, Hheld⟩
  rw [wp_ret]; imodintro
  -- the arrays the call and the claim read, at their values
  rw [show (op3 (F := F)).result (V3 m d) = V4 m d from rfl]
  ihave Hh := (Entails.of_eq (held_S6 (F := F) d (V4 m d))) $$ Hheld
  rw [V4_x, V4_a, V4_f, V4_y]
  icases Hh with ⟨Hx, Ha, -, -, Hf, Hy⟩
  -- the fill vector's read shares, the result array's blocks
  ihave Hf2 := (Transfers.pointsTo_toks_split fullShare 2) $$ Hf
  icases Hf2 with ⟨-, Htok⟩
  ihave Hy2 := (pointsTo_split_subset (I := blocks) (Finset.subset_univ _)).1 $$ Hy
  icases Hy2 with ⟨Hblk, Hrest⟩
  -- the call
  iapply ((K (F := F)).wp_run (D (F := F)) 𝒱 (EH := EH) (P := P m) κ d 0) $$ [Hst Htok Hblk Hx Ha Hrest]
  isplitr; · iexact Hctx
  isplitl [Hst]; · iexact Hst
  isplitl [Htok Hblk]
  · rw [st0_eq]
    isplitl [Htok]; · iexact Htok
    iexact Hblk
  iintro ⟨Hst, Hdn⟩
  ihave Hdn' := (Entails.of_eq (dn0_eq m d)) $$ Hdn
  icases Hdn' with ⟨-, Hblk⟩
  imodintro
  isplitl [Hst]; · iexact Hst
  isplitl [Hx]; · iexact Hx
  isplitl [Ha]; · iexact Ha
  iapply (pointsTo_split_subset (I := blocks) (Finset.subset_univ _)).2
  isplitl [Hblk]; · iexact Hblk
  rw [← rest_congr]; iexact Hrest

end Cert.Proof.KB

end
-- ==== Proof.LaunchB.lean ====
/-
  The launch: the task of every vector subcore (the one body, at the subcore's place), how a SparseCore's operands
  split among its sixteen tasks and gather back, the launch element of the ghost state, and the program's run — every
  weakly fair execution ends with the result array at the input with its diagonal filled, the arguments as launched.
-/
import proofs.«201282_g70549132804296_cont_9to1_m_715_22_alg».proof.Proof.TileB
import proofs.«201282_g70549132804296_cont_9to1_m_715_22_alg».proof.Proof.MainB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "fW" => (Memref.whole Cert.Kernel.main_v2_scv : Memref Cert.Kernel.sig Kind.scVector Space.hbm Cert.Kernel.S16 EltTy.f32)
local notation "yW" => (Memref.whole Cert.Kernel.main_v3_scv : Memref Cert.Kernel.sig Kind.scVector Space.hbm Cert.Kernel.S8192x8192 EltTy.f32)
local notation "s0W" => (Memref.whole Cert.Kernel.cc1_scratch0 : Memref Cert.Kernel.sig Kind.scVector Space.vmem Cert.Kernel.S16 EltTy.f32)
local notation "s1W" => (Memref.whole Cert.Kernel.cc1_scratch1 : Memref Cert.Kernel.sig Kind.scVector Space.vmem Cert.Kernel.S2x128x128 EltTy.f32)

variable (m : (ℓ : Loc nD τ sig) → Buf (Elt F) ℓ) (ρ : Dev nD → PrngReg)
variable [FloatOps F]

/-! ## The launch theorem's obligations -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_body (coordsV c s)
          fW (Memref.isWhole_whole _) yW (Memref.isWhole_whole _) yW (Memref.isWhole_whole _)
          s0W (Memref.isWhole_whole _) s1W (Memref.isWhole_whole _) cc1_scratch2 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem drop_emp {A B : sProp 𝕄} : iprop(A ∗ emp ∗ B) ⊢ iprop(A ∗ B) := by
  iintro ⟨HA, -, HB⟩
  isplitl [HA]; · iexact HA
  iexact HB

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  show iprop(_ ∗ emp ∗ ((fLoc d ↦{tokT c.val i.val} ffill m d) ∗ bigSep (Finset.univ : Finset (Fin 2)) fun r => blkPts d (blkOf c.val i.val r.val) (y0 m d)) ∗ _)
    ⊢ wp _ _ _ _ (fun _ => iprop(((fLoc d ↦{tokT c.val i.val} ffill m d) ∗ bigSep (Finset.univ : Finset (Fin 2)) fun r => blkPts d (blkOf c.val i.val r.val) (yfin m d)) ∗ _))
  rw [bigSep_W0, bigSep_W0]
  exact drop_emp.trans ((tile_body d (coordsV ⟨_, hc.1⟩ ⟨_, hc.2⟩) hF (tokT c.val i.val) O W hO (ffill m d) (fillv m d) (fun _ => rfl) (y0 m d) trivial).trans
    (wp_mono frame _ _ fun _ => obl_post))

theorem vecSplit : (K (F := F)).VecSplit' (P m) 0 := by
  intro d c
  show iprop((fLoc d ↦{tokC c.val} ffill m d)
        ∗ bigSep (Finset.univ : Finset (Fin 16)) fun i => bigSep (Finset.univ : Finset (Fin 2)) fun r => blkPts d (blkOf c.val i.val r.val) (y0 m d))
      ⊢ |={Set.univ}=> iprop(
        (bigSep (Finset.univ : Finset (Fin 16)) fun i => iprop((fLoc d ↦{tokT c.val i.val} ffill m d)
          ∗ bigSep (Finset.univ : Finset (Fin 2)) fun r => blkPts d (blkOf c.val i.val r.val) (y0 m d)))
        ∗ ((bigSep (Finset.univ : Finset (Fin 16)) fun i => iprop((fLoc d ↦{tokT c.val i.val} ffill m d)
            ∗ bigSep (Finset.univ : Finset (Fin 2)) fun r => blkPts d (blkOf c.val i.val r.val) (yfin m d)))
          -∗ iprop((fLoc d ↦{tokC c.val} ffill m d)
            ∗ bigSep (Finset.univ : Finset (Fin 16)) fun i => bigSep (Finset.univ : Finset (Fin 2)) fun r => blkPts d (blkOf c.val i.val r.val) (yfin m d))))
  rw [bigSep_sep', bigSep_sep']
  iintro ⟨Hf, Hb⟩
  ihave H := (Transfers.pointsTo_toks_split (tokC c.val) 16) $$ Hf
  icases H with ⟨Hdrop, Htoks⟩
  imodintro
  isplitl [Htoks Hb]
  · isplitl [Htoks]; · iexact Htoks
    iexact Hb
  iintro ⟨Htoks, Hb⟩
  isplitl [Hdrop Htoks]
  · iapply (Transfers.pointsTo_toks_join (tokC c.val) 16)
    isplitl [Hdrop]; · iexact Hdrop
    iexact Htoks
  iexact Hb

/-! ## The launch element: the handshakes' rounds, the pipeline's staging cells' rounds, the counters -/

def u₀ : UU := (initOf (K (F := F)).hsCells (K (F := F)).hsToks,
  (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

omit [FloatOps F] in
/-- The pipeline's rounds sit in the left of the right factor. -/
theorem own_EP (a : UR sig nD τ) :
    (BI.own ((embR : Emb UK (MT nD τ sig (HIx 1) (Elt F) ℕ UU ℕ)) (a, 1)) : sProp 𝕄) = BI.own (EP a) := rfl

theorem hu₀ : (ownU (u₀ (F := F)) : sProp 𝕄)
    ⊢ |={Set.univ}=> iprop(BI.own (EH (initOf (K (F := F)).hsCells (K (F := F)).hsToks)) ∗ (bigSep Finset.univ fun d : Dev nD => ghost0 (F := F) d)
        ∗ bigSep Finset.univ fun thr : Thread nD τ => bigSep Finset.univ fun q : Fin 1 => (P m).x q thr) := by
  unfold u₀
  iintro Hu
  ihave H := (ownU_pair _ _) $$ Hu
  icases H with ⟨HH, HK⟩
  ihave HK' := (Entails.of_eq (own_EP (F := F) _)) $$ HK
  imod (ghost0_intro (F := F)) $$ HK' with Hg
  imodintro
  isplitl [HH]; · iexact HH
  isplitl [Hg]; · iexact Hg
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The program's run -/

def QC : PUnit × MemSt nD τ sig (Elt F) → Prop := fun r => ∀ c : Dev nD,
  r.2.mem (yLoc c) = yfin m c ∧ r.2.mem (xLoc c) = m (xLoc c) ∧ r.2.mem (aLoc c) = m (aLoc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun d => ghost0 (F := F) d) (FIN m) (u₀ (F := F)) (sep_elim_left.trans (hu₀ m)) (hmain m ρ) (fq m) (hfin m) (QC m)
    (fun _ h c => ⟨(h c).2.2, (h c).1, (h c).2.1⟩)

end Cert.Proof.KB

end
-- ==== Proof.RefValue.lean ====
/-
  The reference's value. The reference overwrites the main diagonal by a scatter: update number `j` (one per row)
  carries the fill value and goes to the operand entry its index vector `(j, j)` names. Since every update carries
  the same value, the order of the updates does not matter: the result holds the fill value exactly where some
  update lands, that is on the diagonal, and the operand's entry elsewhere.
-/
import proofs.«201282_g70549132804296_cont_9to1_m_715_22_alg».proof.Proof.Gen.ReferenceIdeal.Read
import proofs.«201282_g70549132804296_cont_9to1_m_715_22_alg».proof.Proof.Spec

noncomputable section

namespace Cert.Proof.RefValue

open Cert.ReferenceIdeal Cert.ReferenceIdeal.Gen Cert.ReferenceIdeal.Read Idealize.ShloMosaic Idealize.ShloMosaic.TcCoe Idealize.SL.Sem Idealize.ShloMosaic.StableHlo

/-- A scatter whose every update carries the same value `v`, read at an operand index `i'`:
    by induction over the update numbers taken so far, the folded array holds `v` at `i'` as soon as one of
    them lands there, and the start array's element otherwise. -/
theorem scatter_fold_const {s si u : Shape} {α : Type} {w : Nat} (d : ScatterDims s si u) (idx : IVec si w)
    (upd : u.Idx → α) (v : α) (hupd : ∀ j, upd j = v) (l : List (Fin u.numel)) (x : s.Idx → α) (i' : s.Idx) :
    (l.foldl (fun r n =>
      match d.resultIdx? (u.rowMajor.symm n) idx with
      | some i => fun i' => if i' = i then (fun (_ b : α) => b) (r i) (upd (u.rowMajor.symm n)) else r i'
      | none => r) x) i'
      = if ∃ n ∈ l, d.resultIdx? (u.rowMajor.symm n) idx = some i' then v else x i' := by
  classical
  induction l generalizing x with
  | nil => simp
  | cons n l ih =>
    rw [List.foldl_cons, ih]
    by_cases hl : ∃ m ∈ l, d.resultIdx? (u.rowMajor.symm m) idx = some i'
    · rw [if_pos hl, if_pos]
      obtain ⟨m, hm, e⟩ := hl
      exact ⟨m, List.mem_cons_of_mem _ hm, e⟩
    · rw [if_neg hl]
      cases hn : d.resultIdx? (u.rowMajor.symm n) idx with
      | none =>
        rw [if_neg]
        rintro ⟨m, hm, e⟩
        rcases List.mem_cons.1 hm with rfl | hm
        · rw [hn] at e; cases e
        · exact hl ⟨m, hm, e⟩
      | some i =>
        by_cases hi : i' = i
        · rw [if_pos ⟨n, List.mem_cons_self, by rw [hn, hi]⟩]
          show (if i' = i then upd (u.rowMajor.symm n) else x i') = v
          rw [if_pos hi, hupd]
        · rw [if_neg]
          · show (if i' = i then upd (u.rowMajor.symm n) else x i') = x i'
            rw [if_neg hi]
          · rintro ⟨m, hm, e⟩
            rcases List.mem_cons.1 hm with rfl | hm
            · rw [hn] at e; exact hi (Option.some.inj e).symm
            · exact hl ⟨m, hm, e⟩

/-- The same, over all the updates: `v` where some update lands, the operand's element elsewhere. -/
theorem scatter_const_apply {s si u : Shape} {α : Type} {w : Nat} (d : ScatterDims s si u) (x : s.Idx → α) (idx : IVec si w)
    (upd : u.Idx → α) (v : α) (hupd : ∀ j, upd j = v) (i' : s.Idx) [Decidable (∃ j, d.resultIdx? j idx = some i')] :
    Host.scatter d (fun _ b => b) x idx upd i' = if ∃ j, d.resultIdx? j idx = some i' then v else x i' := by
  refine Eq.trans (scatter_fold_const d idx upd v hupd (List.finRange u.numel) x i') ?_
  by_cases h : ∃ j, d.resultIdx? j idx = some i'
  · rw [if_pos h, if_pos]
    obtain ⟨j, e⟩ := h
    exact ⟨u.rowMajor j, List.mem_finRange _, by rw [Equiv.symm_apply_apply]; exact e⟩
  · rw [if_neg h, if_neg]
    rintro ⟨n, _, e⟩
    exact h ⟨_, e⟩

abbrev D := scatter_S8192x8192_S8192x2_S8192_n_01_01_1

/-- The position in the index array of component `c` of update `j`'s index vector: row `j`, column `c`. -/
def pairIdx (j : S8192.Idx) (c : Fin 2) : S8192x2.Idx := fun b => match b with
  | ⟨0, _⟩ => ⟨(j 0).val, (j 0).isLt⟩
  | ⟨1, _⟩ => ⟨c.val, c.isLt⟩

theorem siIdx_eq (j : S8192.Idx) (c : Fin 2) :
    D.siIdx j ⟨c.val, c.isLt⟩ = pairIdx j c := by
  funext b
  fin_cases b
  · rfl
  · rfl

theorem window_eq (j : S8192.Idx) (a : Fin 2) : D.window j a = 0 := by
  fin_cases a <;> rfl

theorem start_eq {w : Nat} (j : S8192.Idx) (idx : IVec S8192x2 w) (a : Fin 2) :
    D.start j idx a = (idx (pairIdx j a)).toInt := by
  match a with
  | ⟨0, _⟩ => exact congrArg (fun t => (idx t).toInt) (siIdx_eq j 0)
  | ⟨1, _⟩ => exact congrArg (fun t => (idx t).toInt) (siIdx_eq j 1)

variable {F : FTy → Type} [FloatOps F]

/-- A row number below 8192 read as a signed 32-bit word is itself. -/
theorem toInt_ofNat_small (n : Nat) (hn : n < 8192) : (BitVec.ofNat 32 n).toInt = (n : Int) := by
  rw [BitVec.toInt_eq_toNat_cond, BitVec.toNat_ofNat]
  have h : n % 2 ^ 32 = n := Nat.mod_eq_of_lt (by omega)
  rw [h, if_pos (by omega)]

/-- The negative-index wrap `select (k < 0) (k + 8192) k` leaves a row number below 8192 alone:
    it is not negative as a signed 32-bit word. -/
theorem wrap_eq (n : Nat) (hn : n < 8192) :
    Scalar.select (IntOp.cmpi .slt (BitVec.ofNat 32 n) 0#32) (IntOp.addi (BitVec.ofNat 32 n) 8192#32) (BitVec.ofNat 32 n)
      = BitVec.ofNat 32 n := by
  have h : (BitVec.ofNat 32 n).slt 0#32 = false := by
    show decide ((BitVec.ofNat 32 n).toInt < (0#32).toInt) = false
    rw [decide_eq_false_iff_not, toInt_ofNat_small n hn, BitVec.toInt_zero]
    omega
  unfold Scalar.select IntOp.cmpi
  simp [h]

theorem v6_apply (k : S8192.Idx) : val_main_v6 (F := F) k = BitVec.ofNat 32 (k 0).val := by
  rw [val_main_v6_apply, val_main_v3_apply, val_main_v5_apply, val_main_v0_apply, val_main_v2_apply, val_main_v4_apply,
    val_main_c_apply, val_main_c_0_apply]
  exact wrap_eq _ (k 0).isLt

theorem v11_apply (k : S8192.Idx) : val_main_v11 (F := F) k = BitVec.ofNat 32 (k 0).val := by
  rw [val_main_v11_apply, val_main_v8_apply, val_main_v10_apply, val_main_v0_apply, val_main_v7_apply, val_main_v9_apply,
    val_main_c_1_apply, val_main_c_2_apply]
  exact wrap_eq _ (k 0).isLt

/-- Row `j` of either [8192, 1] column. -/
def colIdx (j : S8192.Idx) : S8192x1.Idx := fun b => match b with
  | ⟨0, _⟩ => ⟨(j 0).val, (j 0).isLt⟩
  | ⟨1, _⟩ => ⟨0, Nat.zero_lt_one⟩

/-- The index array: row `j` is `(j, j)`. -/
theorem v14_apply (j : S8192.Idx) (c : Fin 2) :
    val_main_v14 (F := F) (pairIdx j c) = BitVec.ofNat 32 (j 0).val := by
  unfold val_main_v14
  match c with
  | ⟨0, _⟩ =>
    refine Eq.trans (concatenate_pair_apply_left (t := S8192x2) (s₁ := S8192x1) (s₂ := S8192x1) (1 : Fin 2) _ _
      concatenates_S8192x1_S8192x1_S8192x2_d1 (pairIdx j 0) rfl (colIdx j) (by intro b; fin_cases b <;> rfl)) ?_
    rw [val_main_v12_apply, v6_apply]
    rfl
  | ⟨1, _⟩ =>
    refine Eq.trans (concatenate_pair_apply_right (t := S8192x2) (s₁ := S8192x1) (s₂ := S8192x1) (1 : Fin 2) _ _
      concatenates_S8192x1_S8192x1_S8192x2_d1 (pairIdx j 1) rfl rfl (colIdx j)
      (by intro b hb; fin_cases b
          · rfl
          · exact absurd rfl hb) rfl) ?_
    rw [val_main_v13_apply, v11_apply]
    rfl

/-- Where update `j` lands: the diagonal entry `(j, j)`. -/
def diagIdx (j : S8192.Idx) : S8192x8192.Idx := fun a => match a with
  | ⟨0, _⟩ => ⟨(j 0).val, (j 0).isLt⟩
  | ⟨1, _⟩ => ⟨(j 0).val, (j 0).isLt⟩

/-- On either operand axis, update `j`'s start is `j` (the index array's row `j` is `(j, j)`) and its window
    coordinate is zero (both operand axes are inserted: an update is one element). -/
theorem start_window (j : S8192.Idx) (a : Fin 2) :
    D.start j (val_main_v14 (F := F)) a + D.window j a = ((j 0).val : Int) := by
  rw [start_eq, window_eq, v14_apply, toInt_ofNat_small _ (j 0).isLt]
  simp

/-- Update `j` lands on the diagonal entry `(j, j)`, which is inside the operand. -/
theorem resultIdx_eq (j : S8192.Idx) :
    D.resultIdx? j (val_main_v14 (F := F)) = some (diagIdx j) := by
  have hj : (j 0).val < 8192 := (j 0).isLt
  have hb : ∀ a, 0 ≤ D.start j (val_main_v14 (F := F)) a + D.window j a ∧
      D.start j (val_main_v14 (F := F)) a + D.window j a < S8192x8192.size a := by
    intro a
    rw [start_window]
    match a with
    | ⟨0, _⟩ => exact ⟨by omega, by show ((j 0).val : Int) < ((8192 : Nat) : Int); omega⟩
    | ⟨1, _⟩ => exact ⟨by omega, by show ((j 0).val : Int) < ((8192 : Nat) : Int); omega⟩
  unfold ScatterDims.resultIdx?
  rw [dif_pos hb]
  congr 1
  funext a
  apply Fin.ext
  show (D.start j (val_main_v14 (F := F)) a + D.window j a).toNat = (diagIdx j a).val
  rw [start_window]
  match a with
  | ⟨0, _⟩ => exact Int.toNat_natCast _
  | ⟨1, _⟩ => exact Int.toNat_natCast _

/-- The reference's result: the operand with its main diagonal overwritten by the converted fill value.
    Every update writes that one value, and the updates land exactly on the diagonal entries. -/
theorem ref_value (x0 : (⟨S8192x8192, .f32⟩ : BufTy).Contents (Elt F)) (x1 : (⟨S_, .i32⟩ : BufTy).Contents (Elt F)) :
    val_main_v16 (F := F) x0 x1 = Cert.Proof.Spec.diagSet x0 (FloatOps.sitofp .f32 (x1 (fun a => a.elim0))) := by
  classical
  funext i'
  unfold val_main_v16
  rw [scatter_const_apply D x0 _ (val_main_v15 (F := F) x1) (FloatOps.sitofp .f32 (x1 (fun a => a.elim0)))
    (fun j => by rw [val_main_v15_apply, val_main_v1_apply]) i']
  unfold Cert.Proof.Spec.diagSet
  by_cases h : (i' 0).val = (i' 1).val
  · rw [if_pos h, if_pos]
    refine ⟨fun b => match b with | ⟨0, _⟩ => ⟨(i' 0).val, (i' 0).isLt⟩, ?_⟩
    rw [resultIdx_eq]
    congr 1
    funext a
    apply Fin.ext
    match a with
    | ⟨0, _⟩ => rfl
    | ⟨1, _⟩ => exact h
  · rw [if_neg h, if_neg]
    rintro ⟨j, e⟩
    rw [resultIdx_eq] at e
    have e' := Option.some.inj e
    have h0 : (j 0).val = (i' 0).val := congrArg (fun t : S8192x8192.Idx => (t 0).val) e'
    have h1 : (j 0).val = (i' 1).val := congrArg (fun t : S8192x8192.Idx => (t 1).val) e'
    exact h (h0.symm.trans h1)

end Cert.Proof.RefValue

end
-- ==== Proof.lean ====
/-
  The five claims. Both printed kernels — the word-level one and its idealization, the same text read at two
  float instances — run a TensorCore pipeline that copies the input, then one SparseCore call whose 32 vector
  subcores each overwrite the diagonal of two 128 x 128 diagonal blocks with the fill value: every weakly fair
  execution ends, nothing faulting, with the result array at the input with its main diagonal at the fill value
  and both arguments as launched. The reference scatters the fill value onto the index pairs (k, k): the same array.
  The ideal pass rewrote nothing, so the preservation claim is empty.
-/
import proofs.«201282_g70549132804296_cont_9to1_m_715_22_alg».proof.Defs
import proofs.«201282_g70549132804296_cont_9to1_m_715_22_alg».proof.Proof.Gen.Kernel
import proofs.«201282_g70549132804296_cont_9to1_m_715_22_alg».proof.Proof.Gen.KernelIdeal
import proofs.«201282_g70549132804296_cont_9to1_m_715_22_alg».proof.Proof.Gen.ReferenceIdeal
import proofs.«201282_g70549132804296_cont_9to1_m_715_22_alg».proof.Proof.Gen.ReferenceIdeal.Run
import proofs.«201282_g70549132804296_cont_9to1_m_715_22_alg».proof.Proof.Gen.ReferenceIdeal.Read
import proofs.«201282_g70549132804296_cont_9to1_m_715_22_alg».proof.Proof.Gen.Pre_input_domain
import proofs.«201282_g70549132804296_cont_9to1_m_715_22_alg».proof.Proof.LaunchI
import proofs.«201282_g70549132804296_cont_9to1_m_715_22_alg».proof.Proof.LaunchB
import proofs.«201282_g70549132804296_cont_9to1_m_715_22_alg».proof.Proof.RefValue
import Idealize.ShloMosaic.Adequacy
import Idealize.ShloMosaic.Init

noncomputable section

namespace Cert.Proof

open Idealize.ShloMosaic Idealize.SL.Sem

/-- The word-level kernel's frame: its run, the result's value dropped. -/
theorem frame_k : @Cert.frame_Kernel Cert.Kernel.Gen.facts Cert.Pre_input_domain.Gen.facts := fun m ρ _ =>
  (θ_run Cert.Kernel.defs _ _).mono (fun _ h c => ⟨(h c).2.1, (h c).2.2⟩) (Cert.Proof.KB.run_main (F := Bits) m ρ)

/-- The idealized kernel's frame, likewise. -/
theorem frame_ki : @Cert.frame_KernelIdeal Cert.KernelIdeal.Gen.facts Cert.Pre_input_domain.Gen.facts := fun m ρ _ =>
  (θ_run Cert.KernelIdeal.defs _ _).mono (fun _ h c => ⟨(h c).2.1, (h c).2.2⟩) (Cert.Proof.KI.run_main (F := Ideal) m ρ)

/-- The reference's frame: its generated run, the result dropped. -/
theorem frame_ri : @Cert.frame_ReferenceIdeal Cert.ReferenceIdeal.Gen.facts Cert.Pre_input_domain.Gen.facts := fun m ρ _ =>
  (θ_run Cert.ReferenceIdeal.defs _ _).mono (fun _ h c => (h c).2) (Cert.ReferenceIdeal.Value.run (F := Ideal) m ρ)

/-- Both idealized programs end with the input's diagonal overwritten by the converted fill value. -/
theorem algebraic : @Cert.algebraic_KernelIdeal_ReferenceIdeal Cert.KernelIdeal.Gen.facts Cert.ReferenceIdeal.Gen.facts Cert.Pre_input_domain.Gen.facts := by
  intro m ρ m' ρ' _ hagree
  refine ⟨fun c => Cert.Proof.KI.yfin m c, ?_, ?_⟩
  · exact (θ_run Cert.KernelIdeal.defs _ _).mono (fun _ h c => h c) (Cert.Proof.KI.run_main (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v16_eq (F := Ideal) _ _).trans ((Cert.Proof.RefValue.ref_value (F := Ideal) _ _).trans ?_)
    rw [(hagree c).1, (hagree c).2]
    rfl

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
